-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x64 : Shape := ⟨2, ![64, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg7 : FVec F S64 .f32) (main_arg8 : FVec F S64x64 .f32) (main_arg9 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S64x128 .f32) (main_arg5 : FVec F S64 .f32) (main_arg6 : FVec F S64x64 .f32) (main_arg7 : FVec F S64 .f32) (main_arg8 : FVec F S64x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S64x128 .f32) (main_arg5 : FVec F S64 .f32) (main_arg6 : FVec F S64x64 .f32) (main_arg7 : FVec F S64 .f32) (main_arg8 : FVec F S64x64 .f32) (main_arg9 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x64 : Shape := ⟨2, ![64, 64]⟩
abbrev S128x64 : Shape := ⟨2, ![128, 64]⟩
abbrev S1x128 : Shape := ⟨2, ![1, 128]⟩
abbrev S1x64 : Shape := ⟨2, ![1, 64]⟩
abbrev S10000x64 : Shape := ⟨2, ![10000, 64]⟩
abbrev S200x10000 : Shape := ⟨2, ![200, 10000]⟩
abbrev S400x64 : Shape := ⟨2, ![400, 64]⟩
abbrev S200x128 : Shape := ⟨2, ![200, 128]⟩
abbrev S200x64 : Shape := ⟨2, ![200, 64]⟩

abbrev nBuf : Space → Nat
  | .hbm => 20
  | .vmem => 19
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S128x128, .f32⟩
  | .hbm, ⟨11, _⟩ => ⟨S128x64, .f32⟩
  | .hbm, ⟨12, _⟩ => ⟨S64x64, .f32⟩
  | .hbm, ⟨13, _⟩ => ⟨S64x64, .f32⟩
  | .hbm, ⟨14, _⟩ => ⟨S1x128, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S10000x64, .f32⟩
  | .hbm, ⟨19, _⟩ => ⟨S10000x64, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S1x128, .f32⟩
  | .local _ .vmem, ⟨7, _⟩ => ⟨S128x64, .f32⟩
  | .local _ .vmem, ⟨8, _⟩ => ⟨S1x64, .f32⟩
  | .local _ .vmem, ⟨9, _⟩ => ⟨S64x64, .f32⟩
  | .local _ .vmem, ⟨10, _⟩ => ⟨S1x64, .f32⟩
  | .local _ .vmem, ⟨11, _⟩ => ⟨S64x64, .f32⟩
  | .local _ .vmem, ⟨12, _⟩ => ⟨S1x64, .f32⟩
  | .local _ .vmem, ⟨13, _⟩ => ⟨S400x64, .f32⟩
  | .local _ .vmem, ⟨14, _⟩ => ⟨S400x64, .f32⟩
  | .local _ .vmem, ⟨15, _⟩ => ⟨S400x64, .f32⟩
  | .local _ .vmem, ⟨16, _⟩ => ⟨S400x64, .f32⟩
  | .local _ .vmem, ⟨17, _⟩ => ⟨S10000x128, .f32⟩
  | .local _ .vmem, ⟨18, _⟩ => ⟨S10000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) (c0_i32_14 : BitVec 32) : Fin 2 → Nat :=
  let c2_i32 : BitVec 32 := 2#32
  let arg1 : BitVec 32 := BitVec.ofNat 32 (i 1).val
  let v23 : BitVec 32 := Scalar.muli c2_i32 arg1
  let v24 : BitVec 32 := Scalar.addi v23 c0_i32_14
  let c200_i32 : BitVec 32 := 200#32
  let v25 : BitVec 32 := Scalar.muli v24 c200_i32
  let v26 : Index := Scalar.indexCast v25
  let c0_15 : Index := 0#32
  ![v26.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S400x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S400x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

class Facts₀ : Prop where
  transposes_S128x128_S128x128_1_0 : S128x128.Transposes [1, 0] S128x128
  transposes_S64x128_S128x64_1_0 : S64x128.Transposes [1, 0] S128x64
  transposes_S64x64_S64x64_1_0 : S64x64.Transposes [1, 0] S64x64
  shapeCasts_S128_S1x128 : S128.ShapeCasts S1x128
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  h_S200x64 : 0 < S200x64.numel
  shapeCasts_S200x64_S200x64 : S200x64.ShapeCasts S200x64
  inb_S10000x64_S10000x64_0_0 : ∀ a, (![0, 0] : Fin 2 → Nat) a + S10000x64.size a ≤ S10000x64.size a
  h_S10000x64 : 0 < S10000x64.numel
  inb_S400x64_S200x64_0_0 : ∀ a, (![0, 0] : Fin 2 → Nat) a + S200x64.size a ≤ S400x64.size a
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S400x64_S200x64_200_0 : ∀ a, (![200, 0] : Fin 2 → Nat) a + S200x64.size a ≤ S400x64.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S200x128_S128x64_S200x64_1_0_0_1_n_n_wf : DotDims.WF S200x128 S128x64 S200x64 [1] [0] [0] [1] [] []
  dot_S200x10000_S10000x64_S200x64_1_0_0_1_n_n_wf : DotDims.WF S200x10000 S10000x64 S200x64 [1] [0] [0] [1] [] []
  dot_S200x64_S64x64_S200x64_1_0_0_1_n_n_wf : DotDims.WF S200x64 S64x64 S200x64 [1] [0] [0] [1] [] []
  hrank0 : 0 < grid0.rank
  k0_off1_inb : ∀ i : grid0.Coords, ∀ (k0_h2 : k0_cond2 i = 1#1), ∀ (r : Fin 2), ∀ a, (k0_off1 i (BitVec.ofNat 32 r.val)) a + S200x64.size a ≤ S10000x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S400x64.size a ≤ S10000x64.size a
  hwx0_11 : ∀ i : grid0.Coords, EltTy.bits .f32 = 32 ∨ (Rect.block (s := S10000x64) S400x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S400x64.size a ≤ S10000x64.size a
  hwx0_12 : ∀ i : grid0.Coords, EltTy.bits .f32 = 32 ∨ (Rect.block (s := S10000x64) S400x64.size (cc0_transform_12 i) (hinb0_12 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x64_S200x64_1_0_0_1_n_n : DotDims S200x128 S128x64 S200x64 where
  lhsContracting := [1]
  rhsContracting := [0]
  lhsNonContracting := [0]
  rhsNonContracting := [1]
  lhsBatch := []
  rhsBatch := []
  wf := dot_S200x128_S128x64_S200x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S200x64_S64x64_S200x64_1_0_0_1_n_n : DotDims S200x64 S64x64 S200x64 where
  lhsContracting := [1]
  rhsContracting := [0]
  lhsNonContracting := [0]
  rhsNonContracting := [1]
  lhsBatch := []
  rhsBatch := []
  wf := dot_S200x64_S64x64_S200x64_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8_0) S400x64.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v8_1) S400x64.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond3 i == 1#1) | 12 => fun i => !(k0_cond3 i == 1#1) | ⟨_ + 13, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x64 : Shape := ⟨2, ![64, 64]⟩
abbrev S1x128 : Shape := ⟨2, ![1, 128]⟩
abbrev S_ : Shape := ⟨0, ![]⟩
abbrev S128x64 : Shape := ⟨2, ![128, 64]⟩
abbrev S10000x64 : Shape := ⟨2, ![10000, 64]⟩
abbrev S1x64 : Shape := ⟨2, ![1, 64]⟩

abbrev nBuf : Space → Nat
  | .hbm => 38
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S128x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S_, .f32⟩
  | .hbm, ⟨17, _⟩ => ⟨S10000x128, .f32⟩
  | .hbm, ⟨18, _⟩ => ⟨S10000x128, .f32⟩
  | .hbm, ⟨19, _⟩ => ⟨S128x64, .f32⟩
  | .hbm, ⟨20, _⟩ => ⟨S10000x64, .f32⟩
  | .hbm, ⟨21, _⟩ => ⟨S1x64, .f32⟩
  | .hbm, ⟨22, _⟩ => ⟨S10000x64, .f32⟩
  | .hbm, ⟨23, _⟩ => ⟨S10000x64, .f32⟩
  | .hbm, ⟨24, _⟩ => ⟨S10000x64, .f32⟩
  | .hbm, ⟨25, _⟩ => ⟨S64x64, .f32⟩
  | .hbm, ⟨26, _⟩ => ⟨S10000x64, .f32⟩
  | .hbm, ⟨27, _⟩ => ⟨S1x64, .f32⟩
  | .hbm, ⟨28, _⟩ => ⟨S10000x64, .f32⟩
  | .hbm, ⟨29, _⟩ => ⟨S10000x64, .f32⟩
  | .hbm, ⟨30, _⟩ => ⟨S_, .f32⟩
  | .hbm, ⟨31, _⟩ => ⟨S10000x64, .f32⟩
  | .hbm, ⟨32, _⟩ => ⟨S10000x64, .f32⟩
  | .hbm, ⟨33, _⟩ => ⟨S64x64, .f32⟩
  | .hbm, ⟨34, _⟩ => ⟨S10000x64, .f32⟩
  | .hbm, ⟨35, _⟩ => ⟨S1x64, .f32⟩
  | .hbm, ⟨36, _⟩ => ⟨S10000x64, .f32⟩
  | .hbm, ⟨37, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_cst : Ref sig .tc := ⟨.hbm, 16, rfl⟩
abbrev main_call0_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call1_cst : Ref sig .tc := ⟨.hbm, 30, rfl⟩
abbrev main_call1_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  transposes_S64x128_S128x64_1_0 : S64x128.Transposes [1, 0] S128x64
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  transposes_S64x64_S64x64_1_0 : S64x64.Transposes [1, 0] S64x64
  bcast_S_S10000x64 : S_.BroadcastsInDim S10000x64 (![] : Fin 0 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

class Facts : Prop extends Facts₀ where

variable [Facts]
-- ==== Proof.WBase.lean ====
import proofs.«133318_g652835029058_cont_9to1_m_690_17_alg».proof.Proof.Gen.Kernel.Launch
import proofs.«133318_g652835029058_cont_9to1_m_690_17_alg».proof.Proof.Gen.Kernel.Skeleton
import proofs.«133318_g652835029058_cont_9to1_m_690_17_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.WritesUnit
import Idealize.ShloMosaic.Lib.ValueIdx
import Idealize.ShloMosaic.Lib.Pipeline.Value
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

/-- The first conditional's condition (both grid coordinates zero), as the body computes it. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The second: the first grid coordinate (the phase) is 0. -/
abbrev cond2 (i : grid0.Coords) : Prop := k0_cond2 i = 1#1
/-- The third: the phase is 1. -/
abbrev cond3 (i : grid0.Coords) : Prop := k0_cond3 i = 1#1

theorem hz2 : (![0, 0] : Fin 2 → ℕ) = fun _ => 0 := by
  funext a; match a with | ⟨0, _⟩ => rfl | ⟨1, _⟩ => rfl

/-- Two blocks of 200 rows set one above the other. -/
def stack2 {α : Type} (lo hi : S200x64.Idx → α) : S400x64.Idx → α := fun y =>
  if h : (y 0).val < 200 then lo (ix2 ⟨(y 0).val, h⟩ (y 1))
  else hi (ix2 ⟨(y 0).val - 200, by have := idx2_lt0 y; omega⟩ (y 1))

/-- A buffer of 400 rows into which rows 0–199 and then rows 200–399 were stored holds the two payloads one above
    the other, whatever it held before. -/
theorem read_two_halves {sig' : RefSig} {κ : Kind} {sp : Space} (v : View sig' κ sp S400x64 .f32) (f : v.ty.Contents (Elt F))
    (inb0 : ∀ a, (![0, 0] : Fin 2 → ℕ) a + S200x64.size a ≤ S400x64.size a)
    (inb1 : ∀ a, (![200, 0] : Fin 2 → ℕ) a + S200x64.size a ≤ S400x64.size a)
    (lo hi : S200x64.Idx → Elt F .f32) :
    v.read (Elt F) (v.writes (Elt F) f [⟨Rect.unit ![200, 0] S200x64.size inb1, hi⟩, ⟨Rect.unit ![0, 0] S200x64.size inb0, lo⟩])
      = stack2 lo hi := by
  funext y
  have hy0 := idx2_lt0 y
  rw [View.read_writes_cons_rows v f inb1 hi _ y rfl (W := 200) rfl rfl]
  split
  · next h =>
    unfold stack2; rw [dif_neg (by omega)]
    congr 1
    funext a; apply Fin.ext
    match a with
    | ⟨0, _⟩ => rfl
    | ⟨1, _⟩ => exact Nat.sub_zero _
  · next h =>
    rw [View.read_writes_cons_rows v f inb0 lo _ y rfl (W := 200) rfl rfl]
    rw [dif_pos (by omega)]
    unfold stack2; rw [dif_pos (by omega)]
    congr 1
    funext a; apply Fin.ext
    match a with
    | ⟨0, _⟩ => exact Nat.sub_zero _
    | ⟨1, _⟩ => exact Nat.sub_zero _

variable (m : (ℓ : Loc nD τ sig) → Buf (Elt F) ℓ)

/-- Core `c`'s TensorCore buffer contents when the region is entered: after the eight host operations (four transposes,
    four reshapes) before it. -/
abbrev V0 (c : Dev nD) : Valuation τ sig (Elt F) := StableHlo.after (hostOps0 (F := F)) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Hand

end
-- ==== Proof.WSlabs.lean ====
import proofs.«133318_g652835029058_cont_9to1_m_690_17_alg».proof.Proof.Gen.Kernel.Launch
import proofs.«133318_g652835029058_cont_9to1_m_690_17_alg».proof.Proof.Gen.Kernel.Skeleton
import proofs.«133318_g652835029058_cont_9to1_m_690_17_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«133318_g652835029058_cont_9to1_m_690_17_alg».proof.Proof.WBase
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

/-- A table of 10000 rows with the rows `[o0, o0 + 200)` replaced by `lo` and then the rows `[o1, o1 + 200)` by `hi`. -/
def slabs2 {α : Type} (o0 o1 : ℕ) (prev : S10000x64.Idx → α) (lo hi : S200x64.Idx → α) : S10000x64.Idx → α := fun y =>
  if h : o1 ≤ (y 0).val ∧ (y 0).val < o1 + 200 then hi (ix2 ⟨(y 0).val - o1, by omega⟩ (y 1))
  else if h : o0 ≤ (y 0).val ∧ (y 0).val < o0 + 200 then lo (ix2 ⟨(y 0).val - o0, by omega⟩ (y 1))
  else prev y

/-- A buffer of 10000 rows into which 200 whole rows were stored at row `o0` and then 200 at row `o1` holds the two
    payloads there and what it held before everywhere else. -/
theorem read_two_slabs {sig' : RefSig} {κ : Kind} {sp : Space} (v : View sig' κ sp S10000x64 .f32) (f : v.ty.Contents (Elt F))
    {off0 off1 : Fin 2 → ℕ} {o0 o1 : ℕ}
    (inb0 : ∀ a, off0 a + S200x64.size a ≤ S10000x64.size a)
    (inb1 : ∀ a, off1 a + S200x64.size a ≤ S10000x64.size a)
    (h0 : off0 = ![o0, 0]) (h1 : off1 = ![o1, 0])
    (lo hi : S200x64.Idx → Elt F .f32) :
    v.read (Elt F) (v.writes (Elt F) f [⟨Rect.unit off1 S200x64.size inb1, hi⟩, ⟨Rect.unit off0 S200x64.size inb0, lo⟩])
      = slabs2 o0 o1 (v.read (Elt F) f) lo hi := by
  funext y
  rw [View.read_writes_cons_rows v f inb1 hi _ y h1 (W := 200) rfl rfl]
  split
  · next h =>
    unfold slabs2; rw [dif_pos h]
    congr 1
    funext a; apply Fin.ext
    match a with
    | ⟨0, _⟩ => rfl
    | ⟨1, _⟩ => exact Nat.sub_zero _
  · next h =>
    rw [View.read_writes_cons_rows v f inb0 lo _ y h0 (W := 200) rfl rfl]
    unfold slabs2; rw [dif_neg h]
    split
    · next h' =>
      congr 1
      funext a; apply Fin.ext
      match a with
      | ⟨0, _⟩ => rfl
      | ⟨1, _⟩ => exact Nat.sub_zero _
    · next h' => rfl

end Cert.Kernel.Hand

end
-- ==== Proof.WData.lean ====
import proofs.«133318_g652835029058_cont_9to1_m_690_17_alg».proof.Proof.Gen.Kernel.Launch
import proofs.«133318_g652835029058_cont_9to1_m_690_17_alg».proof.Proof.Gen.Kernel.Skeleton
import proofs.«133318_g652835029058_cont_9to1_m_690_17_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«133318_g652835029058_cont_9to1_m_690_17_alg».proof.Proof.WBase
import proofs.«133318_g652835029058_cont_9to1_m_690_17_alg».proof.Proof.WSlabs
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

/-! ## The schedule, decided over the grid's 50 points

Point `t` has coordinates `(t / 25, t % 25)`: the first 25 points are phase 0, the last 25 phase 1. -/

theorem N50 : cfg0.N = 50 := N_0

/-- Only the first point computes the input projection; -/
theorem hcond1 : ∀ t : Fin cfg0.N, cond1 (grid0.coords t) ↔ t.val = 0 :=
  (by decide +kernel : ∀ t : Fin grid0.N, cond1 (grid0.coords t) ↔ t.val = 0)
/-- the points of phase 0 fill the second layer's input; -/
theorem hcond2 : ∀ t : Fin cfg0.N, cond2 (grid0.coords t) ↔ t.val < 25 :=
  (by decide +kernel : ∀ t : Fin grid0.N, cond2 (grid0.coords t) ↔ t.val < 25)
/-- the points of phase 1 compute the outputs. -/
theorem hcond3 : ∀ t : Fin cfg0.N, cond3 (grid0.coords t) ↔ 25 ≤ t.val :=
  (by decide +kernel : ∀ t : Fin grid0.N, cond3 (grid0.coords t) ↔ 25 ≤ t.val)

/-- Point `t` of phase 0 stores rows `[400 t, 400 t + 200)` and `[400 t + 200, 400 t + 400)`. -/
theorem hoff0 : ∀ t : Fin cfg0.N, t.val < 25 → k0_off1 (grid0.coords t) 0#32 = ![400 * t.val, 0] :=
  (by decide +kernel : ∀ t : Fin grid0.N, t.val < 25 → k0_off1 (grid0.coords t) 0#32 = ![400 * t.val, 0])
theorem hoff1 : ∀ t : Fin cfg0.N, t.val < 25 → k0_off1 (grid0.coords t) 1#32 = ![400 * t.val + 200, 0] :=
  (by decide +kernel : ∀ t : Fin grid0.N, t.val < 25 → k0_off1 (grid0.coords t) 1#32 = ![400 * t.val + 200, 0])

/-- The output windows are idle throughout phase 0 and not written back there; in phase 1 they are live. -/
theorem idle11 : ∀ t : Fin cfg0.N, t.val < 25 → cfg0.idle 11 (grid0.coords t) = true := by decide +kernel
theorem idle12 : ∀ t : Fin cfg0.N, t.val < 25 → cfg0.idle 12 (grid0.coords t) = true := by decide +kernel
theorem noFlush11 : ∀ t : Fin cfg0.N, t.val < 25 → (cfg0.win 11).flush t = false := by decide +kernel
theorem noFlush12 : ∀ t : Fin cfg0.N, t.val < 25 → (cfg0.win 12).flush t = false := by decide +kernel
theorem live11 : ∀ t : Fin cfg0.N, 25 ≤ t.val → cfg0.idle 11 (grid0.coords t) = false := by decide +kernel
theorem live12 : ∀ t : Fin cfg0.N, 25 ≤ t.val → cfg0.idle 12 (grid0.coords t) = false := by decide +kernel

variable (m : (ℓ : Loc nD τ sig) → Buf (Elt F) ℓ)

/-! ## What the kernel computes, through its payloads -/

/-- The grid's first point, at which the blocks of the windows that never move are read. -/
abbrev t0 : Fin cfg0.N := ⟨0, by rw [N50]; exact Nat.zero_lt_succ _⟩

/-- The scratch operands: whole buffers of the kernel's own. -/
abbrev scM0 : Memref sig .tc .vmem S10000x128 .f32 := Memref.whole cc0_scratch0
abbrev scM1 : Memref sig .tc .vmem S10000x64 .f32 := Memref.whole cc0_scratch1

/-- The features, the first layer's weight matrix (already transposed) and bias row: whole arrays, as the first point finds
    them in their windows. -/
def X2 (c : Dev nD) : Vec F S10000x128 .f32 := iblk m c 2 t0
def X3 (c : Dev nD) : Vec F S128x128 .f32 := iblk m c 3 t0
def X4 (c : Dev nD) : Vec F S1x128 .f32 := iblk m c 4 t0

/-- The input projection the first point leaves in the first scratch. -/
def P1 (c : Dev nD) : Vec F S10000x128 .f32 := k0_pay1 (X2 m c) (X3 m c) (X4 m c)

/-- The 200 rows of the second layer's input that point `n` computes from its first block of the adjacency matrix, -/
def H2lo (c : Dev nD) (n : Fin cfg0.N) : Vec F S200x64 .f32 := k0_pay4 (P1 m c) (iblk m c 0 n) (iblk m c 5 n) (iblk m c 6 n)
/-- and from its second. -/
def H2hi (c : Dev nD) (n : Fin cfg0.N) : Vec F S200x64 .f32 := k0_pay2 (k0_pay5 (P1 m c) (iblk m c 1 n) (iblk m c 5 n) (iblk m c 6 n))

/-- The whole second layer's input: rows `[400 n, 400 n + 200)` come from point `n`'s first block, the next 200 from its
    second. -/
def H2 (c : Dev nD) : Vec F S10000x64 .f32 := fun y =>
  if h : (y 0).val % 400 < 200 then
    H2lo m c ⟨(y 0).val / 400, by have := idx2_lt0 y; rw [N50]; omega⟩ (ix2 ⟨(y 0).val % 400, h⟩ (y 1))
  else
    H2hi m c ⟨(y 0).val / 400, by have := idx2_lt0 y; rw [N50]; omega⟩ (ix2 ⟨(y 0).val % 400 - 200, by omega⟩ (y 1))

/-- What a point of phase 1 leaves in the first output window: the projected embedding of its 400 rows. -/
def Zout (c : Dev nD) (t : Fin cfg0.N) : Vec F S400x64 .f32 :=
  stack2 (k0_pay7 (H2 m c) (iblk m c 0 t) (iblk m c 7 t) (iblk m c 8 t) (iblk m c 9 t) (iblk m c 10 t))
    (k0_pay3 (k0_pay9 (H2 m c) (iblk m c 1 t) (iblk m c 7 t)) (iblk m c 8 t) (iblk m c 9 t) (iblk m c 10 t))
/-- And in the second: the embedding of its 400 rows. -/
def Eout (c : Dev nD) (t : Fin cfg0.N) : Vec F S400x64 .f32 :=
  stack2 (k0_pay6 (H2 m c) (iblk m c 0 t)) (k0_pay8 (H2 m c) (iblk m c 1 t))

/-! ## The invariant -/

/-- What is known of the two scratch buffers' contents before point `n`: after the first point the first holds the input
    projection; the rows below `400 · min n 25` of the second hold the second layer's input. -/
def Inv (c : Dev nD) (n : ℕ) (f0 : Vec F S10000x128 .f32) (f1 : Vec F S10000x64 .f32) : Prop :=
  (0 < n → f0 = P1 m c) ∧ ∀ y : S10000x64.Idx, (y 0).val < 400 * min n 25 → f1 y = H2 m c y

/-- The scratch buffers, whole, at contents of which `Inv` holds. -/
def Phi (c : Dev nD) (n : ℕ) : sProp 𝕄 :=
  iprop(∃ f0 f1, ⌜Inv m c n f0 f1⌝ ∗ owns (c : Thread nD τ) scM0 fullShare f0 ∗ owns (c : Thread nD τ) scM1 fullShare f1)

/-! ## The proof data -/

/-- The proof data of the pipeline on core `c`: the arrays as the region finds them; every input window's buffer at its
    block; the output windows' at `Zout` / `Eout`; the invariant `Phi`; the adjacency matrix's two windows hold one half
    of it each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => Zout m c t
    | ⟨12, _⟩ => Eout m c t
  Φ t := Phi m c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = Zout m c t := by dsimp only [dats]
theorem after_12 (c : Dev nD) (t : Fin cfg0.N) : (dats m 0 c).after 12 t = Eout m c t := by dsimp only [dats]

theorem Phi_castSucc (c : Dev nD) (t : Fin cfg0.N) : (dats m 0 c).Φ t.castSucc = Phi m c t.val := by
  dsimp only [dats]; simp only [Fin.coe_castSucc]
theorem Phi_succ (c : Dev nD) (t : Fin cfg0.N) : (dats m 0 c).Φ t.succ = Phi m c (t.val + 1) := by
  dsimp only [dats]; simp only [Fin.val_succ]

/-! ## Each input window's buffer holds its block at every point -/

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl)
    (fun t => by rw [after_10]; unfold Dat.blockOf iblk; rw [A_eq]; try rfl) t d).trans
    (by unfold Dat.fetched Dat.blockOf iblk; rw [A_eq]; try rfl)

end Cert.Kernel.Hand

end
-- ==== Proof.WInv.lean ====
import proofs.«133318_g652835029058_cont_9to1_m_690_17_alg».proof.Proof.Gen.Kernel.Launch
import proofs.«133318_g652835029058_cont_9to1_m_690_17_alg».proof.Proof.Gen.Kernel.Skeleton
import proofs.«133318_g652835029058_cont_9to1_m_690_17_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«133318_g652835029058_cont_9to1_m_690_17_alg».proof.Proof.WData
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- A row of point `n`'s first 200 rows reads `H2lo`. -/
theorem H2_lo (c : Dev nD) (n : Fin cfg0.N) (y : S10000x64.Idx)
    (h : 400 * n.val ≤ (y 0).val ∧ (y 0).val < 400 * n.val + 200) :
    H2 m c y = H2lo m c n (ix2 ⟨(y 0).val - 400 * n.val, by omega⟩ (y 1)) := by
  have hv : (y 0).val / 400 = n.val := by omega
  have hm : (y 0).val % 400 = (y 0).val - 400 * n.val := by omega
  unfold H2
  rw [dif_pos (by omega)]
  simp only [hv, hm]

/-- A row of point `n`'s second 200 rows reads `H2hi`. -/
theorem H2_hi (c : Dev nD) (n : Fin cfg0.N) (y : S10000x64.Idx)
    (h : 400 * n.val + 200 ≤ (y 0).val ∧ (y 0).val < 400 * n.val + 200 + 200) :
    H2 m c y = H2hi m c n (ix2 ⟨(y 0).val - (400 * n.val + 200), by omega⟩ (y 1)) := by
  have hv : (y 0).val / 400 = n.val := by omega
  have hm : (y 0).val % 400 - 200 = (y 0).val - (400 * n.val + 200) := by omega
  unfold H2
  rw [dif_neg (by omega)]
  simp only [hv, hm]

/-- One point of phase 0 extends the rows of the second layer's input that are in place by its own 400. -/
theorem rows_step (c : Dev nD) (n : Fin cfg0.N) (f1 : Vec F S10000x64 .f32)
    (hprev : ∀ y : S10000x64.Idx, (y 0).val < 400 * n.val → f1 y = H2 m c y)
    (y : S10000x64.Idx) (hy : (y 0).val < 400 * (n.val + 1)) :
    slabs2 (400 * n.val) (400 * n.val + 200) f1 (H2lo m c n) (H2hi m c n) y = H2 m c y := by
  unfold slabs2
  split
  · next h => exact (H2_hi m c n y h).symm
  · next h =>
    split
    · next h' => exact (H2_lo m c n y h').symm
    · next h' => exact hprev y (by omega)

/-- The invariant before the first point holds of any contents. -/
theorem Inv_zero (c : Dev nD) (f0 : Vec F S10000x128 .f32) (f1 : Vec F S10000x64 .f32) : Inv m c 0 f0 f1 :=
  ⟨fun h => absurd h (Nat.lt_irrefl 0), fun y h => absurd h (by simp)⟩

/-- The invariant after a point of phase 0. -/
theorem Inv_step (c : Dev nD) (n : Fin cfg0.N) (hn : n.val < 25) (f0 : Vec F S10000x128 .f32) (f1 : Vec F S10000x64 .f32)
    (hf0 : f0 = P1 m c) (hprev : ∀ y : S10000x64.Idx, (y 0).val < 400 * n.val → f1 y = H2 m c y) :
    Inv m c (n.val + 1) f0 (slabs2 (400 * n.val) (400 * n.val + 200) f1 (H2lo m c n) (H2hi m c n)) :=
  ⟨fun _ => hf0, fun y hy => rows_step m c n f1 hprev y (by
    have : min (n.val + 1) 25 = n.val + 1 := by omega
    rw [this] at hy; exact hy)⟩

/-- From the first point of phase 1 on, the second scratch holds the whole second layer's input. -/
theorem Inv_full (c : Dev nD) (n : ℕ) (hn : 25 ≤ n) (f0 : Vec F S10000x128 .f32) (f1 : Vec F S10000x64 .f32)
    (h : Inv m c n f0 f1) : f1 = H2 m c :=
  funext fun y => h.2 y (by
    have := idx2_lt0 y
    have : min n 25 = 25 := by omega
    rw [this]; omega)

/-- The rows in place before point `n` of phase 0. -/
theorem Inv_rows (c : Dev nD) (n : ℕ) (hn : n < 25) (f0 : Vec F S10000x128 .f32) (f1 : Vec F S10000x64 .f32)
    (h : Inv m c n f0 f1) : ∀ y : S10000x64.Idx, (y 0).val < 400 * n → f1 y = H2 m c y := fun y hy =>
  h.2 y (by have : min n 25 = n := by omega
            rw [this]; exact hy)

end Cert.Kernel.Hand

end
-- ==== Proof.WRunA.lean ====
import proofs.«133318_g652835029058_cont_9to1_m_690_17_alg».proof.Proof.Gen.Kernel.Launch
import proofs.«133318_g652835029058_cont_9to1_m_690_17_alg».proof.Proof.Gen.Kernel.Skeleton
import proofs.«133318_g652835029058_cont_9to1_m_690_17_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«133318_g652835029058_cont_9to1_m_690_17_alg».proof.Proof.WBase
import proofs.«133318_g652835029058_cont_9to1_m_690_17_alg».proof.Proof.WSlabs
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at the first point: it computes the input projection from `x2`, `x3`, `x4` into its scratch, and then does
    what every point of phase 0 does with that projection. -/
theorem runA (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S400x64 .f32) (harg13 : arg13.IsWhole) (arg14 : Memref sig .tc .vmem S400x64 .f32) (harg14 : arg14.IsWhole) (arg15 : Memref sig .tc .vmem S10000x128 .f32) (harg15 : arg15.IsWhole) (arg16 : Memref sig .tc .vmem S10000x64 .f32) (harg16 : arg16.IsWhole)
    (hc1 : cond1 i) (hc2 : cond2 i) (hc3 : ¬cond3 i)
    (o0 o1 : ℕ) (hoff0 : k0_off1 i 0#32 = ![o0, 0]) (hoff1 : k0_off1 i 1#32 = ![o1, 0])
    (x0 x1 : Vec F S200x10000 .f32) (x2 : Vec F S10000x128 .f32) (x3 : Vec F S128x128 .f32) (x4 : Vec F S1x128 .f32)
    (x5 : Vec F S128x64 .f32) (x6 : Vec F S1x64 .f32)
    (xs1 : Vec F S10000x64 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3 ∗ owns (c : Thread nD τ) arg6 fullShare x4
        ∗ owns (c : Thread nD τ) arg7 fullShare x5 ∗ owns (c : Thread nD τ) arg8 fullShare x6
        ∗ (∃ d, owns (c : Thread nD τ) arg15 fullShare d) ∗ owns (c : Thread nD τ) arg16 fullShare xs1
        ∗ (iprop(owns (c : Thread nD τ) arg2 fullShare x0 ∗ owns (c : Thread nD τ) arg3 fullShare x1
            ∗ owns (c : Thread nD τ) arg4 fullShare x2 ∗ owns (c : Thread nD τ) arg5 fullShare x3 ∗ owns (c : Thread nD τ) arg6 fullShare x4
            ∗ owns (c : Thread nD τ) arg7 fullShare x5 ∗ owns (c : Thread nD τ) arg8 fullShare x6
            ∗ owns (c : Thread nD τ) arg15 fullShare (k0_pay1 x2 x3 x4)
            ∗ owns (c : Thread nD τ) arg16 fullShare (slabs2 o0 o1 xs1 (k0_pay4 (k0_pay1 x2 x3 x4) x0 x5 x6) (k0_pay2 (k0_pay5 (k0_pay1 x2 x3 x4) x1 x5 x6)))) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
  obtain rfl := harg2.eq_unread hf0; obtain rfl := harg3.eq_unread hf1
  obtain rfl := harg4.eq_unread hf2; obtain rfl := harg5.eq_unread hf3; obtain rfl := harg6.eq_unread hf4
  obtain rfl := harg7.eq_unread hf5; obtain rfl := harg8.eq_unread hf6
  obtain rfl := harg16.eq_unread hfs1
  sl_exec (disch := first | exact hc1 | exact hc2 | exact hc3)
  sl_step
  iapply Hk
  isplitl [H0]
  · iexists _; isplitr
    · ipureintro; exact harg2.read_unread _
    · iexact H0
  isplitl [H1]
  · iexists _; isplitr
    · ipureintro; exact harg3.read_unread _
    · iexact H1
  isplitl [H2]
  · iexists _; isplitr
    · ipureintro; exact harg4.read_unread _
    · iexact H2
  isplitl [H3]
  · iexists _; isplitr
    · ipureintro; exact harg5.read_unread _
    · iexact H3
  isplitl [H4]
  · iexists _; isplitr
    · ipureintro; exact harg6.read_unread _
    · iexact H4
  isplitl [H5]
  · iexists _; isplitr
    · ipureintro; exact harg7.read_unread _
    · iexact H5
  isplitl [H6]
  · iexists _; isplitr
    · ipureintro; exact harg8.read_unread _
    · iexact H6
  isplitl [HS0]
  · iexists _; isplitr
    swap
    · iexact HS0
    ipureintro
    sl_unfold_words
    simp only [View.readAt_eq_ld, Memref.IsWhole.read_unread, View.ld_unit_zero (S := S10000x128) hz2, View.ld_unit_zero (S := S10000x64) hz2, View.ld_unit_zero (S := S200x10000) hz2, View.ld_unit_zero (S := S128x128) hz2, View.ld_unit_zero (S := S1x128) hz2, View.ld_unit_zero (S := S128x64) hz2, View.ld_unit_zero (S := S64x64) hz2, View.ld_unit_zero (S := S1x64) hz2]
    funext y
    exact View.read_writes_cons_unit_of_mem _ _ _ _ [] y y rfl
      (fun a => by match a with | ⟨0, _⟩ => exact (Nat.zero_add _).symm | ⟨1, _⟩ => exact (Nat.zero_add _).symm)
  iexists _; isplitr
  swap
  · iexact HS1
  ipureintro
  rw [read_two_slabs _ _ _ _ hoff0 hoff1, harg16.read_unread]
  sl_unfold_words
  simp only [View.readAt_eq_ld, Memref.IsWhole.read_unread, View.ld_unit_zero (S := S10000x128) hz2, View.ld_unit_zero (S := S10000x64) hz2, View.ld_unit_zero (S := S200x10000) hz2, View.ld_unit_zero (S := S128x128) hz2, View.ld_unit_zero (S := S1x128) hz2, View.ld_unit_zero (S := S128x64) hz2, View.ld_unit_zero (S := S64x64) hz2, View.ld_unit_zero (S := S1x64) hz2]
  rw [View.readCov_unit_zero (S := S10000x128) _ hz2]

end Cert.Kernel.Hand

end
-- ==== Proof.WRunB.lean ====
import proofs.«133318_g652835029058_cont_9to1_m_690_17_alg».proof.Proof.Gen.Kernel.Launch
import proofs.«133318_g652835029058_cont_9to1_m_690_17_alg».proof.Proof.Gen.Kernel.Skeleton
import proofs.«133318_g652835029058_cont_9to1_m_690_17_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«133318_g652835029058_cont_9to1_m_690_17_alg».proof.Proof.WBase
import proofs.«133318_g652835029058_cont_9to1_m_690_17_alg».proof.Proof.WSlabs
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a point of phase 0 other than the first: with the input projection `xs0` in its scratch and the two
    blocks of 200 rows of the adjacency matrix `x0`, `x1` in the first two windows, it stores the two blocks' rows of
    the second layer's input into the other scratch at the rows the point's coordinates name, and changes nothing else. -/
theorem runB (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S400x64 .f32) (harg13 : arg13.IsWhole) (arg14 : Memref sig .tc .vmem S400x64 .f32) (harg14 : arg14.IsWhole) (arg15 : Memref sig .tc .vmem S10000x128 .f32) (harg15 : arg15.IsWhole) (arg16 : Memref sig .tc .vmem S10000x64 .f32) (harg16 : arg16.IsWhole)
    (hc1 : ¬cond1 i) (hc2 : cond2 i) (hc3 : ¬cond3 i)
    (o0 o1 : ℕ) (hoff0 : k0_off1 i 0#32 = ![o0, 0]) (hoff1 : k0_off1 i 1#32 = ![o1, 0])
    (x0 x1 : Vec F S200x10000 .f32) (x5 : Vec F S128x64 .f32) (x6 : Vec F S1x64 .f32)
    (xs0 : Vec F S10000x128 .f32) (xs1 : Vec F S10000x64 .f32) (E : Set ℕ) (K : PUnit → sProp 𝕄) :
    iprop(owns (c : Thread nD τ) arg2 fullShare x0 ∗ owns (c : Thread nD τ) arg3 fullShare x1
        ∗ owns (c : Thread nD τ) arg7 fullShare x5 ∗ owns (c : Thread nD τ) arg8 fullShare x6
        ∗ owns (c : Thread nD τ) arg15 fullShare xs0 ∗ owns (c : Thread nD τ) arg16 fullShare xs1
        ∗ (iprop(owns (c : Thread nD τ) arg2 fullShare x0 ∗ owns (c : Thread nD τ) arg3 fullShare x1
            ∗ owns (c : Thread nD τ) arg7 fullShare x5 ∗ owns (c : Thread nD τ) arg8 fullShare x6
            ∗ owns (c : Thread nD τ) arg15 fullShare xs0
            ∗ owns (c : Thread nD τ) arg16 fullShare (slabs2 o0 o1 xs1 (k0_pay4 xs0 x0 x5 x6) (k0_pay2 (k0_pay5 xs0 x1 x5 x6)))) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__body_eq_skeleton]; unfold cc0__body_skel
  unfold owns
  iintro ⟨⟨%f0, %hf0, H0⟩, ⟨%f1, %hf1, H1⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1
  obtain rfl := harg7.eq_unread hf5; obtain rfl := harg8.eq_unread hf6
  obtain rfl := harg15.eq_unread hfs0; obtain rfl := harg16.eq_unread hfs1
  sl_exec (disch := first | exact hc1 | exact hc2 | exact hc3)
  sl_step
  iapply Hk
  isplitl [H0]
  · iexists _; isplitr
    · ipureintro; exact harg2.read_unread _
    · iexact H0
  isplitl [H1]
  · iexists _; isplitr
    · ipureintro; exact harg3.read_unread _
    · iexact H1
  isplitl [H5]
  · iexists _; isplitr
    · ipureintro; exact harg7.read_unread _
    · iexact H5
  isplitl [H6]
  · iexists _; isplitr
    · ipureintro; exact harg8.read_unread _
    · iexact H6
  isplitl [HS0]
  · iexists _; isplitr
    · ipureintro; exact harg15.read_unread _
    · iexact HS0
  iexists _; isplitr
  swap
  · iexact HS1
  ipureintro
  rw [read_two_slabs _ _ _ _ hoff0 hoff1, harg16.read_unread]
  sl_unfold_words
  simp only [View.readAt_eq_ld, Memref.IsWhole.read_unread, View.ld_unit_zero (S := S10000x128) hz2, View.ld_unit_zero (S := S10000x64) hz2, View.ld_unit_zero (S := S200x10000) hz2, View.ld_unit_zero (S := S128x128) hz2, View.ld_unit_zero (S := S1x128) hz2, View.ld_unit_zero (S := S128x64) hz2, View.ld_unit_zero (S := S64x64) hz2, View.ld_unit_zero (S := S1x64) hz2]

end Cert.Kernel.Hand

end
-- ==== Proof.WRunC.lean ====
import proofs.«133318_g652835029058_cont_9to1_m_690_17_alg».proof.Proof.Gen.Kernel.Launch
import proofs.«133318_g652835029058_cont_9to1_m_690_17_alg».proof.Proof.Gen.Kernel.Skeleton
import proofs.«133318_g652835029058_cont_9to1_m_690_17_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«133318_g652835029058_cont_9to1_m_690_17_alg».proof.Proof.WBase
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a point of phase 1: with the second-layer input `xs1` in its scratch and the two blocks of 200 rows of the
    adjacency matrix `x0`, `x1` in the first two windows, it leaves in each output window the two halves' results one
    above the other and changes nothing else. -/
theorem runC (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S400x64 .f32) (harg13 : arg13.IsWhole) (arg14 : Memref sig .tc .vmem S400x64 .f32) (harg14 : arg14.IsWhole) (arg15 : Memref sig .tc .vmem S10000x128 .f32) (harg15 : arg15.IsWhole) (arg16 : Memref sig .tc .vmem S10000x64 .f32) (harg16 : arg16.IsWhole)
    (hc1 : ¬cond1 i) (hc2 : ¬cond2 i) (hc3 : cond3 i)
    (x0 x1 : Vec F S200x10000 .f32) (x7 : Vec F S64x64 .f32) (x8 : Vec F S1x64 .f32) (x9 : Vec F S64x64 .f32) (x10 : Vec F S1x64 .f32)
    (xs1 : Vec F S10000x64 .f32) (E : Set ℕ) (K : PUnit → sProp 𝕄) :
    iprop(owns (c : Thread nD τ) arg2 fullShare x0 ∗ owns (c : Thread nD τ) arg3 fullShare x1
        ∗ owns (c : Thread nD τ) arg9 fullShare x7 ∗ owns (c : Thread nD τ) arg10 fullShare x8
        ∗ owns (c : Thread nD τ) arg11 fullShare x9 ∗ owns (c : Thread nD τ) arg12 fullShare x10
        ∗ (∃ d, owns (c : Thread nD τ) arg13 fullShare d) ∗ (∃ d, owns (c : Thread nD τ) arg14 fullShare d)
        ∗ owns (c : Thread nD τ) arg16 fullShare xs1
        ∗ (iprop(owns (c : Thread nD τ) arg2 fullShare x0 ∗ owns (c : Thread nD τ) arg3 fullShare x1
            ∗ owns (c : Thread nD τ) arg9 fullShare x7 ∗ owns (c : Thread nD τ) arg10 fullShare x8
            ∗ owns (c : Thread nD τ) arg11 fullShare x9 ∗ owns (c : Thread nD τ) arg12 fullShare x10
            ∗ owns (c : Thread nD τ) arg13 fullShare (stack2 (k0_pay7 xs1 x0 x7 x8 x9 x10) (k0_pay3 (k0_pay9 xs1 x1 x7) x8 x9 x10))
            ∗ owns (c : Thread nD τ) arg14 fullShare (stack2 (k0_pay6 xs1 x0) (k0_pay8 xs1 x1))
            ∗ owns (c : Thread nD τ) arg16 fullShare xs1) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__body_eq_skeleton]; unfold cc0__body_skel
  unfold owns
  iintro ⟨⟨%f0, %hf0, H0⟩, ⟨%f1, %hf1, H1⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%fs1, %hfs1, HS1⟩, Hk⟩
  obtain rfl := harg2.eq_unread hf0; obtain rfl := harg3.eq_unread hf1
  obtain rfl := harg9.eq_unread hf7; obtain rfl := harg10.eq_unread hf8
  obtain rfl := harg11.eq_unread hf9; obtain rfl := harg12.eq_unread hf10
  obtain rfl := harg16.eq_unread hfs1
  sl_exec (disch := first | exact hc1 | exact hc2 | exact hc3)
  sl_step
  iapply Hk
  isplitl [H0]; · iexists _; isplitr; · ipureintro; exact harg2.read_unread _
                  iexact H0
  isplitl [H1]; · iexists _; isplitr; · ipureintro; exact harg3.read_unread _
                  iexact H1
  isplitl [H7]; · iexists _; isplitr; · ipureintro; exact harg9.read_unread _
                  iexact H7
  isplitl [H8]; · iexists _; isplitr; · ipureintro; exact harg10.read_unread _
                  iexact H8
  isplitl [H9]; · iexists _; isplitr; · ipureintro; exact harg11.read_unread _
                  iexact H9
  isplitl [H10]; · iexists _; isplitr; · ipureintro; exact harg12.read_unread _
                   iexact H10
  isplitl [H11]
  · iexists _; isplitr
    swap; · iexact H11
    ipureintro
    rw [read_two_halves]
    sl_unfold_words
    simp only [View.readAt_eq_ld, Memref.IsWhole.read_unread, View.ld_unit_zero (S := S10000x64) hz2, View.ld_unit_zero (S := S200x10000) hz2, View.ld_unit_zero (S := S64x64) hz2, View.ld_unit_zero (S := S1x64) hz2]
  isplitl [H12]
  · iexists _; isplitr
    swap; · iexact H12
    ipureintro
    rw [read_two_halves]
    simp only [View.readAt_eq_ld, Memref.IsWhole.read_unread, View.ld_unit_zero (S := S10000x64) hz2, View.ld_unit_zero (S := S200x10000) hz2]
  iexists _; isplitr; · ipureintro; exact harg16.read_unread _
  iexact HS1

end Cert.Kernel.Hand

end
-- ==== Proof.WBody.lean ====
import proofs.«133318_g652835029058_cont_9to1_m_690_17_alg».proof.Proof.Gen.Kernel.Launch
import proofs.«133318_g652835029058_cont_9to1_m_690_17_alg».proof.Proof.Gen.Kernel.Skeleton
import proofs.«133318_g652835029058_cont_9to1_m_690_17_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«133318_g652835029058_cont_9to1_m_690_17_alg».proof.Proof.WData
import proofs.«133318_g652835029058_cont_9to1_m_690_17_alg».proof.Proof.WInv
import proofs.«133318_g652835029058_cont_9to1_m_690_17_alg».proof.Proof.WRunA
import proofs.«133318_g652835029058_cont_9to1_m_690_17_alg».proof.Proof.WRunB
import proofs.«133318_g652835029058_cont_9to1_m_690_17_alg».proof.Proof.WRunC
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## The body obligation

At every point the pipeline hands the body each window's current staging buffer: an input's holds its block, an
output's anything.  The first point computes the input projection and its 400 rows of the second layer's input; the
other points of phase 0 their 400 rows; the points of phase 1 their 400 rows of the two results, which the pipeline
then writes back.  In phase 0 the output windows are idle: their buffers are handed back untouched. -/

/-- Each window's current staging memref at point `t`, as the pipeline passes it to the body. -/
abbrev ms0 (t : Fin cfg0.N) : Memref sig .tc .vmem S200x10000 .f32 := win0_0.stage (cfg0.slots t 0)
abbrev ms1 (t : Fin cfg0.N) : Memref sig .tc .vmem S200x10000 .f32 := win0_1.stage (cfg0.slots t 1)
abbrev ms2 (t : Fin cfg0.N) : Memref sig .tc .vmem S10000x128 .f32 := win0_2.stage (cfg0.slots t 2)
abbrev ms3 (t : Fin cfg0.N) : Memref sig .tc .vmem S128x128 .f32 := win0_3.stage (cfg0.slots t 3)
abbrev ms4 (t : Fin cfg0.N) : Memref sig .tc .vmem S1x128 .f32 := win0_4.stage (cfg0.slots t 4)
abbrev ms5 (t : Fin cfg0.N) : Memref sig .tc .vmem S128x64 .f32 := win0_5.stage (cfg0.slots t 5)
abbrev ms6 (t : Fin cfg0.N) : Memref sig .tc .vmem S1x64 .f32 := win0_6.stage (cfg0.slots t 6)
abbrev ms7 (t : Fin cfg0.N) : Memref sig .tc .vmem S64x64 .f32 := win0_7.stage (cfg0.slots t 7)
abbrev ms8 (t : Fin cfg0.N) : Memref sig .tc .vmem S1x64 .f32 := win0_8.stage (cfg0.slots t 8)
abbrev ms9 (t : Fin cfg0.N) : Memref sig .tc .vmem S64x64 .f32 := win0_9.stage (cfg0.slots t 9)
abbrev ms10 (t : Fin cfg0.N) : Memref sig .tc .vmem S1x64 .f32 := win0_10.stage (cfg0.slots t 10)
abbrev ms11 (t : Fin cfg0.N) : Memref sig .tc .vmem S400x64 .f32 := win0_11.stage (cfg0.slots t 11)
abbrev ms12 (t : Fin cfg0.N) : Memref sig .tc .vmem S400x64 .f32 := win0_12.stage (cfg0.slots t 12)

/-- The input windows are never idle. -/
theorem liveAt_0 : ∀ t : Fin cfg0.N, cfg0.idle 0 (grid0.coords t) = false := fun _ => rfl
theorem liveAt_1 : ∀ t : Fin cfg0.N, cfg0.idle 1 (grid0.coords t) = false := fun _ => rfl
theorem liveAt_2 : ∀ t : Fin cfg0.N, cfg0.idle 2 (grid0.coords t) = false := fun _ => rfl
theorem liveAt_3 : ∀ t : Fin cfg0.N, cfg0.idle 3 (grid0.coords t) = false := fun _ => rfl
theorem liveAt_4 : ∀ t : Fin cfg0.N, cfg0.idle 4 (grid0.coords t) = false := fun _ => rfl
theorem liveAt_5 : ∀ t : Fin cfg0.N, cfg0.idle 5 (grid0.coords t) = false := fun _ => rfl
theorem liveAt_6 : ∀ t : Fin cfg0.N, cfg0.idle 6 (grid0.coords t) = false := fun _ => rfl
theorem liveAt_7 : ∀ t : Fin cfg0.N, cfg0.idle 7 (grid0.coords t) = false := fun _ => rfl
theorem liveAt_8 : ∀ t : Fin cfg0.N, cfg0.idle 8 (grid0.coords t) = false := fun _ => rfl
theorem liveAt_9 : ∀ t : Fin cfg0.N, cfg0.idle 9 (grid0.coords t) = false := fun _ => rfl
theorem liveAt_10 : ∀ t : Fin cfg0.N, cfg0.idle 10 (grid0.coords t) = false := fun _ => rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 16000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).owesAt () t.succ = (dats m 0 c).owesAt () t.castSucc from rfl]
  rw [Phi_succ, Phi_castSucc]
  have hN : t.val < 50 := lt_of_lt_of_eq t.isLt N50
  rw [show (dats m 0 c).leavesExact 0 t = owns (c : Thread nD τ) (ms0 t) fullShare ((dats m 0 c).after 0 t) from by
    unfold Dat.leavesExact; rw [liveAt_0 t], after_0]
  rw [show (dats m 0 c).leavesExact 1 t = owns (c : Thread nD τ) (ms1 t) fullShare ((dats m 0 c).after 1 t) from by
    unfold Dat.leavesExact; rw [liveAt_1 t], after_1]
  rw [show (dats m 0 c).leavesExact 2 t = owns (c : Thread nD τ) (ms2 t) fullShare ((dats m 0 c).after 2 t) from by
    unfold Dat.leavesExact; rw [liveAt_2 t], after_2]
  rw [show (dats m 0 c).leavesExact 3 t = owns (c : Thread nD τ) (ms3 t) fullShare ((dats m 0 c).after 3 t) from by
    unfold Dat.leavesExact; rw [liveAt_3 t], after_3]
  rw [show (dats m 0 c).leavesExact 4 t = owns (c : Thread nD τ) (ms4 t) fullShare ((dats m 0 c).after 4 t) from by
    unfold Dat.leavesExact; rw [liveAt_4 t], after_4]
  rw [show (dats m 0 c).leavesExact 5 t = owns (c : Thread nD τ) (ms5 t) fullShare ((dats m 0 c).after 5 t) from by
    unfold Dat.leavesExact; rw [liveAt_5 t], after_5]
  rw [show (dats m 0 c).leavesExact 6 t = owns (c : Thread nD τ) (ms6 t) fullShare ((dats m 0 c).after 6 t) from by
    unfold Dat.leavesExact; rw [liveAt_6 t], after_6]
  rw [show (dats m 0 c).leavesExact 7 t = owns (c : Thread nD τ) (ms7 t) fullShare ((dats m 0 c).after 7 t) from by
    unfold Dat.leavesExact; rw [liveAt_7 t], after_7]
  rw [show (dats m 0 c).leavesExact 8 t = owns (c : Thread nD τ) (ms8 t) fullShare ((dats m 0 c).after 8 t) from by
    unfold Dat.leavesExact; rw [liveAt_8 t], after_8]
  rw [show (dats m 0 c).leavesExact 9 t = owns (c : Thread nD τ) (ms9 t) fullShare ((dats m 0 c).after 9 t) from by
    unfold Dat.leavesExact; rw [liveAt_9 t], after_9]
  rw [show (dats m 0 c).leavesExact 10 t = owns (c : Thread nD τ) (ms10 t) fullShare ((dats m 0 c).after 10 t) from by
    unfold Dat.leavesExact; rw [liveAt_10 t], after_10]
  by_cases h25 : t.val < 25
  · rw [Dat.leavesExact_idle (dats m 0 c) 11 t (idle11 t h25) (noFlush11 t h25),
      Dat.leavesExact_idle (dats m 0 c) 12 t (idle12 t h25) (noFlush12 t h25)]
    unfold Phi
    by_cases hz : t.val = 0
    · -- the first point
      have ht0 : t = t0 := Fin.ext hz
      iintro ⟨⟨%f0, %f1, %hinv, HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (runA c (grid0.coords t) _ _ _ _ _ _ _ _ _ _ _ _ _ _ _ _ _ _ _ _ _ _ _ _ _ _ _ _ _ _
        ((hcond1 t).mpr hz) ((hcond2 t).mpr h25) (fun h => absurd ((hcond3 t).mp h) (by omega))
        (400 * t.val) (400 * t.val + 200) (hoff0 t h25) (hoff1 t h25)
        (iblk m c 0 t) (iblk m c 1 t) (iblk m c 2 t) (iblk m c 3 t) (iblk m c 4 t) (iblk m c 5 t) (iblk m c 6 t) f1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexact HS1
      iintro ⟨H0, H1, H2, H3, H4, H5, H6, HS0, HS1⟩
      isplitl [HS0 HS1]
      · iexists _, _; isplitr
        swap
        · isplitl [HS0]; · iexact HS0
          iexact HS1
        ipureintro
        have hP : k0_pay1 (iblk m c 2 t) (iblk m c 3 t) (iblk m c 4 t) = P1 m c := by
          rw [ht0]; rfl
        rw [hP]
        exact Inv_step m c t h25 _ f1 rfl (Inv_rows m c t.val h25 f0 f1 hinv)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexists _; iexact H12
    · -- the other points of phase 0
      iintro ⟨⟨%f0, %f1, %hinv, HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      have hf0 : f0 = P1 m c := hinv.1 (Nat.pos_of_ne_zero hz)
      subst hf0
      iapply (runB c (grid0.coords t) _ _ _ _ _ _ _ _ _ _ _ _ _ _ _ _ _ _ _ _ _ _ _ _ _ _ _ _ _ _
        (fun h => hz ((hcond1 t).mp h)) ((hcond2 t).mpr h25) (fun h => absurd ((hcond3 t).mp h) (by omega))
        (400 * t.val) (400 * t.val + 200) (hoff0 t h25) (hoff1 t h25)
        (iblk m c 0 t) (iblk m c 1 t) (iblk m c 5 t) (iblk m c 6 t) (P1 m c) f1 Set.univ _)
      isplitl [H0]; · iexact H0
      isplitl [H1]; · iexact H1
      isplitl [H5]; · iexact H5
      isplitl [H6]; · iexact H6
      isplitl [HS0]; · iexact HS0
      isplitl [HS1]; · iexact HS1
      iintro ⟨H0, H1, H5, H6, HS0, HS1⟩
      isplitl [HS0 HS1]
      · iexists _, _; isplitr
        swap
        · isplitl [HS0]; · iexact HS0
          iexact HS1
        ipureintro
        exact Inv_step m c t h25 _ f1 rfl (Inv_rows m c t.val h25 _ f1 hinv)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexists _; iexact H12
  · -- the points of phase 1
    have h25' : 25 ≤ t.val := by omega
    rw [show (dats m 0 c).leavesExact 11 t = owns (c : Thread nD τ) (ms11 t) fullShare ((dats m 0 c).after 11 t) from by
      unfold Dat.leavesExact; rw [live11 t h25'], after_11]
    rw [show (dats m 0 c).leavesExact 12 t = owns (c : Thread nD τ) (ms12 t) fullShare ((dats m 0 c).after 12 t) from by
      unfold Dat.leavesExact; rw [live12 t h25'], after_12]
    unfold Phi Zout Eout
    iintro ⟨⟨%f0, %f1, %hinv, HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have hf1 : f1 = H2 m c := Inv_full m c t.val h25' f0 f1 hinv
    subst hf1
    iapply (runC c (grid0.coords t) _ _ _ _ _ _ _ _ _ _ _ _ _ _ _ _ _ _ _ _ _ _ _ _ _ _ _ _ _ _
      (fun h => absurd ((hcond1 t).mp h) (by omega)) (fun h => absurd ((hcond2 t).mp h) (by omega)) ((hcond3 t).mpr h25')
      (iblk m c 0 t) (iblk m c 1 t) (iblk m c 7 t) (iblk m c 8 t) (iblk m c 9 t) (iblk m c 10 t) (H2 m c) Set.univ _)
    isplitl [H0]; · iexact H0
    isplitl [H1]; · iexact H1
    isplitl [H7]; · iexact H7
    isplitl [H8]; · iexact H8
    isplitl [H9]; · iexact H9
    isplitl [H10]; · iexact H10
    isplitl [H11]; · iexists _; iexact H11
    isplitl [H12]; · iexists _; iexact H12
    isplitl [HS1]; · iexact HS1
    iintro ⟨H0, H1, H7, H8, H9, H10, H11, H12, HS1⟩
    isplitl [HS0 HS1]
    · iexists _, _; isplitr
      swap
      · isplitl [HS0]; · iexact HS0
        iexact HS1
      ipureintro
      exact ⟨fun _ => hinv.1 (by omega), fun y _ => rfl⟩
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The library's body obligation, at every point. -/
theorem body_obligation (c : Dev nD) : BodyObligation (dats (F := F) m 0 c) (defs₀ (F := F)) Variants.none () Set.univ := fun t => by
  rw [bigSep_W0, bigSep_W0]
  exact sound_body m c t

/-- The scratch buffers as memrefs held at some contents. -/
theorem scopedRest_eq' (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d)) := by
  rw [scopedRest0_eq]; simp only [scM0, scM1, owns_whole]; try rfl

/-- What the launch hands the region is the invariant before the first point; -/
theorem hin (c : Dev nD) : Pipeline.scopedRest spec0 c ⊢ (dats m 0 c).Φ 0 := by
  rw [show (dats m 0 c).Φ 0 = Phi m c 0 from rfl, scopedRest_eq']
  unfold Phi
  iintro ⟨⟨%d0, H0⟩, ⟨%d1, H1⟩⟩
  iexists d0, d1
  isplitr; · ipureintro; exact Inv_zero m c d0 d1
  isplitl [H0]; · iexact H0
  iexact H1

/-- and after the last point the invariant gives the scratch buffers back. -/
theorem hout (c : Dev nD) : (dats m 0 c).Φ (Fin.last cfg0.N) ⊢ Pipeline.scopedRest spec0 c := by
  rw [show (dats m 0 c).Φ (Fin.last cfg0.N) = Phi m c (Fin.last cfg0.N).val from rfl, scopedRest_eq']
  unfold Phi
  iintro ⟨%f0, %f1, -, H0, H1⟩
  isplitl [H0]; · iexists _; iexact H0
  iexists _; iexact H1

end Cert.Kernel.Hand

end
-- ==== Proof.WLaunch.lean ====
/-
  The run of @main around its one pipelined region, for ANY proof data of the region.

  @main is eight host operations (four transposes, four reshapes) and then one pipelined region of thirteen windows on
  a 2 × 25 grid. Windows 0 and 1 are both INPUT windows on the same array (the 10000 × 10000 operand, read through two
  different index maps), so the thirteen windows stand on twelve distinct buffers. The region is therefore entered
  with that one buffer's points-to SPLIT along the share: its left half for window 0, its right half for window 1
  (a share splits into its two halves, and a points-to splits along a share: `pointsTo_share`); every other window's
  array is held whole, an output's necessarily so. Since both windows only read, nothing more is asked of the two
  halves, and at the end each window reads the array's final contents at its own share.

  `run_of`: from any launch memory with zero counters, every weakly fair execution of @main terminates, and in every
  final state each window's array holds what the proof data computes for it after the last write-back
  (`Dat.arrAt … N`), while the eight operands no window stages (the weights and biases as given, before the host
  operations transpose / reshape them into fresh buffers) hold what they held at the region's entry (`V`). The
  hypotheses are the proof data's own: its arrays at entry are the entry contents (`hA`), the shares above
  (`hq0`, `hq1`, `hq`), nothing owed, the body obligation, and the invariant entered from and left to the region's
  scoped scratch buffers (`hin`, `hout`).
-/
import proofs.«133318_g652835029058_cont_9to1_m_690_17_alg».proof.Proof.Gen.Kernel.Launch
import proofs.«133318_g652835029058_cont_9to1_m_690_17_alg».proof.Proof.WBase
import proofs.«133318_g652835029058_cont_9to1_m_690_17_alg».proof.Proof.Gen.Kernel.Points
import Idealize.ShloMosaic.Lib.Pipeline.Launch
import Idealize.ShloMosaic.Lib.Pipeline.Kit
import Idealize.ShloMosaic.Lib.Pipeline.Frame
import Idealize.ShloMosaic.Lib.Pipeline.FrameBody

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: one copy of the rounds library's, the pipeline's. -/
abbrev EP : Emb (UR sig nD τ) (MT nD τ sig Unit (Elt F) ℕ (UR sig nD τ) ℕ) := emb₁

variable (m : (ℓ : Loc nD τ sig) → Buf (Elt F) ℓ) (ρ : Dev nD → PrngReg)

/-- The eight host operations allocate nothing. -/
theorem hostOps0_fresh : (hostOps0 : List (HloOp τ sig (Elt F))).Forall fun op => op.fresh = ∅ := by
  simp only [List.Forall]; repeat' constructor

/-- @main is the host operations, then the region: the region is entered at the contents `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The rounds library's launch element: every staging cell's owner at round 0 and a duty token for every
    transfer the pipeline issues. -/
def u₀ : UR sig nD τ := initOf (Pipeline.cells cfgs cellOf_inj) (Pipeline.launchToks cfgs cellOf_inj)

/-- The operands of @main that no window stages. -/
abbrev restRefs : List (Ref sig .tc) := [main_arg2, main_arg3, main_arg4, main_arg5, main_arg6, main_arg7, main_arg8, main_arg9]

/-- The pipeline's `arrays` with every array a whole buffer: each window's array's buffer at the window's share. -/
theorem arrays_eq_share {c : Dev nD} (dat : Dat τ (Elt F) Unit ℕ (UR sig nD τ) ℕ (cfgs 0) c)
    (G : (w : Fin 13) → Buf (Elt F) (((cfgs 0).win w).arr.view.loc (c.tc : Thread nD τ))) :
    (dat.arrays G : sProp 𝕄) = bigSep Finset.univ fun w : Fin 13 => (((c.tc : Thread nD τ).loc (Pipeline.arrRef spec0 w)) ↦{dat.share w} G w : sProp 𝕄) := by
  unfold Dat.arrays
  exact bigSep_congr fun w _ => by rw [(arr_whole0 w).set_eq_univ]

/-- The twelve distinct buffers behind the thirteen windows' arrays, one by one (windows 0 and 1 read one array). -/
theorem arrBufs0_eq (c : Dev nD) :
    (Pipeline.arrBufs spec0 c (V m c) : sProp 𝕄) = iprop((((c.tc : Thread nD τ).loc (Pipeline.arrRef spec0 (1 : Fin 13))) ↦{fullShare} V m c (Pipeline.arrRef spec0 (1 : Fin 13))) ∗ (((c.tc : Thread nD τ).loc (Pipeline.arrRef spec0 (2 : Fin 13))) ↦{fullShare} V m c (Pipeline.arrRef spec0 (2 : Fin 13))) ∗ (((c.tc : Thread nD τ).loc (Pipeline.arrRef spec0 (3 : Fin 13))) ↦{fullShare} V m c (Pipeline.arrRef spec0 (3 : Fin 13))) ∗ (((c.tc : Thread nD τ).loc (Pipeline.arrRef spec0 (4 : Fin 13))) ↦{fullShare} V m c (Pipeline.arrRef spec0 (4 : Fin 13))) ∗ (((c.tc : Thread nD τ).loc (Pipeline.arrRef spec0 (5 : Fin 13))) ↦{fullShare} V m c (Pipeline.arrRef spec0 (5 : Fin 13))) ∗ (((c.tc : Thread nD τ).loc (Pipeline.arrRef spec0 (6 : Fin 13))) ↦{fullShare} V m c (Pipeline.arrRef spec0 (6 : Fin 13))) ∗ (((c.tc : Thread nD τ).loc (Pipeline.arrRef spec0 (7 : Fin 13))) ↦{fullShare} V m c (Pipeline.arrRef spec0 (7 : Fin 13))) ∗ (((c.tc : Thread nD τ).loc (Pipeline.arrRef spec0 (8 : Fin 13))) ↦{fullShare} V m c (Pipeline.arrRef spec0 (8 : Fin 13))) ∗ (((c.tc : Thread nD τ).loc (Pipeline.arrRef spec0 (9 : Fin 13))) ↦{fullShare} V m c (Pipeline.arrRef spec0 (9 : Fin 13))) ∗ (((c.tc : Thread nD τ).loc (Pipeline.arrRef spec0 (10 : Fin 13))) ↦{fullShare} V m c (Pipeline.arrRef spec0 (10 : Fin 13))) ∗ (((c.tc : Thread nD τ).loc (Pipeline.arrRef spec0 (11 : Fin 13))) ↦{fullShare} V m c (Pipeline.arrRef spec0 (11 : Fin 13))) ∗ (((c.tc : Thread nD τ).loc (Pipeline.arrRef spec0 (12 : Fin 13))) ↦{fullShare} V m c (Pipeline.arrRef spec0 (12 : Fin 13)))) := by
  unfold Pipeline.arrBufs
  exact bigSep_eq_bigSepL_of_eq [Pipeline.arrRef spec0 (1 : Fin 13), Pipeline.arrRef spec0 (2 : Fin 13), Pipeline.arrRef spec0 (3 : Fin 13), Pipeline.arrRef spec0 (4 : Fin 13), Pipeline.arrRef spec0 (5 : Fin 13), Pipeline.arrRef spec0 (6 : Fin 13), Pipeline.arrRef spec0 (7 : Fin 13), Pipeline.arrRef spec0 (8 : Fin 13), Pipeline.arrRef spec0 (9 : Fin 13), Pipeline.arrRef spec0 (10 : Fin 13), Pipeline.arrRef spec0 (11 : Fin 13), Pipeline.arrRef spec0 (12 : Fin 13)] (by decide) (by decide) _

/-- Windows 0 and 1 read the same array: a share of it held for window 1 is that share held for window 0. -/
theorem pt_win1_win0 (c : Dev nD) (q : PosShare TreeShare) :
    ((((c.tc : Thread nD τ).loc (Pipeline.arrRef spec0 (1 : Fin 13))) ↦{q} V m c (Pipeline.arrRef spec0 (1 : Fin 13))) : sProp 𝕄) ⊢ (((c.tc : Thread nD τ).loc (Pipeline.arrRef spec0 (0 : Fin 13))) ↦{q} V m c (Pipeline.arrRef spec0 (0 : Fin 13))) := BI.Entails.refl _

theorem hsplit_of
    (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare.left) (hq1 : ∀ c, (dats 0 c).q 1 = fullShare.right)
    (hq : ∀ c (w : Fin 13), w ≠ 0 → w ≠ 1 → (dats 0 c).q w = fullShare) (c : Dev nD) :
    (Pipeline.arrBufs spec0 c (V m c) : sProp 𝕄) ⊢ (dats 0 c).arrays ((dats 0 c).arrAt · 0) := by
  have hA0 : ∀ w : Fin 13, (dats 0 c).arrAt w 0 = V m c (Pipeline.arrRef spec0 w) := fun w => hA c w
  have s0 : (dats 0 c).share (0 : Fin 13) = fullShare.left := by unfold Dat.share; rw [if_neg (by decide)]; exact hq0 c
  have s1 : (dats 0 c).share (1 : Fin 13) = fullShare.right := by unfold Dat.share; rw [if_neg (by decide)]; exact hq1 c
  have s2 : (dats 0 c).share (2 : Fin 13) = fullShare := by unfold Dat.share; rw [if_neg (by decide)]; exact hq c 2 (by decide) (by decide)
  have s3 : (dats 0 c).share (3 : Fin 13) = fullShare := by unfold Dat.share; rw [if_neg (by decide)]; exact hq c 3 (by decide) (by decide)
  have s4 : (dats 0 c).share (4 : Fin 13) = fullShare := by unfold Dat.share; rw [if_neg (by decide)]; exact hq c 4 (by decide) (by decide)
  have s5 : (dats 0 c).share (5 : Fin 13) = fullShare := by unfold Dat.share; rw [if_neg (by decide)]; exact hq c 5 (by decide) (by decide)
  have s6 : (dats 0 c).share (6 : Fin 13) = fullShare := by unfold Dat.share; rw [if_neg (by decide)]; exact hq c 6 (by decide) (by decide)
  have s7 : (dats 0 c).share (7 : Fin 13) = fullShare := by unfold Dat.share; rw [if_neg (by decide)]; exact hq c 7 (by decide) (by decide)
  have s8 : (dats 0 c).share (8 : Fin 13) = fullShare := by unfold Dat.share; rw [if_neg (by decide)]; exact hq c 8 (by decide) (by decide)
  have s9 : (dats 0 c).share (9 : Fin 13) = fullShare := by unfold Dat.share; rw [if_neg (by decide)]; exact hq c 9 (by decide) (by decide)
  have s10 : (dats 0 c).share (10 : Fin 13) = fullShare := by unfold Dat.share; rw [if_neg (by decide)]; exact hq c 10 (by decide) (by decide)
  have s11 : (dats 0 c).share (11 : Fin 13) = fullShare := by unfold Dat.share; rw [if_pos (by decide)]
  have s12 : (dats 0 c).share (12 : Fin 13) = fullShare := by unfold Dat.share; rw [if_pos (by decide)]
  rw [arrBufs0_eq, arrays_eq_share, bigSep_W0]
  simp only [hA0, s0, s1, s2, s3, s4, s5, s6, s7, s8, s9, s10, s11, s12]
  iintro ⟨H1, H2, H3, H4, H5, H6, H7, H8, H9, H10, H11, H12⟩
  ihave H := (pointsTo_share (PosShare.mem_left_op_right fullShare)).1 $$ H1
  icases H with ⟨H0, H1⟩
  isplitl [H0]
  · iapply (pt_win1_win0 m c fullShare.left); iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- What the final memory holds of the operands no window stages. -/
abbrev QY (c : Dev nD) (s : MemSt nD τ sig (Elt F)) : Prop := ∀ b ∈ restRefs, s.mem ((c.tc : Thread nD τ).loc b) = V m c b

/-- Under the state interpretation the eight operands no window stages, held whole at the entry contents, are what the
    memory holds of them. -/
theorem hY_of (c : Dev nD) (s' : Phys nD τ sig (Elt F)) :
    (iprop(emp ∗ Pipeline.unscopedRest spec0 c (V m c) ∗ SI s') : sProp 𝕄) ⊢ |={Set.univ}=> iprop(⌜QY m c s'.mem⌝ ∗ SI s') := by
  rw [unscopedRest0_eq]
  iintro ⟨-, ⟨H2, H3, H4, H5, H6, H7, H8, H9⟩, HSI⟩
  icombine HSI H2 gives %h2
  icombine HSI H3 gives %h3
  icombine HSI H4 gives %h4
  icombine HSI H5 gives %h5
  icombine HSI H6 gives %h6
  icombine HSI H7 gives %h7
  icombine HSI H8 gives %h8
  icombine HSI H9 gives %h9
  imodintro
  isplitr
  · ipureintro
    intro b hb
    simp only [restRefs, List.mem_cons, List.mem_nil_iff, or_false] at hb
    rcases hb with rfl | rfl | rfl | rfl | rfl | rfl | rfl | rfl
    · exact Buf.eq_of_forall_mem_univ h2
    · exact Buf.eq_of_forall_mem_univ h3
    · exact Buf.eq_of_forall_mem_univ h4
    · exact Buf.eq_of_forall_mem_univ h5
    · exact Buf.eq_of_forall_mem_univ h6
    · exact Buf.eq_of_forall_mem_univ h7
    · exact Buf.eq_of_forall_mem_univ h8
    · exact Buf.eq_of_forall_mem_univ h9
  iexact HSI

set_option backward.isDefEq.respectTransparency.types false in
theorem run_of
    (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare.left) (hq1 : ∀ c, (dats 0 c).q 1 = fullShare.right)
    (hq : ∀ c (w : Fin 13), w ≠ 0 → w ≠ 1 → (dats 0 c).q w = fullShare)
    (howed : ∀ c t, (dats 0 c).owed t = 0)
    (hbody : ∀ c, BodyObligationLoose (dats 0 c) (defs₀ (F := F)) Variants.none () Set.univ)
    (hin : ∀ c, Pipeline.scopedRest spec0 c ⊢ (dats 0 c).Φ 0)
    (hout : ∀ c, (dats 0 c).Φ (Fin.last cfg0.N) ⊢ Pipeline.scopedRest spec0 c) :
    θ_run defs (onTc (τ := τ) (main (F := F))) ⟨m, fun _ => 0, ρ⟩ (fun r => ∀ c : Dev nD,
      (∀ w : Fin 13, r.2.mem (((cfgs 0).spec w).arr.view.loc (c.tc : Thread nD τ)) = (dats 0 c).arrAt w (cfgs 0).N)
      ∧ (∀ b ∈ restRefs, r.2.mem ((c.tc : Thread nD τ).loc b) = V m c b)) :=
  Pipeline.θ_run_region_noSem_shared cfgs dats () cellOf_inj (0 : Fin 1) winFacts₀0 EP defs₀ Variants.none m ρ main
    (hbody := hbody) (hne := block_pos0) (harr := arr_whole0) (hstage := stage_whole0) (howed := howed)
    (u₀ := u₀) (hu₀ := BI.Entails.refl _)
    (V := V m) (hmain := hmain m Variants.none)
    (hsplit := hsplit_of m dats hA hq0 hq1 hq)
    (X := fun _ => iprop(emp)) (Y := fun _ => iprop(emp)) (Z := fun c => Pipeline.unscopedRest spec0 c (V m c))
    (hX := fun c => by iintro H; isplitr; · iempintro
                       iexact H)
    (hin := fun c => by iintro ⟨-, H⟩; iapply (hin c); iexact H)
    (hout := fun c => by iintro H; isplitr; · iempintro
                         iapply (hout c); iexact H)
    (QY := QY m)
    (hY := hY_of m)
    (hQ := fun _ h => h)

/-- info: 'Cert.Kernel.Hand.run_of' depends on axioms: [propext, Classical.choice, Quot.sound] -/
#guard_msgs in #print axioms run_of

end Cert.Kernel.Hand

end
-- ==== Proof.WEntry.lean ====
/-
  What the kernel finds in its buffers when it starts.

  Before the kernel runs, the host transposes the four weight matrices and views the four bias vectors as
  one-row matrices; it writes nothing else.  So each of the ten arguments still holds what it was launched
  with, a transposed weight reads at `(k, j)` the argument's entry `(j, k)`, and a bias row reads at `(0, j)`
  the argument's entry `j`.
-/
import proofs.«133318_g652835029058_cont_9to1_m_690_17_alg».proof.Proof.WBase
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.Kernel.Hand

open Idealize.ShloMosaic Idealize.ShloMosaic.TcCoe Idealize.SL.Sem Idealize.ShloMosaic.StableHlo
open Idealize.ShloMosaic.ValueIdx
open Cert.Kernel Cert.Kernel.Gen

variable {F : FTy → Type} [FloatOps F]
variable (m : (ℓ : Loc nD τ sig) → Buf (Elt F) ℓ) (c : Dev nD)

/-! ## The arguments are untouched

The host operations before the kernel write their own eight results only. -/

theorem V_arg0 : V m c main_arg0 = m ((c : Thread nD τ).loc main_arg0) := by
  dsimp only [V, V0, hostOps0]; after_results
theorem V_arg1 : V m c main_arg1 = m ((c : Thread nD τ).loc main_arg1) := by
  dsimp only [V, V0, hostOps0]; after_results
theorem V_arg2 : V m c main_arg2 = m ((c : Thread nD τ).loc main_arg2) := by
  dsimp only [V, V0, hostOps0]; after_results
theorem V_arg3 : V m c main_arg3 = m ((c : Thread nD τ).loc main_arg3) := by
  dsimp only [V, V0, hostOps0]; after_results
theorem V_arg4 : V m c main_arg4 = m ((c : Thread nD τ).loc main_arg4) := by
  dsimp only [V, V0, hostOps0]; after_results
theorem V_arg5 : V m c main_arg5 = m ((c : Thread nD τ).loc main_arg5) := by
  dsimp only [V, V0, hostOps0]; after_results
theorem V_arg6 : V m c main_arg6 = m ((c : Thread nD τ).loc main_arg6) := by
  dsimp only [V, V0, hostOps0]; after_results
theorem V_arg7 : V m c main_arg7 = m ((c : Thread nD τ).loc main_arg7) := by
  dsimp only [V, V0, hostOps0]; after_results
theorem V_arg8 : V m c main_arg8 = m ((c : Thread nD τ).loc main_arg8) := by
  dsimp only [V, V0, hostOps0]; after_results
theorem V_arg9 : V m c main_arg9 = m ((c : Thread nD τ).loc main_arg9) := by
  dsimp only [V, V0, hostOps0]; after_results

/-! ## The transposed weights at an entry -/

/-- The first transpose's result, whole. -/
theorem V_v0_eq : (V m c main_v0 : S128x128.Idx → Elt F .f32)
    = transpose S128x128 [1, 0] (m ((c : Thread nD τ).loc main_arg2) : S128x128.Idx → Elt F .f32)
        transposes_S128x128_S128x128_1_0 := by
  dsimp only [V, V0, hostOps0]; after_results

/-- Entry `(k, j)` of the transposed first-layer weight is entry `(j, k)` of the weight. -/
theorem V_v0 (k j : Fin 128) :
    (V m c main_v0 : S128x128.Idx → Elt F .f32) (ix2 k j)
      = (m ((c : Thread nD τ).loc main_arg2) : S128x128.Idx → Elt F .f32) (ix2 j k) := by
  rw [V_v0_eq]
  exact transpose_ix2_apply _ _ k j

theorem V_v1_eq : (V m c main_v1 : S128x64.Idx → Elt F .f32)
    = transpose S128x64 [1, 0] (m ((c : Thread nD τ).loc main_arg4) : S64x128.Idx → Elt F .f32)
        transposes_S64x128_S128x64_1_0 := by
  dsimp only [V, V0, hostOps0]; after_results

/-- Entry `(k, j)` of the transposed second-layer weight is entry `(j, k)` of the weight. -/
theorem V_v1 (k : Fin 128) (j : Fin 64) :
    (V m c main_v1 : S128x64.Idx → Elt F .f32) (ix2 k j)
      = (m ((c : Thread nD τ).loc main_arg4) : S64x128.Idx → Elt F .f32) (ix2 j k) := by
  rw [V_v1_eq]
  exact transpose_ix2_apply _ _ k j

theorem V_v2_eq : (V m c main_v2 : S64x64.Idx → Elt F .f32)
    = transpose S64x64 [1, 0] (m ((c : Thread nD τ).loc main_arg6) : S64x64.Idx → Elt F .f32)
        transposes_S64x64_S64x64_1_0 := by
  dsimp only [V, V0, hostOps0]; after_results

/-- Entry `(k, j)` of the head's transposed first weight is entry `(j, k)` of the weight. -/
theorem V_v2 (k j : Fin 64) :
    (V m c main_v2 : S64x64.Idx → Elt F .f32) (ix2 k j)
      = (m ((c : Thread nD τ).loc main_arg6) : S64x64.Idx → Elt F .f32) (ix2 j k) := by
  rw [V_v2_eq]
  exact transpose_ix2_apply _ _ k j

theorem V_v3_eq : (V m c main_v3 : S64x64.Idx → Elt F .f32)
    = transpose S64x64 [1, 0] (m ((c : Thread nD τ).loc main_arg8) : S64x64.Idx → Elt F .f32)
        transposes_S64x64_S64x64_1_0 := by
  dsimp only [V, V0, hostOps0]; after_results

/-- Entry `(k, j)` of the head's transposed second weight is entry `(j, k)` of the weight. -/
theorem V_v3 (k j : Fin 64) :
    (V m c main_v3 : S64x64.Idx → Elt F .f32) (ix2 k j)
      = (m ((c : Thread nD τ).loc main_arg8) : S64x64.Idx → Elt F .f32) (ix2 j k) := by
  rw [V_v3_eq]
  exact transpose_ix2_apply _ _ k j

/-! ## The bias rows at an entry -/

theorem V_v4_eq : (V m c main_v4 : S1x128.Idx → Elt F .f32)
    = shapeCast S1x128 (m ((c : Thread nD τ).loc main_arg3) : S128.Idx → Elt F .f32) shapeCasts_S128_S1x128 := by
  dsimp only [V, V0, hostOps0]; after_results; rfl

/-- Entry `(0, j)` of the first layer's bias row is entry `j` of the bias. -/
theorem V_v4 (j : Fin 128) :
    (V m c main_v4 : S1x128.Idx → Elt F .f32) (ix2 (0 : Fin 1) j)
      = (m ((c : Thread nD τ).loc main_arg3) : S128.Idx → Elt F .f32) (ix1 j) := by
  rw [V_v4_eq]
  exact shapeCast_a_1a_apply _ _ 0 j

theorem V_v5_eq : (V m c main_v5 : S1x64.Idx → Elt F .f32)
    = shapeCast S1x64 (m ((c : Thread nD τ).loc main_arg5) : S64.Idx → Elt F .f32) shapeCasts_S64_S1x64 := by
  dsimp only [V, V0, hostOps0]; after_results; rfl

/-- Entry `(0, j)` of the second layer's bias row is entry `j` of the bias. -/
theorem V_v5 (j : Fin 64) :
    (V m c main_v5 : S1x64.Idx → Elt F .f32) (ix2 (0 : Fin 1) j)
      = (m ((c : Thread nD τ).loc main_arg5) : S64.Idx → Elt F .f32) (ix1 j) := by
  rw [V_v5_eq]
  exact shapeCast_a_1a_apply _ _ 0 j

theorem V_v6_eq : (V m c main_v6 : S1x64.Idx → Elt F .f32)
    = shapeCast S1x64 (m ((c : Thread nD τ).loc main_arg7) : S64.Idx → Elt F .f32) shapeCasts_S64_S1x64 := by
  dsimp only [V, V0, hostOps0]; after_results; rfl

/-- Entry `(0, j)` of the head's first bias row is entry `j` of the bias. -/
theorem V_v6 (j : Fin 64) :
    (V m c main_v6 : S1x64.Idx → Elt F .f32) (ix2 (0 : Fin 1) j)
      = (m ((c : Thread nD τ).loc main_arg7) : S64.Idx → Elt F .f32) (ix1 j) := by
  rw [V_v6_eq]
  exact shapeCast_a_1a_apply _ _ 0 j

theorem V_v7_eq : (V m c main_v7 : S1x64.Idx → Elt F .f32)
    = shapeCast S1x64 (m ((c : Thread nD τ).loc main_arg9) : S64.Idx → Elt F .f32) shapeCasts_S64_S1x64 := by
  dsimp only [V, V0, hostOps0]; after_results; rfl

/-- Entry `(0, j)` of the head's second bias row is entry `j` of the bias. -/
theorem V_v7 (j : Fin 64) :
    (V m c main_v7 : S1x64.Idx → Elt F .f32) (ix2 (0 : Fin 1) j)
      = (m ((c : Thread nD τ).loc main_arg9) : S64.Idx → Elt F .f32) (ix1 j) := by
  rw [V_v7_eq]
  exact shapeCast_a_1a_apply _ _ 0 j

end Cert.Kernel.Hand

end
-- ==== Proof.WFrame.lean ====
/-
  From the run of @main to the posts the certificate's claims state.

  The run theorem's post speaks of the thirteen windows' arrays and of the eight operands no window stages. The claims
  speak of @main's two results and ten arguments. The results are the arrays of the two output windows (windows 11
  and 12), so they end at what the proof data computes for them after the last write-back. Of the arguments, the
  features are the array of window 2 and the adjacency matrix that of windows 0 and 1: input windows, whose arrays no
  write-back ever touches, so they end holding their entry contents; the remaining eight are the operands read off
  directly. And the entry contents of all ten are the launch contents, because the host operations before the region
  (four transposes, four reshapes) write only their own eight fresh results.
-/
import proofs.«133318_g652835029058_cont_9to1_m_690_17_alg».proof.Proof.WLaunch
import proofs.«133318_g652835029058_cont_9to1_m_690_17_alg».proof.Proof.WData
import proofs.«133318_g652835029058_cont_9to1_m_690_17_alg».proof.Proof.WEntry

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The ten arguments at the end of a run, from what the run's post says of the windows' arrays and of the operands no
    window stages: the features are window 2's array and the adjacency matrix windows 0's and 1's, INPUT windows, whose
    arrays no write-back touches, so they end at their entry contents; the other eight are read off directly; and the
    host operations before the region write none of the ten. -/
theorem args_of_post (c : Dev nD) (s : MemSt nD τ sig (Elt F))
    (h1 : ∀ w : Fin 13, s.mem (((cfgs 0).spec w).arr.view.loc (c.tc : Thread nD τ)) = (dats m 0 c).arrAt w (cfgs 0).N)
    (h2 : ∀ b ∈ restRefs, s.mem ((c.tc : Thread nD τ).loc b) = V m c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9) :=
  ⟨(h1 2).trans (((dats m 0 c).arrAt_in 2 rfl _).trans ((A_eq m c 2).trans (V_arg0 m c))),
   (h1 0).trans (((dats m 0 c).arrAt_in 0 rfl _).trans ((A_eq m c 0).trans (V_arg1 m c))),
   (h2 main_arg2 (by simp [restRefs])).trans (V_arg2 m c),
   (h2 main_arg3 (by simp [restRefs])).trans (V_arg3 m c),
   (h2 main_arg4 (by simp [restRefs])).trans (V_arg4 m c),
   (h2 main_arg5 (by simp [restRefs])).trans (V_arg5 m c),
   (h2 main_arg6 (by simp [restRefs])).trans (V_arg6 m c),
   (h2 main_arg7 (by simp [restRefs])).trans (V_arg7 m c),
   (h2 main_arg8 (by simp [restRefs])).trans (V_arg8 m c),
   (h2 main_arg9 (by simp [restRefs])).trans (V_arg9 m c)⟩

/-- The post of the algebraic claim's run: the two results are the output windows' arrays after the last write-back,
    and the ten arguments hold what they were launched with. -/
theorem posts_of_run
    (h : θ_run defs (onTc (τ := τ) (main (F := F))) ⟨m, fun _ => 0, ρ⟩ (fun r => ∀ c : Dev nD,
      (∀ w : Fin 13, r.2.mem (((cfgs 0).spec w).arr.view.loc (c.tc : Thread nD τ)) = (dats m 0 c).arrAt w (cfgs 0).N)
      ∧ (∀ b ∈ restRefs, r.2.mem ((c.tc : Thread nD τ).loc b) = V m c b))) :
    θ_run defs (onTc (τ := τ) (main (F := F))) ⟨m, fun _ => 0, ρ⟩ (fun r => ∀ c : Dev nD,
      r.2.mem ((c.tc : Thread nD τ).loc main_v8_0) = (dats m 0 c).arrAt 11 cfg0.N
      ∧ r.2.mem ((c.tc : Thread nD τ).loc main_v8_1) = (dats m 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1 11, (h c).1 12, args_of_post m c _ (h c).1 (h c).2⟩) h

/-- The post of the frame claim's run: the ten arguments hold what they were launched with. -/
theorem frame_of_run
    (h : θ_run defs (onTc (τ := τ) (main (F := F))) ⟨m, fun _ => 0, ρ⟩ (fun r => ∀ c : Dev nD,
      (∀ w : Fin 13, r.2.mem (((cfgs 0).spec w).arr.view.loc (c.tc : Thread nD τ)) = (dats m 0 c).arrAt w (cfgs 0).N)
      ∧ (∀ b ∈ restRefs, r.2.mem ((c.tc : Thread nD τ).loc b) = V m c b))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => args_of_post m c _ (h c).1 (h c).2) h

end Cert.Kernel.Hand

end
-- ==== Proof.WRun.lean ====
import proofs.«133318_g652835029058_cont_9to1_m_690_17_alg».proof.Proof.Gen.Kernel.Launch
import proofs.«133318_g652835029058_cont_9to1_m_690_17_alg».proof.Proof.Gen.Kernel.Skeleton
import proofs.«133318_g652835029058_cont_9to1_m_690_17_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«133318_g652835029058_cont_9to1_m_690_17_alg».proof.Proof.WBody
import proofs.«133318_g652835029058_cont_9to1_m_690_17_alg».proof.Proof.WLaunch
import proofs.«133318_g652835029058_cont_9to1_m_690_17_alg».proof.Proof.WFrame
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window but the adjacency matrix's two holds its array outright. -/
theorem q_full (c : Dev nD) (w : Fin 13) (h0 : w ≠ 0) (h1 : w ≠ 1) : (dats m 0 c).q w = fullShare := by
  fin_cases w
  · exact absurd rfl h0
  · exact absurd rfl h1
  all_goals rfl

/-- From any memory with zero counters every weakly fair execution of the program terminates without a fault; each
    window's array then holds what the write-backs of the proof data leave, and the weights and biases are as the host
    operations left them. -/
theorem run_main : θ_run defs (onTc (τ := τ) (main (F := F))) ⟨m, fun _ => 0, ρ⟩ (fun r => ∀ c : Dev nD,
      (∀ w : Fin 13, r.2.mem (((cfgs 0).spec w).arr.view.loc (c.tc : Thread nD τ)) = (dats m 0 c).arrAt w (cfgs 0).N)
      ∧ (∀ b ∈ restRefs, r.2.mem ((c.tc : Thread nD τ).loc b) = V m c b)) :=
  run_of m ρ (dats m) (A_eq m) (fun _ => rfl) (fun _ => rfl) (q_full m) (fun _ _ => rfl)
    (fun c => (body_obligation m c).loose) (hin m) (hout m)

end Cert.Kernel.Hand

end
-- ==== Proof.KBase.lean ====
import proofs.«133318_g652835029058_cont_9to1_m_690_17_alg».proof.Proof.Gen.KernelIdeal.Launch
import proofs.«133318_g652835029058_cont_9to1_m_690_17_alg».proof.Proof.Gen.KernelIdeal.Skeleton
import proofs.«133318_g652835029058_cont_9to1_m_690_17_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.WritesUnit
import Idealize.ShloMosaic.Lib.ValueIdx
import Idealize.ShloMosaic.Lib.Pipeline.Value
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-- The first conditional's condition (both grid coordinates zero), as the body computes it. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The second: the first grid coordinate (the phase) is 0. -/
abbrev cond2 (i : grid0.Coords) : Prop := k0_cond2 i = 1#1
/-- The third: the phase is 1. -/
abbrev cond3 (i : grid0.Coords) : Prop := k0_cond3 i = 1#1

theorem hz2 : (![0, 0] : Fin 2 → ℕ) = fun _ => 0 := by
  funext a; match a with | ⟨0, _⟩ => rfl | ⟨1, _⟩ => rfl

/-- Two blocks of 200 rows set one above the other. -/
def stack2 {α : Type} (lo hi : S200x64.Idx → α) : S400x64.Idx → α := fun y =>
  if h : (y 0).val < 200 then lo (ix2 ⟨(y 0).val, h⟩ (y 1))
  else hi (ix2 ⟨(y 0).val - 200, by have := idx2_lt0 y; omega⟩ (y 1))

/-- A buffer of 400 rows into which rows 0–199 and then rows 200–399 were stored holds the two payloads one above
    the other, whatever it held before. -/
theorem read_two_halves {sig' : RefSig} {κ : Kind} {sp : Space} (v : View sig' κ sp S400x64 .f32) (f : v.ty.Contents (Elt F))
    (inb0 : ∀ a, (![0, 0] : Fin 2 → ℕ) a + S200x64.size a ≤ S400x64.size a)
    (inb1 : ∀ a, (![200, 0] : Fin 2 → ℕ) a + S200x64.size a ≤ S400x64.size a)
    (lo hi : S200x64.Idx → Elt F .f32) :
    v.read (Elt F) (v.writes (Elt F) f [⟨Rect.unit ![200, 0] S200x64.size inb1, hi⟩, ⟨Rect.unit ![0, 0] S200x64.size inb0, lo⟩])
      = stack2 lo hi := by
  funext y
  have hy0 := idx2_lt0 y
  rw [View.read_writes_cons_rows v f inb1 hi _ y rfl (W := 200) rfl rfl]
  split
  · next h =>
    unfold stack2; rw [dif_neg (by omega)]
    congr 1
    funext a; apply Fin.ext
    match a with
    | ⟨0, _⟩ => rfl
    | ⟨1, _⟩ => exact Nat.sub_zero _
  · next h =>
    rw [View.read_writes_cons_rows v f inb0 lo _ y rfl (W := 200) rfl rfl]
    rw [dif_pos (by omega)]
    unfold stack2; rw [dif_pos (by omega)]
    congr 1
    funext a; apply Fin.ext
    match a with
    | ⟨0, _⟩ => exact Nat.sub_zero _
    | ⟨1, _⟩ => exact Nat.sub_zero _

variable (m : (ℓ : Loc nD τ sig) → Buf (Elt F) ℓ)

/-- Core `c`'s TensorCore buffer contents when the region is entered: after the eight host operations (four transposes,
    four reshapes) before it. -/
abbrev V0 (c : Dev nD) : Valuation τ sig (Elt F) := StableHlo.after (hostOps0 (F := F)) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Hand

end
-- ==== Proof.KSlabs.lean ====
import proofs.«133318_g652835029058_cont_9to1_m_690_17_alg».proof.Proof.Gen.KernelIdeal.Launch
import proofs.«133318_g652835029058_cont_9to1_m_690_17_alg».proof.Proof.Gen.KernelIdeal.Skeleton
import proofs.«133318_g652835029058_cont_9to1_m_690_17_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«133318_g652835029058_cont_9to1_m_690_17_alg».proof.Proof.KBase
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-- A table of 10000 rows with the rows `[o0, o0 + 200)` replaced by `lo` and then the rows `[o1, o1 + 200)` by `hi`. -/
def slabs2 {α : Type} (o0 o1 : ℕ) (prev : S10000x64.Idx → α) (lo hi : S200x64.Idx → α) : S10000x64.Idx → α := fun y =>
  if h : o1 ≤ (y 0).val ∧ (y 0).val < o1 + 200 then hi (ix2 ⟨(y 0).val - o1, by omega⟩ (y 1))
  else if h : o0 ≤ (y 0).val ∧ (y 0).val < o0 + 200 then lo (ix2 ⟨(y 0).val - o0, by omega⟩ (y 1))
  else prev y

/-- A buffer of 10000 rows into which 200 whole rows were stored at row `o0` and then 200 at row `o1` holds the two
    payloads there and what it held before everywhere else. -/
theorem read_two_slabs {sig' : RefSig} {κ : Kind} {sp : Space} (v : View sig' κ sp S10000x64 .f32) (f : v.ty.Contents (Elt F))
    {off0 off1 : Fin 2 → ℕ} {o0 o1 : ℕ}
    (inb0 : ∀ a, off0 a + S200x64.size a ≤ S10000x64.size a)
    (inb1 : ∀ a, off1 a + S200x64.size a ≤ S10000x64.size a)
    (h0 : off0 = ![o0, 0]) (h1 : off1 = ![o1, 0])
    (lo hi : S200x64.Idx → Elt F .f32) :
    v.read (Elt F) (v.writes (Elt F) f [⟨Rect.unit off1 S200x64.size inb1, hi⟩, ⟨Rect.unit off0 S200x64.size inb0, lo⟩])
      = slabs2 o0 o1 (v.read (Elt F) f) lo hi := by
  funext y
  rw [View.read_writes_cons_rows v f inb1 hi _ y h1 (W := 200) rfl rfl]
  split
  · next h =>
    unfold slabs2; rw [dif_pos h]
    congr 1
    funext a; apply Fin.ext
    match a with
    | ⟨0, _⟩ => rfl
    | ⟨1, _⟩ => exact Nat.sub_zero _
  · next h =>
    rw [View.read_writes_cons_rows v f inb0 lo _ y h0 (W := 200) rfl rfl]
    unfold slabs2; rw [dif_neg h]
    split
    · next h' =>
      congr 1
      funext a; apply Fin.ext
      match a with
      | ⟨0, _⟩ => rfl
      | ⟨1, _⟩ => exact Nat.sub_zero _
    · next h' => rfl

end Cert.KernelIdeal.Hand

end
-- ==== Proof.KData.lean ====
import proofs.«133318_g652835029058_cont_9to1_m_690_17_alg».proof.Proof.Gen.KernelIdeal.Launch
import proofs.«133318_g652835029058_cont_9to1_m_690_17_alg».proof.Proof.Gen.KernelIdeal.Skeleton
import proofs.«133318_g652835029058_cont_9to1_m_690_17_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«133318_g652835029058_cont_9to1_m_690_17_alg».proof.Proof.KBase
import proofs.«133318_g652835029058_cont_9to1_m_690_17_alg».proof.Proof.KSlabs
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-! ## The schedule, decided over the grid's 50 points

Point `t` has coordinates `(t / 25, t % 25)`: the first 25 points are phase 0, the last 25 phase 1. -/

theorem N50 : cfg0.N = 50 := N_0

/-- Only the first point computes the input projection; -/
theorem hcond1 : ∀ t : Fin cfg0.N, cond1 (grid0.coords t) ↔ t.val = 0 :=
  (by decide +kernel : ∀ t : Fin grid0.N, cond1 (grid0.coords t) ↔ t.val = 0)
/-- the points of phase 0 fill the second layer's input; -/
theorem hcond2 : ∀ t : Fin cfg0.N, cond2 (grid0.coords t) ↔ t.val < 25 :=
  (by decide +kernel : ∀ t : Fin grid0.N, cond2 (grid0.coords t) ↔ t.val < 25)
/-- the points of phase 1 compute the outputs. -/
theorem hcond3 : ∀ t : Fin cfg0.N, cond3 (grid0.coords t) ↔ 25 ≤ t.val :=
  (by decide +kernel : ∀ t : Fin grid0.N, cond3 (grid0.coords t) ↔ 25 ≤ t.val)

/-- Point `t` of phase 0 stores rows `[400 t, 400 t + 200)` and `[400 t + 200, 400 t + 400)`. -/
theorem hoff0 : ∀ t : Fin cfg0.N, t.val < 25 → k0_off1 (grid0.coords t) 0#32 = ![400 * t.val, 0] :=
  (by decide +kernel : ∀ t : Fin grid0.N, t.val < 25 → k0_off1 (grid0.coords t) 0#32 = ![400 * t.val, 0])
theorem hoff1 : ∀ t : Fin cfg0.N, t.val < 25 → k0_off1 (grid0.coords t) 1#32 = ![400 * t.val + 200, 0] :=
  (by decide +kernel : ∀ t : Fin grid0.N, t.val < 25 → k0_off1 (grid0.coords t) 1#32 = ![400 * t.val + 200, 0])

/-- The output windows are idle throughout phase 0 and not written back there; in phase 1 they are live. -/
theorem idle11 : ∀ t : Fin cfg0.N, t.val < 25 → cfg0.idle 11 (grid0.coords t) = true := by decide +kernel
theorem idle12 : ∀ t : Fin cfg0.N, t.val < 25 → cfg0.idle 12 (grid0.coords t) = true := by decide +kernel
theorem noFlush11 : ∀ t : Fin cfg0.N, t.val < 25 → (cfg0.win 11).flush t = false := by decide +kernel
theorem noFlush12 : ∀ t : Fin cfg0.N, t.val < 25 → (cfg0.win 12).flush t = false := by decide +kernel
theorem live11 : ∀ t : Fin cfg0.N, 25 ≤ t.val → cfg0.idle 11 (grid0.coords t) = false := by decide +kernel
theorem live12 : ∀ t : Fin cfg0.N, 25 ≤ t.val → cfg0.idle 12 (grid0.coords t) = false := by decide +kernel

variable (m : (ℓ : Loc nD τ sig) → Buf (Elt F) ℓ)

/-! ## What the kernel computes, through its payloads -/

/-- The grid's first point, at which the blocks of the windows that never move are read. -/
abbrev t0 : Fin cfg0.N := ⟨0, by rw [N50]; exact Nat.zero_lt_succ _⟩

/-- The scratch operands: whole buffers of the kernel's own. -/
abbrev scM0 : Memref sig .tc .vmem S10000x128 .f32 := Memref.whole cc0_scratch0
abbrev scM1 : Memref sig .tc .vmem S10000x64 .f32 := Memref.whole cc0_scratch1

/-- The features, the first layer's weight matrix (already transposed) and bias row: whole arrays, as the first point finds
    them in their windows. -/
def X2 (c : Dev nD) : Vec F S10000x128 .f32 := iblk m c 2 t0
def X3 (c : Dev nD) : Vec F S128x128 .f32 := iblk m c 3 t0
def X4 (c : Dev nD) : Vec F S1x128 .f32 := iblk m c 4 t0

/-- The input projection the first point leaves in the first scratch. -/
def P1 (c : Dev nD) : Vec F S10000x128 .f32 := k0_pay1 (X2 m c) (X3 m c) (X4 m c)

/-- The 200 rows of the second layer's input that point `n` computes from its first block of the adjacency matrix, -/
def H2lo (c : Dev nD) (n : Fin cfg0.N) : Vec F S200x64 .f32 := k0_pay4 (P1 m c) (iblk m c 0 n) (iblk m c 5 n) (iblk m c 6 n)
/-- and from its second. -/
def H2hi (c : Dev nD) (n : Fin cfg0.N) : Vec F S200x64 .f32 := k0_pay2 (k0_pay5 (P1 m c) (iblk m c 1 n) (iblk m c 5 n) (iblk m c 6 n))

/-- The whole second layer's input: rows `[400 n, 400 n + 200)` come from point `n`'s first block, the next 200 from its
    second. -/
def H2 (c : Dev nD) : Vec F S10000x64 .f32 := fun y =>
  if h : (y 0).val % 400 < 200 then
    H2lo m c ⟨(y 0).val / 400, by have := idx2_lt0 y; rw [N50]; omega⟩ (ix2 ⟨(y 0).val % 400, h⟩ (y 1))
  else
    H2hi m c ⟨(y 0).val / 400, by have := idx2_lt0 y; rw [N50]; omega⟩ (ix2 ⟨(y 0).val % 400 - 200, by omega⟩ (y 1))

/-- What a point of phase 1 leaves in the first output window: the projected embedding of its 400 rows. -/
def Zout (c : Dev nD) (t : Fin cfg0.N) : Vec F S400x64 .f32 :=
  stack2 (k0_pay7 (H2 m c) (iblk m c 0 t) (iblk m c 7 t) (iblk m c 8 t) (iblk m c 9 t) (iblk m c 10 t))
    (k0_pay3 (k0_pay9 (H2 m c) (iblk m c 1 t) (iblk m c 7 t)) (iblk m c 8 t) (iblk m c 9 t) (iblk m c 10 t))
/-- And in the second: the embedding of its 400 rows. -/
def Eout (c : Dev nD) (t : Fin cfg0.N) : Vec F S400x64 .f32 :=
  stack2 (k0_pay6 (H2 m c) (iblk m c 0 t)) (k0_pay8 (H2 m c) (iblk m c 1 t))

/-! ## The invariant -/

/-- What is known of the two scratch buffers' contents before point `n`: after the first point the first holds the input
    projection; the rows below `400 · min n 25` of the second hold the second layer's input. -/
def Inv (c : Dev nD) (n : ℕ) (f0 : Vec F S10000x128 .f32) (f1 : Vec F S10000x64 .f32) : Prop :=
  (0 < n → f0 = P1 m c) ∧ ∀ y : S10000x64.Idx, (y 0).val < 400 * min n 25 → f1 y = H2 m c y

/-- The scratch buffers, whole, at contents of which `Inv` holds. -/
def Phi (c : Dev nD) (n : ℕ) : sProp 𝕄 :=
  iprop(∃ f0 f1, ⌜Inv m c n f0 f1⌝ ∗ owns (c : Thread nD τ) scM0 fullShare f0 ∗ owns (c : Thread nD τ) scM1 fullShare f1)

/-! ## The proof data -/

/-- The proof data of the pipeline on core `c`: the arrays as the region finds them; every input window's buffer at its
    block; the output windows' at `Zout` / `Eout`; the invariant `Phi`; the adjacency matrix's two windows hold one half
    of it each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => Zout m c t
    | ⟨12, _⟩ => Eout m c t
  Φ t := Phi m c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = Zout m c t := by dsimp only [dats]
theorem after_12 (c : Dev nD) (t : Fin cfg0.N) : (dats m 0 c).after 12 t = Eout m c t := by dsimp only [dats]

theorem Phi_castSucc (c : Dev nD) (t : Fin cfg0.N) : (dats m 0 c).Φ t.castSucc = Phi m c t.val := by
  dsimp only [dats]; simp only [Fin.coe_castSucc]
theorem Phi_succ (c : Dev nD) (t : Fin cfg0.N) : (dats m 0 c).Φ t.succ = Phi m c (t.val + 1) := by
  dsimp only [dats]; simp only [Fin.val_succ]

/-! ## Each input window's buffer holds its block at every point -/

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl)
    (fun t => by rw [after_10]; unfold Dat.blockOf iblk; rw [A_eq]; try rfl) t d).trans
    (by unfold Dat.fetched Dat.blockOf iblk; rw [A_eq]; try rfl)

end Cert.KernelIdeal.Hand

end
-- ==== Proof.KInv.lean ====
import proofs.«133318_g652835029058_cont_9to1_m_690_17_alg».proof.Proof.Gen.KernelIdeal.Launch
import proofs.«133318_g652835029058_cont_9to1_m_690_17_alg».proof.Proof.Gen.KernelIdeal.Skeleton
import proofs.«133318_g652835029058_cont_9to1_m_690_17_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«133318_g652835029058_cont_9to1_m_690_17_alg».proof.Proof.KData
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- A row of point `n`'s first 200 rows reads `H2lo`. -/
theorem H2_lo (c : Dev nD) (n : Fin cfg0.N) (y : S10000x64.Idx)
    (h : 400 * n.val ≤ (y 0).val ∧ (y 0).val < 400 * n.val + 200) :
    H2 m c y = H2lo m c n (ix2 ⟨(y 0).val - 400 * n.val, by omega⟩ (y 1)) := by
  have hv : (y 0).val / 400 = n.val := by omega
  have hm : (y 0).val % 400 = (y 0).val - 400 * n.val := by omega
  unfold H2
  rw [dif_pos (by omega)]
  simp only [hv, hm]

/-- A row of point `n`'s second 200 rows reads `H2hi`. -/
theorem H2_hi (c : Dev nD) (n : Fin cfg0.N) (y : S10000x64.Idx)
    (h : 400 * n.val + 200 ≤ (y 0).val ∧ (y 0).val < 400 * n.val + 200 + 200) :
    H2 m c y = H2hi m c n (ix2 ⟨(y 0).val - (400 * n.val + 200), by omega⟩ (y 1)) := by
  have hv : (y 0).val / 400 = n.val := by omega
  have hm : (y 0).val % 400 - 200 = (y 0).val - (400 * n.val + 200) := by omega
  unfold H2
  rw [dif_neg (by omega)]
  simp only [hv, hm]

/-- One point of phase 0 extends the rows of the second layer's input that are in place by its own 400. -/
theorem rows_step (c : Dev nD) (n : Fin cfg0.N) (f1 : Vec F S10000x64 .f32)
    (hprev : ∀ y : S10000x64.Idx, (y 0).val < 400 * n.val → f1 y = H2 m c y)
    (y : S10000x64.Idx) (hy : (y 0).val < 400 * (n.val + 1)) :
    slabs2 (400 * n.val) (400 * n.val + 200) f1 (H2lo m c n) (H2hi m c n) y = H2 m c y := by
  unfold slabs2
  split
  · next h => exact (H2_hi m c n y h).symm
  · next h =>
    split
    · next h' => exact (H2_lo m c n y h').symm
    · next h' => exact hprev y (by omega)

/-- The invariant before the first point holds of any contents. -/
theorem Inv_zero (c : Dev nD) (f0 : Vec F S10000x128 .f32) (f1 : Vec F S10000x64 .f32) : Inv m c 0 f0 f1 :=
  ⟨fun h => absurd h (Nat.lt_irrefl 0), fun y h => absurd h (by simp)⟩

/-- The invariant after a point of phase 0. -/
theorem Inv_step (c : Dev nD) (n : Fin cfg0.N) (hn : n.val < 25) (f0 : Vec F S10000x128 .f32) (f1 : Vec F S10000x64 .f32)
    (hf0 : f0 = P1 m c) (hprev : ∀ y : S10000x64.Idx, (y 0).val < 400 * n.val → f1 y = H2 m c y) :
    Inv m c (n.val + 1) f0 (slabs2 (400 * n.val) (400 * n.val + 200) f1 (H2lo m c n) (H2hi m c n)) :=
  ⟨fun _ => hf0, fun y hy => rows_step m c n f1 hprev y (by
    have : min (n.val + 1) 25 = n.val + 1 := by omega
    rw [this] at hy; exact hy)⟩

/-- From the first point of phase 1 on, the second scratch holds the whole second layer's input. -/
theorem Inv_full (c : Dev nD) (n : ℕ) (hn : 25 ≤ n) (f0 : Vec F S10000x128 .f32) (f1 : Vec F S10000x64 .f32)
    (h : Inv m c n f0 f1) : f1 = H2 m c :=
  funext fun y => h.2 y (by
    have := idx2_lt0 y
    have : min n 25 = 25 := by omega
    rw [this]; omega)

/-- The rows in place before point `n` of phase 0. -/
theorem Inv_rows (c : Dev nD) (n : ℕ) (hn : n < 25) (f0 : Vec F S10000x128 .f32) (f1 : Vec F S10000x64 .f32)
    (h : Inv m c n f0 f1) : ∀ y : S10000x64.Idx, (y 0).val < 400 * n → f1 y = H2 m c y := fun y hy =>
  h.2 y (by have : min n 25 = n := by omega
            rw [this]; exact hy)

end Cert.KernelIdeal.Hand

end
-- ==== Proof.KRunA.lean ====
import proofs.«133318_g652835029058_cont_9to1_m_690_17_alg».proof.Proof.Gen.KernelIdeal.Launch
import proofs.«133318_g652835029058_cont_9to1_m_690_17_alg».proof.Proof.Gen.KernelIdeal.Skeleton
import proofs.«133318_g652835029058_cont_9to1_m_690_17_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«133318_g652835029058_cont_9to1_m_690_17_alg».proof.Proof.KBase
import proofs.«133318_g652835029058_cont_9to1_m_690_17_alg».proof.Proof.KSlabs
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at the first point: it computes the input projection from `x2`, `x3`, `x4` into its scratch, and then does
    what every point of phase 0 does with that projection. -/
theorem runA (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S400x64 .f32) (harg13 : arg13.IsWhole) (arg14 : Memref sig .tc .vmem S400x64 .f32) (harg14 : arg14.IsWhole) (arg15 : Memref sig .tc .vmem S10000x128 .f32) (harg15 : arg15.IsWhole) (arg16 : Memref sig .tc .vmem S10000x64 .f32) (harg16 : arg16.IsWhole)
    (hc1 : cond1 i) (hc2 : cond2 i) (hc3 : ¬cond3 i)
    (o0 o1 : ℕ) (hoff0 : k0_off1 i 0#32 = ![o0, 0]) (hoff1 : k0_off1 i 1#32 = ![o1, 0])
    (x0 x1 : Vec F S200x10000 .f32) (x2 : Vec F S10000x128 .f32) (x3 : Vec F S128x128 .f32) (x4 : Vec F S1x128 .f32)
    (x5 : Vec F S128x64 .f32) (x6 : Vec F S1x64 .f32)
    (xs1 : Vec F S10000x64 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3 ∗ owns (c : Thread nD τ) arg6 fullShare x4
        ∗ owns (c : Thread nD τ) arg7 fullShare x5 ∗ owns (c : Thread nD τ) arg8 fullShare x6
        ∗ (∃ d, owns (c : Thread nD τ) arg15 fullShare d) ∗ owns (c : Thread nD τ) arg16 fullShare xs1
        ∗ (iprop(owns (c : Thread nD τ) arg2 fullShare x0 ∗ owns (c : Thread nD τ) arg3 fullShare x1
            ∗ owns (c : Thread nD τ) arg4 fullShare x2 ∗ owns (c : Thread nD τ) arg5 fullShare x3 ∗ owns (c : Thread nD τ) arg6 fullShare x4
            ∗ owns (c : Thread nD τ) arg7 fullShare x5 ∗ owns (c : Thread nD τ) arg8 fullShare x6
            ∗ owns (c : Thread nD τ) arg15 fullShare (k0_pay1 x2 x3 x4)
            ∗ owns (c : Thread nD τ) arg16 fullShare (slabs2 o0 o1 xs1 (k0_pay4 (k0_pay1 x2 x3 x4) x0 x5 x6) (k0_pay2 (k0_pay5 (k0_pay1 x2 x3 x4) x1 x5 x6)))) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
  obtain rfl := harg2.eq_unread hf0; obtain rfl := harg3.eq_unread hf1
  obtain rfl := harg4.eq_unread hf2; obtain rfl := harg5.eq_unread hf3; obtain rfl := harg6.eq_unread hf4
  obtain rfl := harg7.eq_unread hf5; obtain rfl := harg8.eq_unread hf6
  obtain rfl := harg16.eq_unread hfs1
  sl_exec (disch := first | exact hc1 | exact hc2 | exact hc3)
  sl_step
  iapply Hk
  isplitl [H0]
  · iexists _; isplitr
    · ipureintro; exact harg2.read_unread _
    · iexact H0
  isplitl [H1]
  · iexists _; isplitr
    · ipureintro; exact harg3.read_unread _
    · iexact H1
  isplitl [H2]
  · iexists _; isplitr
    · ipureintro; exact harg4.read_unread _
    · iexact H2
  isplitl [H3]
  · iexists _; isplitr
    · ipureintro; exact harg5.read_unread _
    · iexact H3
  isplitl [H4]
  · iexists _; isplitr
    · ipureintro; exact harg6.read_unread _
    · iexact H4
  isplitl [H5]
  · iexists _; isplitr
    · ipureintro; exact harg7.read_unread _
    · iexact H5
  isplitl [H6]
  · iexists _; isplitr
    · ipureintro; exact harg8.read_unread _
    · iexact H6
  isplitl [HS0]
  · iexists _; isplitr
    swap
    · iexact HS0
    ipureintro
    sl_unfold_words
    simp only [View.readAt_eq_ld, Memref.IsWhole.read_unread, View.ld_unit_zero (S := S10000x128) hz2, View.ld_unit_zero (S := S10000x64) hz2, View.ld_unit_zero (S := S200x10000) hz2, View.ld_unit_zero (S := S128x128) hz2, View.ld_unit_zero (S := S1x128) hz2, View.ld_unit_zero (S := S128x64) hz2, View.ld_unit_zero (S := S64x64) hz2, View.ld_unit_zero (S := S1x64) hz2]
    funext y
    exact View.read_writes_cons_unit_of_mem _ _ _ _ [] y y rfl
      (fun a => by match a with | ⟨0, _⟩ => exact (Nat.zero_add _).symm | ⟨1, _⟩ => exact (Nat.zero_add _).symm)
  iexists _; isplitr
  swap
  · iexact HS1
  ipureintro
  rw [read_two_slabs _ _ _ _ hoff0 hoff1, harg16.read_unread]
  sl_unfold_words
  simp only [View.readAt_eq_ld, Memref.IsWhole.read_unread, View.ld_unit_zero (S := S10000x128) hz2, View.ld_unit_zero (S := S10000x64) hz2, View.ld_unit_zero (S := S200x10000) hz2, View.ld_unit_zero (S := S128x128) hz2, View.ld_unit_zero (S := S1x128) hz2, View.ld_unit_zero (S := S128x64) hz2, View.ld_unit_zero (S := S64x64) hz2, View.ld_unit_zero (S := S1x64) hz2]
  rw [View.readCov_unit_zero (S := S10000x128) _ hz2]

end Cert.KernelIdeal.Hand

end
-- ==== Proof.KRunB.lean ====
import proofs.«133318_g652835029058_cont_9to1_m_690_17_alg».proof.Proof.Gen.KernelIdeal.Launch
import proofs.«133318_g652835029058_cont_9to1_m_690_17_alg».proof.Proof.Gen.KernelIdeal.Skeleton
import proofs.«133318_g652835029058_cont_9to1_m_690_17_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«133318_g652835029058_cont_9to1_m_690_17_alg».proof.Proof.KBase
import proofs.«133318_g652835029058_cont_9to1_m_690_17_alg».proof.Proof.KSlabs
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a point of phase 0 other than the first: with the input projection `xs0` in its scratch and the two
    blocks of 200 rows of the adjacency matrix `x0`, `x1` in the first two windows, it stores the two blocks' rows of
    the second layer's input into the other scratch at the rows the point's coordinates name, and changes nothing else. -/
theorem runB (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S400x64 .f32) (harg13 : arg13.IsWhole) (arg14 : Memref sig .tc .vmem S400x64 .f32) (harg14 : arg14.IsWhole) (arg15 : Memref sig .tc .vmem S10000x128 .f32) (harg15 : arg15.IsWhole) (arg16 : Memref sig .tc .vmem S10000x64 .f32) (harg16 : arg16.IsWhole)
    (hc1 : ¬cond1 i) (hc2 : cond2 i) (hc3 : ¬cond3 i)
    (o0 o1 : ℕ) (hoff0 : k0_off1 i 0#32 = ![o0, 0]) (hoff1 : k0_off1 i 1#32 = ![o1, 0])
    (x0 x1 : Vec F S200x10000 .f32) (x5 : Vec F S128x64 .f32) (x6 : Vec F S1x64 .f32)
    (xs0 : Vec F S10000x128 .f32) (xs1 : Vec F S10000x64 .f32) (E : Set ℕ) (K : PUnit → sProp 𝕄) :
    iprop(owns (c : Thread nD τ) arg2 fullShare x0 ∗ owns (c : Thread nD τ) arg3 fullShare x1
        ∗ owns (c : Thread nD τ) arg7 fullShare x5 ∗ owns (c : Thread nD τ) arg8 fullShare x6
        ∗ owns (c : Thread nD τ) arg15 fullShare xs0 ∗ owns (c : Thread nD τ) arg16 fullShare xs1
        ∗ (iprop(owns (c : Thread nD τ) arg2 fullShare x0 ∗ owns (c : Thread nD τ) arg3 fullShare x1
            ∗ owns (c : Thread nD τ) arg7 fullShare x5 ∗ owns (c : Thread nD τ) arg8 fullShare x6
            ∗ owns (c : Thread nD τ) arg15 fullShare xs0
            ∗ owns (c : Thread nD τ) arg16 fullShare (slabs2 o0 o1 xs1 (k0_pay4 xs0 x0 x5 x6) (k0_pay2 (k0_pay5 xs0 x1 x5 x6)))) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__body_eq_skeleton]; unfold cc0__body_skel
  unfold owns
  iintro ⟨⟨%f0, %hf0, H0⟩, ⟨%f1, %hf1, H1⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1
  obtain rfl := harg7.eq_unread hf5; obtain rfl := harg8.eq_unread hf6
  obtain rfl := harg15.eq_unread hfs0; obtain rfl := harg16.eq_unread hfs1
  sl_exec (disch := first | exact hc1 | exact hc2 | exact hc3)
  sl_step
  iapply Hk
  isplitl [H0]
  · iexists _; isplitr
    · ipureintro; exact harg2.read_unread _
    · iexact H0
  isplitl [H1]
  · iexists _; isplitr
    · ipureintro; exact harg3.read_unread _
    · iexact H1
  isplitl [H5]
  · iexists _; isplitr
    · ipureintro; exact harg7.read_unread _
    · iexact H5
  isplitl [H6]
  · iexists _; isplitr
    · ipureintro; exact harg8.read_unread _
    · iexact H6
  isplitl [HS0]
  · iexists _; isplitr
    · ipureintro; exact harg15.read_unread _
    · iexact HS0
  iexists _; isplitr
  swap
  · iexact HS1
  ipureintro
  rw [read_two_slabs _ _ _ _ hoff0 hoff1, harg16.read_unread]
  sl_unfold_words
  simp only [View.readAt_eq_ld, Memref.IsWhole.read_unread, View.ld_unit_zero (S := S10000x128) hz2, View.ld_unit_zero (S := S10000x64) hz2, View.ld_unit_zero (S := S200x10000) hz2, View.ld_unit_zero (S := S128x128) hz2, View.ld_unit_zero (S := S1x128) hz2, View.ld_unit_zero (S := S128x64) hz2, View.ld_unit_zero (S := S64x64) hz2, View.ld_unit_zero (S := S1x64) hz2]

end Cert.KernelIdeal.Hand

end
-- ==== Proof.KRunC.lean ====
import proofs.«133318_g652835029058_cont_9to1_m_690_17_alg».proof.Proof.Gen.KernelIdeal.Launch
import proofs.«133318_g652835029058_cont_9to1_m_690_17_alg».proof.Proof.Gen.KernelIdeal.Skeleton
import proofs.«133318_g652835029058_cont_9to1_m_690_17_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«133318_g652835029058_cont_9to1_m_690_17_alg».proof.Proof.KBase
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a point of phase 1: with the second-layer input `xs1` in its scratch and the two blocks of 200 rows of the
    adjacency matrix `x0`, `x1` in the first two windows, it leaves in each output window the two halves' results one
    above the other and changes nothing else. -/
theorem runC (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S400x64 .f32) (harg13 : arg13.IsWhole) (arg14 : Memref sig .tc .vmem S400x64 .f32) (harg14 : arg14.IsWhole) (arg15 : Memref sig .tc .vmem S10000x128 .f32) (harg15 : arg15.IsWhole) (arg16 : Memref sig .tc .vmem S10000x64 .f32) (harg16 : arg16.IsWhole)
    (hc1 : ¬cond1 i) (hc2 : ¬cond2 i) (hc3 : cond3 i)
    (x0 x1 : Vec F S200x10000 .f32) (x7 : Vec F S64x64 .f32) (x8 : Vec F S1x64 .f32) (x9 : Vec F S64x64 .f32) (x10 : Vec F S1x64 .f32)
    (xs1 : Vec F S10000x64 .f32) (E : Set ℕ) (K : PUnit → sProp 𝕄) :
    iprop(owns (c : Thread nD τ) arg2 fullShare x0 ∗ owns (c : Thread nD τ) arg3 fullShare x1
        ∗ owns (c : Thread nD τ) arg9 fullShare x7 ∗ owns (c : Thread nD τ) arg10 fullShare x8
        ∗ owns (c : Thread nD τ) arg11 fullShare x9 ∗ owns (c : Thread nD τ) arg12 fullShare x10
        ∗ (∃ d, owns (c : Thread nD τ) arg13 fullShare d) ∗ (∃ d, owns (c : Thread nD τ) arg14 fullShare d)
        ∗ owns (c : Thread nD τ) arg16 fullShare xs1
        ∗ (iprop(owns (c : Thread nD τ) arg2 fullShare x0 ∗ owns (c : Thread nD τ) arg3 fullShare x1
            ∗ owns (c : Thread nD τ) arg9 fullShare x7 ∗ owns (c : Thread nD τ) arg10 fullShare x8
            ∗ owns (c : Thread nD τ) arg11 fullShare x9 ∗ owns (c : Thread nD τ) arg12 fullShare x10
            ∗ owns (c : Thread nD τ) arg13 fullShare (stack2 (k0_pay7 xs1 x0 x7 x8 x9 x10) (k0_pay3 (k0_pay9 xs1 x1 x7) x8 x9 x10))
            ∗ owns (c : Thread nD τ) arg14 fullShare (stack2 (k0_pay6 xs1 x0) (k0_pay8 xs1 x1))
            ∗ owns (c : Thread nD τ) arg16 fullShare xs1) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__body_eq_skeleton]; unfold cc0__body_skel
  unfold owns
  iintro ⟨⟨%f0, %hf0, H0⟩, ⟨%f1, %hf1, H1⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%fs1, %hfs1, HS1⟩, Hk⟩
  obtain rfl := harg2.eq_unread hf0; obtain rfl := harg3.eq_unread hf1
  obtain rfl := harg9.eq_unread hf7; obtain rfl := harg10.eq_unread hf8
  obtain rfl := harg11.eq_unread hf9; obtain rfl := harg12.eq_unread hf10
  obtain rfl := harg16.eq_unread hfs1
  sl_exec (disch := first | exact hc1 | exact hc2 | exact hc3)
  sl_step
  iapply Hk
  isplitl [H0]; · iexists _; isplitr; · ipureintro; exact harg2.read_unread _
                  iexact H0
  isplitl [H1]; · iexists _; isplitr; · ipureintro; exact harg3.read_unread _
                  iexact H1
  isplitl [H7]; · iexists _; isplitr; · ipureintro; exact harg9.read_unread _
                  iexact H7
  isplitl [H8]; · iexists _; isplitr; · ipureintro; exact harg10.read_unread _
                  iexact H8
  isplitl [H9]; · iexists _; isplitr; · ipureintro; exact harg11.read_unread _
                  iexact H9
  isplitl [H10]; · iexists _; isplitr; · ipureintro; exact harg12.read_unread _
                   iexact H10
  isplitl [H11]
  · iexists _; isplitr
    swap; · iexact H11
    ipureintro
    rw [read_two_halves]
    sl_unfold_words
    simp only [View.readAt_eq_ld, Memref.IsWhole.read_unread, View.ld_unit_zero (S := S10000x64) hz2, View.ld_unit_zero (S := S200x10000) hz2, View.ld_unit_zero (S := S64x64) hz2, View.ld_unit_zero (S := S1x64) hz2]
  isplitl [H12]
  · iexists _; isplitr
    swap; · iexact H12
    ipureintro
    rw [read_two_halves]
    simp only [View.readAt_eq_ld, Memref.IsWhole.read_unread, View.ld_unit_zero (S := S10000x64) hz2, View.ld_unit_zero (S := S200x10000) hz2]
  iexists _; isplitr; · ipureintro; exact harg16.read_unread _
  iexact HS1

end Cert.KernelIdeal.Hand

end
-- ==== Proof.KBody.lean ====
import proofs.«133318_g652835029058_cont_9to1_m_690_17_alg».proof.Proof.Gen.KernelIdeal.Launch
import proofs.«133318_g652835029058_cont_9to1_m_690_17_alg».proof.Proof.Gen.KernelIdeal.Skeleton
import proofs.«133318_g652835029058_cont_9to1_m_690_17_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«133318_g652835029058_cont_9to1_m_690_17_alg».proof.Proof.KData
import proofs.«133318_g652835029058_cont_9to1_m_690_17_alg».proof.Proof.KInv
import proofs.«133318_g652835029058_cont_9to1_m_690_17_alg».proof.Proof.KRunA
import proofs.«133318_g652835029058_cont_9to1_m_690_17_alg».proof.Proof.KRunB
import proofs.«133318_g652835029058_cont_9to1_m_690_17_alg».proof.Proof.KRunC
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## The body obligation

At every point the pipeline hands the body each window's current staging buffer: an input's holds its block, an
output's anything.  The first point computes the input projection and its 400 rows of the second layer's input; the
other points of phase 0 their 400 rows; the points of phase 1 their 400 rows of the two results, which the pipeline
then writes back.  In phase 0 the output windows are idle: their buffers are handed back untouched. -/

/-- Each window's current staging memref at point `t`, as the pipeline passes it to the body. -/
abbrev ms0 (t : Fin cfg0.N) : Memref sig .tc .vmem S200x10000 .f32 := win0_0.stage (cfg0.slots t 0)
abbrev ms1 (t : Fin cfg0.N) : Memref sig .tc .vmem S200x10000 .f32 := win0_1.stage (cfg0.slots t 1)
abbrev ms2 (t : Fin cfg0.N) : Memref sig .tc .vmem S10000x128 .f32 := win0_2.stage (cfg0.slots t 2)
abbrev ms3 (t : Fin cfg0.N) : Memref sig .tc .vmem S128x128 .f32 := win0_3.stage (cfg0.slots t 3)
abbrev ms4 (t : Fin cfg0.N) : Memref sig .tc .vmem S1x128 .f32 := win0_4.stage (cfg0.slots t 4)
abbrev ms5 (t : Fin cfg0.N) : Memref sig .tc .vmem S128x64 .f32 := win0_5.stage (cfg0.slots t 5)
abbrev ms6 (t : Fin cfg0.N) : Memref sig .tc .vmem S1x64 .f32 := win0_6.stage (cfg0.slots t 6)
abbrev ms7 (t : Fin cfg0.N) : Memref sig .tc .vmem S64x64 .f32 := win0_7.stage (cfg0.slots t 7)
abbrev ms8 (t : Fin cfg0.N) : Memref sig .tc .vmem S1x64 .f32 := win0_8.stage (cfg0.slots t 8)
abbrev ms9 (t : Fin cfg0.N) : Memref sig .tc .vmem S64x64 .f32 := win0_9.stage (cfg0.slots t 9)
abbrev ms10 (t : Fin cfg0.N) : Memref sig .tc .vmem S1x64 .f32 := win0_10.stage (cfg0.slots t 10)
abbrev ms11 (t : Fin cfg0.N) : Memref sig .tc .vmem S400x64 .f32 := win0_11.stage (cfg0.slots t 11)
abbrev ms12 (t : Fin cfg0.N) : Memref sig .tc .vmem S400x64 .f32 := win0_12.stage (cfg0.slots t 12)

/-- The input windows are never idle. -/
theorem liveAt_0 : ∀ t : Fin cfg0.N, cfg0.idle 0 (grid0.coords t) = false := fun _ => rfl
theorem liveAt_1 : ∀ t : Fin cfg0.N, cfg0.idle 1 (grid0.coords t) = false := fun _ => rfl
theorem liveAt_2 : ∀ t : Fin cfg0.N, cfg0.idle 2 (grid0.coords t) = false := fun _ => rfl
theorem liveAt_3 : ∀ t : Fin cfg0.N, cfg0.idle 3 (grid0.coords t) = false := fun _ => rfl
theorem liveAt_4 : ∀ t : Fin cfg0.N, cfg0.idle 4 (grid0.coords t) = false := fun _ => rfl
theorem liveAt_5 : ∀ t : Fin cfg0.N, cfg0.idle 5 (grid0.coords t) = false := fun _ => rfl
theorem liveAt_6 : ∀ t : Fin cfg0.N, cfg0.idle 6 (grid0.coords t) = false := fun _ => rfl
theorem liveAt_7 : ∀ t : Fin cfg0.N, cfg0.idle 7 (grid0.coords t) = false := fun _ => rfl
theorem liveAt_8 : ∀ t : Fin cfg0.N, cfg0.idle 8 (grid0.coords t) = false := fun _ => rfl
theorem liveAt_9 : ∀ t : Fin cfg0.N, cfg0.idle 9 (grid0.coords t) = false := fun _ => rfl
theorem liveAt_10 : ∀ t : Fin cfg0.N, cfg0.idle 10 (grid0.coords t) = false := fun _ => rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 16000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).owesAt () t.succ = (dats m 0 c).owesAt () t.castSucc from rfl]
  rw [Phi_succ, Phi_castSucc]
  have hN : t.val < 50 := lt_of_lt_of_eq t.isLt N50
  rw [show (dats m 0 c).leavesExact 0 t = owns (c : Thread nD τ) (ms0 t) fullShare ((dats m 0 c).after 0 t) from by
    unfold Dat.leavesExact; rw [liveAt_0 t], after_0]
  rw [show (dats m 0 c).leavesExact 1 t = owns (c : Thread nD τ) (ms1 t) fullShare ((dats m 0 c).after 1 t) from by
    unfold Dat.leavesExact; rw [liveAt_1 t], after_1]
  rw [show (dats m 0 c).leavesExact 2 t = owns (c : Thread nD τ) (ms2 t) fullShare ((dats m 0 c).after 2 t) from by
    unfold Dat.leavesExact; rw [liveAt_2 t], after_2]
  rw [show (dats m 0 c).leavesExact 3 t = owns (c : Thread nD τ) (ms3 t) fullShare ((dats m 0 c).after 3 t) from by
    unfold Dat.leavesExact; rw [liveAt_3 t], after_3]
  rw [show (dats m 0 c).leavesExact 4 t = owns (c : Thread nD τ) (ms4 t) fullShare ((dats m 0 c).after 4 t) from by
    unfold Dat.leavesExact; rw [liveAt_4 t], after_4]
  rw [show (dats m 0 c).leavesExact 5 t = owns (c : Thread nD τ) (ms5 t) fullShare ((dats m 0 c).after 5 t) from by
    unfold Dat.leavesExact; rw [liveAt_5 t], after_5]
  rw [show (dats m 0 c).leavesExact 6 t = owns (c : Thread nD τ) (ms6 t) fullShare ((dats m 0 c).after 6 t) from by
    unfold Dat.leavesExact; rw [liveAt_6 t], after_6]
  rw [show (dats m 0 c).leavesExact 7 t = owns (c : Thread nD τ) (ms7 t) fullShare ((dats m 0 c).after 7 t) from by
    unfold Dat.leavesExact; rw [liveAt_7 t], after_7]
  rw [show (dats m 0 c).leavesExact 8 t = owns (c : Thread nD τ) (ms8 t) fullShare ((dats m 0 c).after 8 t) from by
    unfold Dat.leavesExact; rw [liveAt_8 t], after_8]
  rw [show (dats m 0 c).leavesExact 9 t = owns (c : Thread nD τ) (ms9 t) fullShare ((dats m 0 c).after 9 t) from by
    unfold Dat.leavesExact; rw [liveAt_9 t], after_9]
  rw [show (dats m 0 c).leavesExact 10 t = owns (c : Thread nD τ) (ms10 t) fullShare ((dats m 0 c).after 10 t) from by
    unfold Dat.leavesExact; rw [liveAt_10 t], after_10]
  by_cases h25 : t.val < 25
  · rw [Dat.leavesExact_idle (dats m 0 c) 11 t (idle11 t h25) (noFlush11 t h25),
      Dat.leavesExact_idle (dats m 0 c) 12 t (idle12 t h25) (noFlush12 t h25)]
    unfold Phi
    by_cases hz : t.val = 0
    · -- the first point
      have ht0 : t = t0 := Fin.ext hz
      iintro ⟨⟨%f0, %f1, %hinv, HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (runA c (grid0.coords t) _ _ _ _ _ _ _ _ _ _ _ _ _ _ _ _ _ _ _ _ _ _ _ _ _ _ _ _ _ _
        ((hcond1 t).mpr hz) ((hcond2 t).mpr h25) (fun h => absurd ((hcond3 t).mp h) (by omega))
        (400 * t.val) (400 * t.val + 200) (hoff0 t h25) (hoff1 t h25)
        (iblk m c 0 t) (iblk m c 1 t) (iblk m c 2 t) (iblk m c 3 t) (iblk m c 4 t) (iblk m c 5 t) (iblk m c 6 t) f1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexact HS1
      iintro ⟨H0, H1, H2, H3, H4, H5, H6, HS0, HS1⟩
      isplitl [HS0 HS1]
      · iexists _, _; isplitr
        swap
        · isplitl [HS0]; · iexact HS0
          iexact HS1
        ipureintro
        have hP : k0_pay1 (iblk m c 2 t) (iblk m c 3 t) (iblk m c 4 t) = P1 m c := by
          rw [ht0]; rfl
        rw [hP]
        exact Inv_step m c t h25 _ f1 rfl (Inv_rows m c t.val h25 f0 f1 hinv)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexists _; iexact H12
    · -- the other points of phase 0
      iintro ⟨⟨%f0, %f1, %hinv, HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      have hf0 : f0 = P1 m c := hinv.1 (Nat.pos_of_ne_zero hz)
      subst hf0
      iapply (runB c (grid0.coords t) _ _ _ _ _ _ _ _ _ _ _ _ _ _ _ _ _ _ _ _ _ _ _ _ _ _ _ _ _ _
        (fun h => hz ((hcond1 t).mp h)) ((hcond2 t).mpr h25) (fun h => absurd ((hcond3 t).mp h) (by omega))
        (400 * t.val) (400 * t.val + 200) (hoff0 t h25) (hoff1 t h25)
        (iblk m c 0 t) (iblk m c 1 t) (iblk m c 5 t) (iblk m c 6 t) (P1 m c) f1 Set.univ _)
      isplitl [H0]; · iexact H0
      isplitl [H1]; · iexact H1
      isplitl [H5]; · iexact H5
      isplitl [H6]; · iexact H6
      isplitl [HS0]; · iexact HS0
      isplitl [HS1]; · iexact HS1
      iintro ⟨H0, H1, H5, H6, HS0, HS1⟩
      isplitl [HS0 HS1]
      · iexists _, _; isplitr
        swap
        · isplitl [HS0]; · iexact HS0
          iexact HS1
        ipureintro
        exact Inv_step m c t h25 _ f1 rfl (Inv_rows m c t.val h25 _ f1 hinv)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexists _; iexact H12
  · -- the points of phase 1
    have h25' : 25 ≤ t.val := by omega
    rw [show (dats m 0 c).leavesExact 11 t = owns (c : Thread nD τ) (ms11 t) fullShare ((dats m 0 c).after 11 t) from by
      unfold Dat.leavesExact; rw [live11 t h25'], after_11]
    rw [show (dats m 0 c).leavesExact 12 t = owns (c : Thread nD τ) (ms12 t) fullShare ((dats m 0 c).after 12 t) from by
      unfold Dat.leavesExact; rw [live12 t h25'], after_12]
    unfold Phi Zout Eout
    iintro ⟨⟨%f0, %f1, %hinv, HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have hf1 : f1 = H2 m c := Inv_full m c t.val h25' f0 f1 hinv
    subst hf1
    iapply (runC c (grid0.coords t) _ _ _ _ _ _ _ _ _ _ _ _ _ _ _ _ _ _ _ _ _ _ _ _ _ _ _ _ _ _
      (fun h => absurd ((hcond1 t).mp h) (by omega)) (fun h => absurd ((hcond2 t).mp h) (by omega)) ((hcond3 t).mpr h25')
      (iblk m c 0 t) (iblk m c 1 t) (iblk m c 7 t) (iblk m c 8 t) (iblk m c 9 t) (iblk m c 10 t) (H2 m c) Set.univ _)
    isplitl [H0]; · iexact H0
    isplitl [H1]; · iexact H1
    isplitl [H7]; · iexact H7
    isplitl [H8]; · iexact H8
    isplitl [H9]; · iexact H9
    isplitl [H10]; · iexact H10
    isplitl [H11]; · iexists _; iexact H11
    isplitl [H12]; · iexists _; iexact H12
    isplitl [HS1]; · iexact HS1
    iintro ⟨H0, H1, H7, H8, H9, H10, H11, H12, HS1⟩
    isplitl [HS0 HS1]
    · iexists _, _; isplitr
      swap
      · isplitl [HS0]; · iexact HS0
        iexact HS1
      ipureintro
      exact ⟨fun _ => hinv.1 (by omega), fun y _ => rfl⟩
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The library's body obligation, at every point. -/
theorem body_obligation (c : Dev nD) : BodyObligation (dats (F := F) m 0 c) (defs₀ (F := F)) Variants.none () Set.univ := fun t => by
  rw [bigSep_W0, bigSep_W0]
  exact sound_body m c t

/-- The scratch buffers as memrefs held at some contents. -/
theorem scopedRest_eq' (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d)) := by
  rw [scopedRest0_eq]; simp only [scM0, scM1, owns_whole]; try rfl

/-- What the launch hands the region is the invariant before the first point; -/
theorem hin (c : Dev nD) : Pipeline.scopedRest spec0 c ⊢ (dats m 0 c).Φ 0 := by
  rw [show (dats m 0 c).Φ 0 = Phi m c 0 from rfl, scopedRest_eq']
  unfold Phi
  iintro ⟨⟨%d0, H0⟩, ⟨%d1, H1⟩⟩
  iexists d0, d1
  isplitr; · ipureintro; exact Inv_zero m c d0 d1
  isplitl [H0]; · iexact H0
  iexact H1

/-- and after the last point the invariant gives the scratch buffers back. -/
theorem hout (c : Dev nD) : (dats m 0 c).Φ (Fin.last cfg0.N) ⊢ Pipeline.scopedRest spec0 c := by
  rw [show (dats m 0 c).Φ (Fin.last cfg0.N) = Phi m c (Fin.last cfg0.N).val from rfl, scopedRest_eq']
  unfold Phi
  iintro ⟨%f0, %f1, -, H0, H1⟩
  isplitl [H0]; · iexists _; iexact H0
  iexists _; iexact H1

end Cert.KernelIdeal.Hand

end
-- ==== Proof.KLaunch.lean ====
/-
  The run of @main around its one pipelined region, for ANY proof data of the region.

  @main is eight host operations (four transposes, four reshapes) and then one pipelined region of thirteen windows on
  a 2 × 25 grid. Windows 0 and 1 are both INPUT windows on the same array (the 10000 × 10000 operand, read through two
  different index maps), so the thirteen windows stand on twelve distinct buffers. The region is therefore entered
  with that one buffer's points-to SPLIT along the share: its left half for window 0, its right half for window 1
  (a share splits into its two halves, and a points-to splits along a share: `pointsTo_share`); every other window's
  array is held whole, an output's necessarily so. Since both windows only read, nothing more is asked of the two
  halves, and at the end each window reads the array's final contents at its own share.

  `run_of`: from any launch memory with zero counters, every weakly fair execution of @main terminates, and in every
  final state each window's array holds what the proof data computes for it after the last write-back
  (`Dat.arrAt … N`), while the eight operands no window stages (the weights and biases as given, before the host
  operations transpose / reshape them into fresh buffers) hold what they held at the region's entry (`V`). The
  hypotheses are the proof data's own: its arrays at entry are the entry contents (`hA`), the shares above
  (`hq0`, `hq1`, `hq`), nothing owed, the body obligation, and the invariant entered from and left to the region's
  scoped scratch buffers (`hin`, `hout`).
-/
import proofs.«133318_g652835029058_cont_9to1_m_690_17_alg».proof.Proof.Gen.KernelIdeal.Launch
import proofs.«133318_g652835029058_cont_9to1_m_690_17_alg».proof.Proof.KBase
import proofs.«133318_g652835029058_cont_9to1_m_690_17_alg».proof.Proof.Gen.KernelIdeal.Points
import Idealize.ShloMosaic.Lib.Pipeline.Launch
import Idealize.ShloMosaic.Lib.Pipeline.Kit
import Idealize.ShloMosaic.Lib.Pipeline.Frame
import Idealize.ShloMosaic.Lib.Pipeline.FrameBody

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: one copy of the rounds library's, the pipeline's. -/
abbrev EP : Emb (UR sig nD τ) (MT nD τ sig Unit (Elt F) ℕ (UR sig nD τ) ℕ) := emb₁

variable (m : (ℓ : Loc nD τ sig) → Buf (Elt F) ℓ) (ρ : Dev nD → PrngReg)

/-- The eight host operations allocate nothing. -/
theorem hostOps0_fresh : (hostOps0 : List (HloOp τ sig (Elt F))).Forall fun op => op.fresh = ∅ := by
  simp only [List.Forall]; repeat' constructor

/-- @main is the host operations, then the region: the region is entered at the contents `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The rounds library's launch element: every staging cell's owner at round 0 and a duty token for every
    transfer the pipeline issues. -/
def u₀ : UR sig nD τ := initOf (Pipeline.cells cfgs cellOf_inj) (Pipeline.launchToks cfgs cellOf_inj)

/-- The operands of @main that no window stages. -/
abbrev restRefs : List (Ref sig .tc) := [main_arg2, main_arg3, main_arg4, main_arg5, main_arg6, main_arg7, main_arg8, main_arg9]

/-- The pipeline's `arrays` with every array a whole buffer: each window's array's buffer at the window's share. -/
theorem arrays_eq_share {c : Dev nD} (dat : Dat τ (Elt F) Unit ℕ (UR sig nD τ) ℕ (cfgs 0) c)
    (G : (w : Fin 13) → Buf (Elt F) (((cfgs 0).win w).arr.view.loc (c.tc : Thread nD τ))) :
    (dat.arrays G : sProp 𝕄) = bigSep Finset.univ fun w : Fin 13 => (((c.tc : Thread nD τ).loc (Pipeline.arrRef spec0 w)) ↦{dat.share w} G w : sProp 𝕄) := by
  unfold Dat.arrays
  exact bigSep_congr fun w _ => by rw [(arr_whole0 w).set_eq_univ]

/-- The twelve distinct buffers behind the thirteen windows' arrays, one by one (windows 0 and 1 read one array). -/
theorem arrBufs0_eq (c : Dev nD) :
    (Pipeline.arrBufs spec0 c (V m c) : sProp 𝕄) = iprop((((c.tc : Thread nD τ).loc (Pipeline.arrRef spec0 (1 : Fin 13))) ↦{fullShare} V m c (Pipeline.arrRef spec0 (1 : Fin 13))) ∗ (((c.tc : Thread nD τ).loc (Pipeline.arrRef spec0 (2 : Fin 13))) ↦{fullShare} V m c (Pipeline.arrRef spec0 (2 : Fin 13))) ∗ (((c.tc : Thread nD τ).loc (Pipeline.arrRef spec0 (3 : Fin 13))) ↦{fullShare} V m c (Pipeline.arrRef spec0 (3 : Fin 13))) ∗ (((c.tc : Thread nD τ).loc (Pipeline.arrRef spec0 (4 : Fin 13))) ↦{fullShare} V m c (Pipeline.arrRef spec0 (4 : Fin 13))) ∗ (((c.tc : Thread nD τ).loc (Pipeline.arrRef spec0 (5 : Fin 13))) ↦{fullShare} V m c (Pipeline.arrRef spec0 (5 : Fin 13))) ∗ (((c.tc : Thread nD τ).loc (Pipeline.arrRef spec0 (6 : Fin 13))) ↦{fullShare} V m c (Pipeline.arrRef spec0 (6 : Fin 13))) ∗ (((c.tc : Thread nD τ).loc (Pipeline.arrRef spec0 (7 : Fin 13))) ↦{fullShare} V m c (Pipeline.arrRef spec0 (7 : Fin 13))) ∗ (((c.tc : Thread nD τ).loc (Pipeline.arrRef spec0 (8 : Fin 13))) ↦{fullShare} V m c (Pipeline.arrRef spec0 (8 : Fin 13))) ∗ (((c.tc : Thread nD τ).loc (Pipeline.arrRef spec0 (9 : Fin 13))) ↦{fullShare} V m c (Pipeline.arrRef spec0 (9 : Fin 13))) ∗ (((c.tc : Thread nD τ).loc (Pipeline.arrRef spec0 (10 : Fin 13))) ↦{fullShare} V m c (Pipeline.arrRef spec0 (10 : Fin 13))) ∗ (((c.tc : Thread nD τ).loc (Pipeline.arrRef spec0 (11 : Fin 13))) ↦{fullShare} V m c (Pipeline.arrRef spec0 (11 : Fin 13))) ∗ (((c.tc : Thread nD τ).loc (Pipeline.arrRef spec0 (12 : Fin 13))) ↦{fullShare} V m c (Pipeline.arrRef spec0 (12 : Fin 13)))) := by
  unfold Pipeline.arrBufs
  exact bigSep_eq_bigSepL_of_eq [Pipeline.arrRef spec0 (1 : Fin 13), Pipeline.arrRef spec0 (2 : Fin 13), Pipeline.arrRef spec0 (3 : Fin 13), Pipeline.arrRef spec0 (4 : Fin 13), Pipeline.arrRef spec0 (5 : Fin 13), Pipeline.arrRef spec0 (6 : Fin 13), Pipeline.arrRef spec0 (7 : Fin 13), Pipeline.arrRef spec0 (8 : Fin 13), Pipeline.arrRef spec0 (9 : Fin 13), Pipeline.arrRef spec0 (10 : Fin 13), Pipeline.arrRef spec0 (11 : Fin 13), Pipeline.arrRef spec0 (12 : Fin 13)] (by decide) (by decide) _

/-- Windows 0 and 1 read the same array: a share of it held for window 1 is that share held for window 0. -/
theorem pt_win1_win0 (c : Dev nD) (q : PosShare TreeShare) :
    ((((c.tc : Thread nD τ).loc (Pipeline.arrRef spec0 (1 : Fin 13))) ↦{q} V m c (Pipeline.arrRef spec0 (1 : Fin 13))) : sProp 𝕄) ⊢ (((c.tc : Thread nD τ).loc (Pipeline.arrRef spec0 (0 : Fin 13))) ↦{q} V m c (Pipeline.arrRef spec0 (0 : Fin 13))) := BI.Entails.refl _

theorem hsplit_of
    (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare.left) (hq1 : ∀ c, (dats 0 c).q 1 = fullShare.right)
    (hq : ∀ c (w : Fin 13), w ≠ 0 → w ≠ 1 → (dats 0 c).q w = fullShare) (c : Dev nD) :
    (Pipeline.arrBufs spec0 c (V m c) : sProp 𝕄) ⊢ (dats 0 c).arrays ((dats 0 c).arrAt · 0) := by
  have hA0 : ∀ w : Fin 13, (dats 0 c).arrAt w 0 = V m c (Pipeline.arrRef spec0 w) := fun w => hA c w
  have s0 : (dats 0 c).share (0 : Fin 13) = fullShare.left := by unfold Dat.share; rw [if_neg (by decide)]; exact hq0 c
  have s1 : (dats 0 c).share (1 : Fin 13) = fullShare.right := by unfold Dat.share; rw [if_neg (by decide)]; exact hq1 c
  have s2 : (dats 0 c).share (2 : Fin 13) = fullShare := by unfold Dat.share; rw [if_neg (by decide)]; exact hq c 2 (by decide) (by decide)
  have s3 : (dats 0 c).share (3 : Fin 13) = fullShare := by unfold Dat.share; rw [if_neg (by decide)]; exact hq c 3 (by decide) (by decide)
  have s4 : (dats 0 c).share (4 : Fin 13) = fullShare := by unfold Dat.share; rw [if_neg (by decide)]; exact hq c 4 (by decide) (by decide)
  have s5 : (dats 0 c).share (5 : Fin 13) = fullShare := by unfold Dat.share; rw [if_neg (by decide)]; exact hq c 5 (by decide) (by decide)
  have s6 : (dats 0 c).share (6 : Fin 13) = fullShare := by unfold Dat.share; rw [if_neg (by decide)]; exact hq c 6 (by decide) (by decide)
  have s7 : (dats 0 c).share (7 : Fin 13) = fullShare := by unfold Dat.share; rw [if_neg (by decide)]; exact hq c 7 (by decide) (by decide)
  have s8 : (dats 0 c).share (8 : Fin 13) = fullShare := by unfold Dat.share; rw [if_neg (by decide)]; exact hq c 8 (by decide) (by decide)
  have s9 : (dats 0 c).share (9 : Fin 13) = fullShare := by unfold Dat.share; rw [if_neg (by decide)]; exact hq c 9 (by decide) (by decide)
  have s10 : (dats 0 c).share (10 : Fin 13) = fullShare := by unfold Dat.share; rw [if_neg (by decide)]; exact hq c 10 (by decide) (by decide)
  have s11 : (dats 0 c).share (11 : Fin 13) = fullShare := by unfold Dat.share; rw [if_pos (by decide)]
  have s12 : (dats 0 c).share (12 : Fin 13) = fullShare := by unfold Dat.share; rw [if_pos (by decide)]
  rw [arrBufs0_eq, arrays_eq_share, bigSep_W0]
  simp only [hA0, s0, s1, s2, s3, s4, s5, s6, s7, s8, s9, s10, s11, s12]
  iintro ⟨H1, H2, H3, H4, H5, H6, H7, H8, H9, H10, H11, H12⟩
  ihave H := (pointsTo_share (PosShare.mem_left_op_right fullShare)).1 $$ H1
  icases H with ⟨H0, H1⟩
  isplitl [H0]
  · iapply (pt_win1_win0 m c fullShare.left); iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- What the final memory holds of the operands no window stages. -/
abbrev QY (c : Dev nD) (s : MemSt nD τ sig (Elt F)) : Prop := ∀ b ∈ restRefs, s.mem ((c.tc : Thread nD τ).loc b) = V m c b

/-- Under the state interpretation the eight operands no window stages, held whole at the entry contents, are what the
    memory holds of them. -/
theorem hY_of (c : Dev nD) (s' : Phys nD τ sig (Elt F)) :
    (iprop(emp ∗ Pipeline.unscopedRest spec0 c (V m c) ∗ SI s') : sProp 𝕄) ⊢ |={Set.univ}=> iprop(⌜QY m c s'.mem⌝ ∗ SI s') := by
  rw [unscopedRest0_eq]
  iintro ⟨-, ⟨H2, H3, H4, H5, H6, H7, H8, H9⟩, HSI⟩
  icombine HSI H2 gives %h2
  icombine HSI H3 gives %h3
  icombine HSI H4 gives %h4
  icombine HSI H5 gives %h5
  icombine HSI H6 gives %h6
  icombine HSI H7 gives %h7
  icombine HSI H8 gives %h8
  icombine HSI H9 gives %h9
  imodintro
  isplitr
  · ipureintro
    intro b hb
    simp only [restRefs, List.mem_cons, List.mem_nil_iff, or_false] at hb
    rcases hb with rfl | rfl | rfl | rfl | rfl | rfl | rfl | rfl
    · exact Buf.eq_of_forall_mem_univ h2
    · exact Buf.eq_of_forall_mem_univ h3
    · exact Buf.eq_of_forall_mem_univ h4
    · exact Buf.eq_of_forall_mem_univ h5
    · exact Buf.eq_of_forall_mem_univ h6
    · exact Buf.eq_of_forall_mem_univ h7
    · exact Buf.eq_of_forall_mem_univ h8
    · exact Buf.eq_of_forall_mem_univ h9
  iexact HSI

set_option backward.isDefEq.respectTransparency.types false in
theorem run_of
    (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare.left) (hq1 : ∀ c, (dats 0 c).q 1 = fullShare.right)
    (hq : ∀ c (w : Fin 13), w ≠ 0 → w ≠ 1 → (dats 0 c).q w = fullShare)
    (howed : ∀ c t, (dats 0 c).owed t = 0)
    (hbody : ∀ c, BodyObligationLoose (dats 0 c) (defs₀ (F := F)) Variants.none () Set.univ)
    (hin : ∀ c, Pipeline.scopedRest spec0 c ⊢ (dats 0 c).Φ 0)
    (hout : ∀ c, (dats 0 c).Φ (Fin.last cfg0.N) ⊢ Pipeline.scopedRest spec0 c) :
    θ_run defs (onTc (τ := τ) (main (F := F))) ⟨m, fun _ => 0, ρ⟩ (fun r => ∀ c : Dev nD,
      (∀ w : Fin 13, r.2.mem (((cfgs 0).spec w).arr.view.loc (c.tc : Thread nD τ)) = (dats 0 c).arrAt w (cfgs 0).N)
      ∧ (∀ b ∈ restRefs, r.2.mem ((c.tc : Thread nD τ).loc b) = V m c b)) :=
  Pipeline.θ_run_region_noSem_shared cfgs dats () cellOf_inj (0 : Fin 1) winFacts₀0 EP defs₀ Variants.none m ρ main
    (hbody := hbody) (hne := block_pos0) (harr := arr_whole0) (hstage := stage_whole0) (howed := howed)
    (u₀ := u₀) (hu₀ := BI.Entails.refl _)
    (V := V m) (hmain := hmain m Variants.none)
    (hsplit := hsplit_of m dats hA hq0 hq1 hq)
    (X := fun _ => iprop(emp)) (Y := fun _ => iprop(emp)) (Z := fun c => Pipeline.unscopedRest spec0 c (V m c))
    (hX := fun c => by iintro H; isplitr; · iempintro
                       iexact H)
    (hin := fun c => by iintro ⟨-, H⟩; iapply (hin c); iexact H)
    (hout := fun c => by iintro H; isplitr; · iempintro
                         iapply (hout c); iexact H)
    (QY := QY m)
    (hY := hY_of m)
    (hQ := fun _ h => h)

/-- info: 'Cert.KernelIdeal.Hand.run_of' depends on axioms: [propext, Classical.choice, Quot.sound] -/
#guard_msgs in #print axioms run_of

end Cert.KernelIdeal.Hand

end
-- ==== Proof.KEntry.lean ====
/-
  What the kernel finds in its buffers when it starts.

  Before the kernel runs, the host transposes the four weight matrices and views the four bias vectors as
  one-row matrices; it writes nothing else.  So each of the ten arguments still holds what it was launched
  with, a transposed weight reads at `(k, j)` the argument's entry `(j, k)`, and a bias row reads at `(0, j)`
  the argument's entry `j`.
-/
import proofs.«133318_g652835029058_cont_9to1_m_690_17_alg».proof.Proof.KBase
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.SL.Sem Idealize.ShloMosaic.StableHlo
open Idealize.ShloMosaic.ValueIdx
open Cert.KernelIdeal Cert.KernelIdeal.Gen

variable {F : FTy → Type} [FloatOps F]
variable (m : (ℓ : Loc nD τ sig) → Buf (Elt F) ℓ) (c : Dev nD)

/-! ## The arguments are untouched

The host operations before the kernel write their own eight results only. -/

theorem V_arg0 : V m c main_arg0 = m ((c : Thread nD τ).loc main_arg0) := by
  dsimp only [V, V0, hostOps0]; after_results
theorem V_arg1 : V m c main_arg1 = m ((c : Thread nD τ).loc main_arg1) := by
  dsimp only [V, V0, hostOps0]; after_results
theorem V_arg2 : V m c main_arg2 = m ((c : Thread nD τ).loc main_arg2) := by
  dsimp only [V, V0, hostOps0]; after_results
theorem V_arg3 : V m c main_arg3 = m ((c : Thread nD τ).loc main_arg3) := by
  dsimp only [V, V0, hostOps0]; after_results
theorem V_arg4 : V m c main_arg4 = m ((c : Thread nD τ).loc main_arg4) := by
  dsimp only [V, V0, hostOps0]; after_results
theorem V_arg5 : V m c main_arg5 = m ((c : Thread nD τ).loc main_arg5) := by
  dsimp only [V, V0, hostOps0]; after_results
theorem V_arg6 : V m c main_arg6 = m ((c : Thread nD τ).loc main_arg6) := by
  dsimp only [V, V0, hostOps0]; after_results
theorem V_arg7 : V m c main_arg7 = m ((c : Thread nD τ).loc main_arg7) := by
  dsimp only [V, V0, hostOps0]; after_results
theorem V_arg8 : V m c main_arg8 = m ((c : Thread nD τ).loc main_arg8) := by
  dsimp only [V, V0, hostOps0]; after_results
theorem V_arg9 : V m c main_arg9 = m ((c : Thread nD τ).loc main_arg9) := by
  dsimp only [V, V0, hostOps0]; after_results

/-! ## The transposed weights at an entry -/

/-- The first transpose's result, whole. -/
theorem V_v0_eq : (V m c main_v0 : S128x128.Idx → Elt F .f32)
    = transpose S128x128 [1, 0] (m ((c : Thread nD τ).loc main_arg2) : S128x128.Idx → Elt F .f32)
        transposes_S128x128_S128x128_1_0 := by
  dsimp only [V, V0, hostOps0]; after_results

/-- Entry `(k, j)` of the transposed first-layer weight is entry `(j, k)` of the weight. -/
theorem V_v0 (k j : Fin 128) :
    (V m c main_v0 : S128x128.Idx → Elt F .f32) (ix2 k j)
      = (m ((c : Thread nD τ).loc main_arg2) : S128x128.Idx → Elt F .f32) (ix2 j k) := by
  rw [V_v0_eq]
  exact transpose_ix2_apply _ _ k j

theorem V_v1_eq : (V m c main_v1 : S128x64.Idx → Elt F .f32)
    = transpose S128x64 [1, 0] (m ((c : Thread nD τ).loc main_arg4) : S64x128.Idx → Elt F .f32)
        transposes_S64x128_S128x64_1_0 := by
  dsimp only [V, V0, hostOps0]; after_results

/-- Entry `(k, j)` of the transposed second-layer weight is entry `(j, k)` of the weight. -/
theorem V_v1 (k : Fin 128) (j : Fin 64) :
    (V m c main_v1 : S128x64.Idx → Elt F .f32) (ix2 k j)
      = (m ((c : Thread nD τ).loc main_arg4) : S64x128.Idx → Elt F .f32) (ix2 j k) := by
  rw [V_v1_eq]
  exact transpose_ix2_apply _ _ k j

theorem V_v2_eq : (V m c main_v2 : S64x64.Idx → Elt F .f32)
    = transpose S64x64 [1, 0] (m ((c : Thread nD τ).loc main_arg6) : S64x64.Idx → Elt F .f32)
        transposes_S64x64_S64x64_1_0 := by
  dsimp only [V, V0, hostOps0]; after_results

/-- Entry `(k, j)` of the head's transposed first weight is entry `(j, k)` of the weight. -/
theorem V_v2 (k j : Fin 64) :
    (V m c main_v2 : S64x64.Idx → Elt F .f32) (ix2 k j)
      = (m ((c : Thread nD τ).loc main_arg6) : S64x64.Idx → Elt F .f32) (ix2 j k) := by
  rw [V_v2_eq]
  exact transpose_ix2_apply _ _ k j

theorem V_v3_eq : (V m c main_v3 : S64x64.Idx → Elt F .f32)
    = transpose S64x64 [1, 0] (m ((c : Thread nD τ).loc main_arg8) : S64x64.Idx → Elt F .f32)
        transposes_S64x64_S64x64_1_0 := by
  dsimp only [V, V0, hostOps0]; after_results

/-- Entry `(k, j)` of the head's transposed second weight is entry `(j, k)` of the weight. -/
theorem V_v3 (k j : Fin 64) :
    (V m c main_v3 : S64x64.Idx → Elt F .f32) (ix2 k j)
      = (m ((c : Thread nD τ).loc main_arg8) : S64x64.Idx → Elt F .f32) (ix2 j k) := by
  rw [V_v3_eq]
  exact transpose_ix2_apply _ _ k j

/-! ## The bias rows at an entry -/

theorem V_v4_eq : (V m c main_v4 : S1x128.Idx → Elt F .f32)
    = shapeCast S1x128 (m ((c : Thread nD τ).loc main_arg3) : S128.Idx → Elt F .f32) shapeCasts_S128_S1x128 := by
  dsimp only [V, V0, hostOps0]; after_results; rfl

/-- Entry `(0, j)` of the first layer's bias row is entry `j` of the bias. -/
theorem V_v4 (j : Fin 128) :
    (V m c main_v4 : S1x128.Idx → Elt F .f32) (ix2 (0 : Fin 1) j)
      = (m ((c : Thread nD τ).loc main_arg3) : S128.Idx → Elt F .f32) (ix1 j) := by
  rw [V_v4_eq]
  exact shapeCast_a_1a_apply _ _ 0 j

theorem V_v5_eq : (V m c main_v5 : S1x64.Idx → Elt F .f32)
    = shapeCast S1x64 (m ((c : Thread nD τ).loc main_arg5) : S64.Idx → Elt F .f32) shapeCasts_S64_S1x64 := by
  dsimp only [V, V0, hostOps0]; after_results; rfl

/-- Entry `(0, j)` of the second layer's bias row is entry `j` of the bias. -/
theorem V_v5 (j : Fin 64) :
    (V m c main_v5 : S1x64.Idx → Elt F .f32) (ix2 (0 : Fin 1) j)
      = (m ((c : Thread nD τ).loc main_arg5) : S64.Idx → Elt F .f32) (ix1 j) := by
  rw [V_v5_eq]
  exact shapeCast_a_1a_apply _ _ 0 j

theorem V_v6_eq : (V m c main_v6 : S1x64.Idx → Elt F .f32)
    = shapeCast S1x64 (m ((c : Thread nD τ).loc main_arg7) : S64.Idx → Elt F .f32) shapeCasts_S64_S1x64 := by
  dsimp only [V, V0, hostOps0]; after_results; rfl

/-- Entry `(0, j)` of the head's first bias row is entry `j` of the bias. -/
theorem V_v6 (j : Fin 64) :
    (V m c main_v6 : S1x64.Idx → Elt F .f32) (ix2 (0 : Fin 1) j)
      = (m ((c : Thread nD τ).loc main_arg7) : S64.Idx → Elt F .f32) (ix1 j) := by
  rw [V_v6_eq]
  exact shapeCast_a_1a_apply _ _ 0 j

theorem V_v7_eq : (V m c main_v7 : S1x64.Idx → Elt F .f32)
    = shapeCast S1x64 (m ((c : Thread nD τ).loc main_arg9) : S64.Idx → Elt F .f32) shapeCasts_S64_S1x64 := by
  dsimp only [V, V0, hostOps0]; after_results; rfl

/-- Entry `(0, j)` of the head's second bias row is entry `j` of the bias. -/
theorem V_v7 (j : Fin 64) :
    (V m c main_v7 : S1x64.Idx → Elt F .f32) (ix2 (0 : Fin 1) j)
      = (m ((c : Thread nD τ).loc main_arg9) : S64.Idx → Elt F .f32) (ix1 j) := by
  rw [V_v7_eq]
  exact shapeCast_a_1a_apply _ _ 0 j

end Cert.KernelIdeal.Hand

end
-- ==== Proof.KFrame.lean ====
/-
  From the run of @main to the posts the certificate's claims state.

  The run theorem's post speaks of the thirteen windows' arrays and of the eight operands no window stages. The claims
  speak of @main's two results and ten arguments. The results are the arrays of the two output windows (windows 11
  and 12), so they end at what the proof data computes for them after the last write-back. Of the arguments, the
  features are the array of window 2 and the adjacency matrix that of windows 0 and 1: input windows, whose arrays no
  write-back ever touches, so they end holding their entry contents; the remaining eight are the operands read off
  directly. And the entry contents of all ten are the launch contents, because the host operations before the region
  (four transposes, four reshapes) write only their own eight fresh results.
-/
import proofs.«133318_g652835029058_cont_9to1_m_690_17_alg».proof.Proof.KLaunch
import proofs.«133318_g652835029058_cont_9to1_m_690_17_alg».proof.Proof.KData
import proofs.«133318_g652835029058_cont_9to1_m_690_17_alg».proof.Proof.KEntry

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The ten arguments at the end of a run, from what the run's post says of the windows' arrays and of the operands no
    window stages: the features are window 2's array and the adjacency matrix windows 0's and 1's, INPUT windows, whose
    arrays no write-back touches, so they end at their entry contents; the other eight are read off directly; and the
    host operations before the region write none of the ten. -/
theorem args_of_post (c : Dev nD) (s : MemSt nD τ sig (Elt F))
    (h1 : ∀ w : Fin 13, s.mem (((cfgs 0).spec w).arr.view.loc (c.tc : Thread nD τ)) = (dats m 0 c).arrAt w (cfgs 0).N)
    (h2 : ∀ b ∈ restRefs, s.mem ((c.tc : Thread nD τ).loc b) = V m c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9) :=
  ⟨(h1 2).trans (((dats m 0 c).arrAt_in 2 rfl _).trans ((A_eq m c 2).trans (V_arg0 m c))),
   (h1 0).trans (((dats m 0 c).arrAt_in 0 rfl _).trans ((A_eq m c 0).trans (V_arg1 m c))),
   (h2 main_arg2 (by simp [restRefs])).trans (V_arg2 m c),
   (h2 main_arg3 (by simp [restRefs])).trans (V_arg3 m c),
   (h2 main_arg4 (by simp [restRefs])).trans (V_arg4 m c),
   (h2 main_arg5 (by simp [restRefs])).trans (V_arg5 m c),
   (h2 main_arg6 (by simp [restRefs])).trans (V_arg6 m c),
   (h2 main_arg7 (by simp [restRefs])).trans (V_arg7 m c),
   (h2 main_arg8 (by simp [restRefs])).trans (V_arg8 m c),
   (h2 main_arg9 (by simp [restRefs])).trans (V_arg9 m c)⟩

/-- The post of the algebraic claim's run: the two results are the output windows' arrays after the last write-back,
    and the ten arguments hold what they were launched with. -/
theorem posts_of_run
    (h : θ_run defs (onTc (τ := τ) (main (F := F))) ⟨m, fun _ => 0, ρ⟩ (fun r => ∀ c : Dev nD,
      (∀ w : Fin 13, r.2.mem (((cfgs 0).spec w).arr.view.loc (c.tc : Thread nD τ)) = (dats m 0 c).arrAt w (cfgs 0).N)
      ∧ (∀ b ∈ restRefs, r.2.mem ((c.tc : Thread nD τ).loc b) = V m c b))) :
    θ_run defs (onTc (τ := τ) (main (F := F))) ⟨m, fun _ => 0, ρ⟩ (fun r => ∀ c : Dev nD,
      r.2.mem ((c.tc : Thread nD τ).loc main_v8_0) = (dats m 0 c).arrAt 11 cfg0.N
      ∧ r.2.mem ((c.tc : Thread nD τ).loc main_v8_1) = (dats m 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1 11, (h c).1 12, args_of_post m c _ (h c).1 (h c).2⟩) h

/-- The post of the frame claim's run: the ten arguments hold what they were launched with. -/
theorem frame_of_run
    (h : θ_run defs (onTc (τ := τ) (main (F := F))) ⟨m, fun _ => 0, ρ⟩ (fun r => ∀ c : Dev nD,
      (∀ w : Fin 13, r.2.mem (((cfgs 0).spec w).arr.view.loc (c.tc : Thread nD τ)) = (dats m 0 c).arrAt w (cfgs 0).N)
      ∧ (∀ b ∈ restRefs, r.2.mem ((c.tc : Thread nD τ).loc b) = V m c b))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => args_of_post m c _ (h c).1 (h c).2) h

end Cert.KernelIdeal.Hand

end
-- ==== Proof.KRun.lean ====
import proofs.«133318_g652835029058_cont_9to1_m_690_17_alg».proof.Proof.Gen.KernelIdeal.Launch
import proofs.«133318_g652835029058_cont_9to1_m_690_17_alg».proof.Proof.Gen.KernelIdeal.Skeleton
import proofs.«133318_g652835029058_cont_9to1_m_690_17_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«133318_g652835029058_cont_9to1_m_690_17_alg».proof.Proof.KBody
import proofs.«133318_g652835029058_cont_9to1_m_690_17_alg».proof.Proof.KLaunch
import proofs.«133318_g652835029058_cont_9to1_m_690_17_alg».proof.Proof.KFrame
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window but the adjacency matrix's two holds its array outright. -/
theorem q_full (c : Dev nD) (w : Fin 13) (h0 : w ≠ 0) (h1 : w ≠ 1) : (dats m 0 c).q w = fullShare := by
  fin_cases w
  · exact absurd rfl h0
  · exact absurd rfl h1
  all_goals rfl

/-- From any memory with zero counters every weakly fair execution of the program terminates without a fault; each
    window's array then holds what the write-backs of the proof data leave, and the weights and biases are as the host
    operations left them. -/
theorem run_main : θ_run defs (onTc (τ := τ) (main (F := F))) ⟨m, fun _ => 0, ρ⟩ (fun r => ∀ c : Dev nD,
      (∀ w : Fin 13, r.2.mem (((cfgs 0).spec w).arr.view.loc (c.tc : Thread nD τ)) = (dats m 0 c).arrAt w (cfgs 0).N)
      ∧ (∀ b ∈ restRefs, r.2.mem ((c.tc : Thread nD τ).loc b) = V m c b)) :=
  run_of m ρ (dats m) (A_eq m) (fun _ => rfl) (fun _ => rfl) (q_full m) (fun _ _ => rfl)
    (fun c => (body_obligation m c).loose) (hin m) (hout m)

end Cert.KernelIdeal.Hand

end
-- ==== Proof.KCover.lean ====
/-
  From blocks to arrays.

  The grid has 2 × 25 = 50 points; point `t` has phase `t / 25` and step `t % 25`.  Each of the two result
  arrays (10000 × 64) is written in 25 blocks of 400 rows: during phase 1, step `s` writes rows
  `400 s … 400 s + 399`, and nothing is written back during phase 0.  So if what the body leaves at each point
  `t ≥ 25` is rows `400 (t - 25) …` of one function `G` of the whole array, the array ends holding `G`: row `r`
  is written at point `25 + r / 400`.  The adjacency matrix is read in blocks of 200 rows, two per point (rows
  `400 s …` and `400 s + 200 …`), and every other operand is one block that is the whole array at every point.
-/
import proofs.«133318_g652835029058_cont_9to1_m_690_17_alg».proof.Proof.KBase
import Idealize.ShloMosaic.Lib.Pipeline.Value
import Idealize.ShloMosaic.Lib.ValueIdx
import proofs.«133318_g652835029058_cont_9to1_m_690_17_alg».proof.Proof.Gen.KernelIdeal.Points

noncomputable section

namespace Cert.KernelIdeal.Hand

open Idealize.ShloMosaic Idealize.ShloMosaic.TcCoe Idealize.SL.Sem
open Idealize.ShloMosaic.Pipeline (Dat)
open Cert.KernelIdeal Cert.KernelIdeal.Gen Idealize.ShloMosaic.ValueIdx

variable {F : FTy → Type} [FloatOps F]

/-! ## The two result windows: where they are written back, and which rows -/

/-- Window 11 is written back exactly at the points of phase 1. -/
theorem flush11 : ∀ t : Fin cfg0.N, (cfg0.win 11).flush t = true ↔ 25 ≤ t.val :=
  (by decide +kernel : ∀ t : Fin grid0.N, win0_11.flush t = true ↔ 25 ≤ t.val)

/-- Window 12 is written back exactly at the points of phase 1. -/
theorem flush12 : ∀ t : Fin cfg0.N, (cfg0.win 12).flush t = true ↔ 25 ≤ t.val :=
  (by decide +kernel : ∀ t : Fin grid0.N, win0_12.flush t = true ↔ 25 ≤ t.val)

/-- Window 11's block index: the step during phase 1, zero before; always column block 0. -/
theorem idx11 : ∀ t : Fin cfg0.N, win0_11.index t (0 : Fin 2) = (if 25 ≤ t.val then t.val - 25 else 0)
    ∧ win0_11.index t (1 : Fin 2) = 0 :=
  (by decide +kernel : ∀ t : Fin grid0.N, _)

/-- Window 12's block index: the same. -/
theorem idx12 : ∀ t : Fin cfg0.N, win0_12.index t (0 : Fin 2) = (if 25 ≤ t.val then t.val - 25 else 0)
    ∧ win0_12.index t (1 : Fin 2) = 0 :=
  (by decide +kernel : ∀ t : Fin grid0.N, _)

/-- A row of a phase-1 block is a row of the array. -/
theorem row_lt (t : Fin cfg0.N) (r : Fin 400) : 400 * (t.val - 25) + r.val < 10000 := by
  have ht : t.val < 50 := N_0 ▸ t.isLt
  have hr := r.isLt
  omega

/-- An index of the array is in point `t`'s block of window 11 iff each coordinate is in the block's range. -/
theorem mem_blk11 (t : Fin cfg0.N) (i : S10000x64.Idx) :
    i ∈ ((cfg0.win 11).blk t).view.set ↔ ∀ a : Fin 2, win0_11.index t a * S400x64.size a ≤ (i a).val ∧ (i a).val < win0_11.index t a * S400x64.size a + S400x64.size a := by
  show i ∈ ((View.whole main_v8_0).slice (win0_11.rect t)).set ↔ _
  rw [View.set_slice_whole, Rect.mem_set_unit]
  exact Iff.rfl

/-- The same for window 12. -/
theorem mem_blk12 (t : Fin cfg0.N) (i : S10000x64.Idx) :
    i ∈ ((cfg0.win 12).blk t).view.set ↔ ∀ a : Fin 2, win0_12.index t a * S400x64.size a ≤ (i a).val ∧ (i a).val < win0_12.index t a * S400x64.size a + S400x64.size a := by
  show i ∈ ((View.whole main_v8_1).slice (win0_12.rect t)).set ↔ _
  rw [View.set_slice_whole, Rect.mem_set_unit]
  exact Iff.rfl

/-- If at every point of phase 1 the body leaves rows `400 (t - 25) …` of `G` in window 11's block, the array ends
    holding `G`: the 25 blocks tile it, row `r` in the block of point `25 + r / 400`. -/
theorem final11 (c : Dev nD) (dat : Dat τ (Elt F) Unit ℕ (UR sig nD τ) ℕ cfg0 c) (G : S10000x64.Idx → Elt F .f32)
    (hafter : ∀ (t : Fin cfg0.N), 25 ≤ t.val → ∀ (r : Fin 400) (q : Fin 64),
      dat.after 11 t (ix2 r q) = G (ix2 ⟨400 * (t.val - 25) + r.val, row_lt t r⟩ q)) :
    (dat.arrAt 11 cfg0.N : S10000x64.Idx → Elt F .f32) = G := by
  refine dat.arrAt_eq_of_cover 11 G (fun t hf => ?_) (fun i => ?_)
  · have h25 : 25 ≤ t.val := (flush11 t).mp hf
    obtain ⟨e0, e1⟩ := idx11 t
    funext y
    have hy0 : (y 0).val < 400 := (y 0).isLt
    have hy1 : (y 1).val < 64 := (y 1).isLt
    have hx : (cfg0.win 11).xinj (grid0.coords t) y = ix2 (⟨(y 0).val, hy0⟩ : Fin 400) (⟨(y 1).val, hy1⟩ : Fin 64) :=
      funext fun a => Fin.ext (by match a with | ⟨0, _⟩ => rfl | ⟨1, _⟩ => rfl)
    have hemb : ((cfg0.win 11).blk t).view.emb y
        = ix2 (⟨400 * (t.val - 25) + (y 0).val, row_lt t ⟨(y 0).val, hy0⟩⟩ : Fin 10000) (⟨(y 1).val, hy1⟩ : Fin 64) := by
      funext a; apply Fin.ext
      match a with
      | ⟨0, _⟩ => show win0_11.index t (0 : Fin 2) * 400 + 1 * (y 0).val = 400 * (t.val - 25) + (y 0).val; rw [e0, if_pos h25]; omega
      | ⟨1, _⟩ => show win0_11.index t (1 : Fin 2) * 64 + 1 * (y 1).val = (y 1).val; rw [e1]; omega
    show dat.after 11 t ((cfg0.win 11).xinj (grid0.coords t) y) = G (((cfg0.win 11).blk t).view.emb y)
    rw [hx, hemb]
    exact hafter t h25 _ _
  · have hi0 : (i 0).val < 10000 := (i 0).isLt
    have hi1 : (i 1).val < 64 := (i 1).isLt
    obtain ⟨t, ht⟩ : ∃ t : Fin cfg0.N, t.val = 25 + (i 0).val / 400 :=
      ⟨⟨25 + (i 0).val / 400, by rw [show cfg0.N = 50 from N_0]; omega⟩, rfl⟩
    obtain ⟨e0, e1⟩ := idx11 t
    refine ⟨t, (flush11 t).mpr (by omega), ?_⟩
    rw [mem_blk11]
    intro a
    match a with
    | ⟨0, _⟩ => show win0_11.index t (0 : Fin 2) * 400 ≤ (i 0).val ∧ (i 0).val < win0_11.index t (0 : Fin 2) * 400 + 400; rw [e0, if_pos (by omega)]; omega
    | ⟨1, _⟩ => show win0_11.index t (1 : Fin 2) * 64 ≤ (i 1).val ∧ (i 1).val < win0_11.index t (1 : Fin 2) * 64 + 64; rw [e1]; omega

/-- If at every point of phase 1 the body leaves rows `400 (t - 25) …` of `G` in window 12's block, the array ends
    holding `G`: the 25 blocks tile it, row `r` in the block of point `25 + r / 400`. -/
theorem final12 (c : Dev nD) (dat : Dat τ (Elt F) Unit ℕ (UR sig nD τ) ℕ cfg0 c) (G : S10000x64.Idx → Elt F .f32)
    (hafter : ∀ (t : Fin cfg0.N), 25 ≤ t.val → ∀ (r : Fin 400) (q : Fin 64),
      dat.after 12 t (ix2 r q) = G (ix2 ⟨400 * (t.val - 25) + r.val, row_lt t r⟩ q)) :
    (dat.arrAt 12 cfg0.N : S10000x64.Idx → Elt F .f32) = G := by
  refine dat.arrAt_eq_of_cover 12 G (fun t hf => ?_) (fun i => ?_)
  · have h25 : 25 ≤ t.val := (flush12 t).mp hf
    obtain ⟨e0, e1⟩ := idx12 t
    funext y
    have hy0 : (y 0).val < 400 := (y 0).isLt
    have hy1 : (y 1).val < 64 := (y 1).isLt
    have hx : (cfg0.win 12).xinj (grid0.coords t) y = ix2 (⟨(y 0).val, hy0⟩ : Fin 400) (⟨(y 1).val, hy1⟩ : Fin 64) :=
      funext fun a => Fin.ext (by match a with | ⟨0, _⟩ => rfl | ⟨1, _⟩ => rfl)
    have hemb : ((cfg0.win 12).blk t).view.emb y
        = ix2 (⟨400 * (t.val - 25) + (y 0).val, row_lt t ⟨(y 0).val, hy0⟩⟩ : Fin 10000) (⟨(y 1).val, hy1⟩ : Fin 64) := by
      funext a; apply Fin.ext
      match a with
      | ⟨0, _⟩ => show win0_12.index t (0 : Fin 2) * 400 + 1 * (y 0).val = 400 * (t.val - 25) + (y 0).val; rw [e0, if_pos h25]; omega
      | ⟨1, _⟩ => show win0_12.index t (1 : Fin 2) * 64 + 1 * (y 1).val = (y 1).val; rw [e1]; omega
    show dat.after 12 t ((cfg0.win 12).xinj (grid0.coords t) y) = G (((cfg0.win 12).blk t).view.emb y)
    rw [hx, hemb]
    exact hafter t h25 _ _
  · have hi0 : (i 0).val < 10000 := (i 0).isLt
    have hi1 : (i 1).val < 64 := (i 1).isLt
    obtain ⟨t, ht⟩ : ∃ t : Fin cfg0.N, t.val = 25 + (i 0).val / 400 :=
      ⟨⟨25 + (i 0).val / 400, by rw [show cfg0.N = 50 from N_0]; omega⟩, rfl⟩
    obtain ⟨e0, e1⟩ := idx12 t
    refine ⟨t, (flush12 t).mpr (by omega), ?_⟩
    rw [mem_blk12]
    intro a
    match a with
    | ⟨0, _⟩ => show win0_12.index t (0 : Fin 2) * 400 ≤ (i 0).val ∧ (i 0).val < win0_12.index t (0 : Fin 2) * 400 + 400; rw [e0, if_pos (by omega)]; omega
    | ⟨1, _⟩ => show win0_12.index t (1 : Fin 2) * 64 ≤ (i 1).val ∧ (i 1).val < win0_12.index t (1 : Fin 2) * 64 + 64; rw [e1]; omega

/-! ## The input windows read at an entry -/

variable (m : (ℓ : Loc nD τ sig) → Buf (Elt F) ℓ)

/-- Window 0's block index: block row `2 · step`, column block 0. -/
theorem idx0 : ∀ t : Fin cfg0.N, win0_0.index t (0 : Fin 2) = 2 * (t.val % 25) ∧ win0_0.index t (1 : Fin 2) = 0 :=
  (by decide +kernel : ∀ t : Fin grid0.N, _)

/-- Window 1's block index: block row `2 · step + 1`, column block 0. -/
theorem idx1 : ∀ t : Fin cfg0.N, win0_1.index t (0 : Fin 2) = 2 * (t.val % 25) + 1 ∧ win0_1.index t (1 : Fin 2) = 0 :=
  (by decide +kernel : ∀ t : Fin grid0.N, _)

/-- A row of the upper 200-row block at a point is a row of the adjacency matrix. -/
theorem arow_lt (t : Fin cfg0.N) (r : Fin 200) : 400 * (t.val % 25) + r.val < 10000 := by
  have hr := r.isLt
  have := Nat.mod_lt t.val (show 0 < 25 by decide)
  omega

/-- A row of the lower 200-row block at a point is a row of the adjacency matrix. -/
theorem arow_lt' (t : Fin cfg0.N) (r : Fin 200) : 400 * (t.val % 25) + 200 + r.val < 10000 := by
  have hr := r.isLt
  have := Nat.mod_lt t.val (show 0 < 25 by decide)
  omega

/-- Window 0's block at a point is rows `400 · step … 400 · step + 199` of the adjacency matrix. -/
theorem iblk0_apply (c : Dev nD) (t : Fin cfg0.N) (r : Fin 200) (k : Fin 10000) :
    iblk m c 0 t (ix2 r k)
      = (V m c main_arg1 : S10000x10000.Idx → Elt F .f32) (ix2 ⟨400 * (t.val % 25) + r.val, arow_lt t r⟩ k) := by
  obtain ⟨e0, e1⟩ := idx0 t
  unfold iblk
  rw [View.read_apply]
  show V m c main_arg1 _ = V m c main_arg1 _
  congr 1
  funext a; apply Fin.ext
  match a with
  | ⟨0, _⟩ => show win0_0.index t (0 : Fin 2) * 200 + 1 * r.val = 400 * (t.val % 25) + r.val; rw [e0]; omega
  | ⟨1, _⟩ => show win0_0.index t (1 : Fin 2) * 10000 + 1 * k.val = k.val; rw [e1]; omega

/-- Window 1's block at a point is rows `400 · step + 200 … 400 · step + 399` of the adjacency matrix. -/
theorem iblk1_apply (c : Dev nD) (t : Fin cfg0.N) (r : Fin 200) (k : Fin 10000) :
    iblk m c 1 t (ix2 r k)
      = (V m c main_arg1 : S10000x10000.Idx → Elt F .f32) (ix2 ⟨400 * (t.val % 25) + 200 + r.val, arow_lt' t r⟩ k) := by
  obtain ⟨e0, e1⟩ := idx1 t
  unfold iblk
  rw [View.read_apply]
  show V m c main_arg1 _ = V m c main_arg1 _
  congr 1
  funext a; apply Fin.ext
  match a with
  | ⟨0, _⟩ => show win0_1.index t (0 : Fin 2) * 200 + 1 * r.val = 400 * (t.val % 25) + 200 + r.val; rw [e0]; omega
  | ⟨1, _⟩ => show win0_1.index t (1 : Fin 2) * 10000 + 1 * k.val = k.val; rw [e1]; omega

/-! ## The operands that are one block: the block is the array, at every point -/

/-- Window 2's block index is (0, 0) at every point. -/
theorem idxW2 : ∀ t : Fin cfg0.N, win0_2.index t (0 : Fin 2) = 0 ∧ win0_2.index t (1 : Fin 2) = 0 :=
  (by decide +kernel : ∀ t : Fin grid0.N, _)

/-- Window 2's block is its whole array, at every point. -/
theorem iblk2_eq (c : Dev nD) (t : Fin cfg0.N) : (iblk m c 2 t : S10000x128.Idx → Elt F .f32) = V m c main_arg0 := by
  obtain ⟨e0, e1⟩ := idxW2 t
  funext y
  unfold iblk
  rw [View.read_apply]
  show V m c main_arg0 _ = V m c main_arg0 y
  congr 1
  funext a; apply Fin.ext
  match a with
  | ⟨0, _⟩ => show win0_2.index t (0 : Fin 2) * 10000 + 1 * (y 0).val = (y 0).val; rw [e0]; omega
  | ⟨1, _⟩ => show win0_2.index t (1 : Fin 2) * 128 + 1 * (y 1).val = (y 1).val; rw [e1]; omega

/-- So it is the same block at any two points. -/
theorem iblk2_const (c : Dev nD) (t t' : Fin cfg0.N) :
    (iblk m c 2 t : S10000x128.Idx → Elt F .f32) = (iblk m c 2 t' : S10000x128.Idx → Elt F .f32) :=
  (iblk2_eq m c t).trans (iblk2_eq m c t').symm

/-- Window 3's block index is (0, 0) at every point. -/
theorem idxW3 : ∀ t : Fin cfg0.N, win0_3.index t (0 : Fin 2) = 0 ∧ win0_3.index t (1 : Fin 2) = 0 :=
  (by decide +kernel : ∀ t : Fin grid0.N, _)

/-- Window 3's block is its whole array, at every point. -/
theorem iblk3_eq (c : Dev nD) (t : Fin cfg0.N) : (iblk m c 3 t : S128x128.Idx → Elt F .f32) = V m c main_v0 := by
  obtain ⟨e0, e1⟩ := idxW3 t
  funext y
  unfold iblk
  rw [View.read_apply]
  show V m c main_v0 _ = V m c main_v0 y
  congr 1
  funext a; apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- So it is the same block at any two points. -/
theorem iblk3_const (c : Dev nD) (t t' : Fin cfg0.N) :
    (iblk m c 3 t : S128x128.Idx → Elt F .f32) = (iblk m c 3 t' : S128x128.Idx → Elt F .f32) :=
  (iblk3_eq m c t).trans (iblk3_eq m c t').symm

/-- Window 4's block index is (0, 0) at every point. -/
theorem idxW4 : ∀ t : Fin cfg0.N, win0_4.index t (0 : Fin 2) = 0 ∧ win0_4.index t (1 : Fin 2) = 0 :=
  (by decide +kernel : ∀ t : Fin grid0.N, _)

/-- Window 4's block is its whole array, at every point. -/
theorem iblk4_eq (c : Dev nD) (t : Fin cfg0.N) : (iblk m c 4 t : S1x128.Idx → Elt F .f32) = V m c main_v4 := by
  obtain ⟨e0, e1⟩ := idxW4 t
  funext y
  unfold iblk
  rw [View.read_apply]
  show V m c main_v4 _ = V m c main_v4 y
  congr 1
  funext a; apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- So it is the same block at any two points. -/
theorem iblk4_const (c : Dev nD) (t t' : Fin cfg0.N) :
    (iblk m c 4 t : S1x128.Idx → Elt F .f32) = (iblk m c 4 t' : S1x128.Idx → Elt F .f32) :=
  (iblk4_eq m c t).trans (iblk4_eq m c t').symm

/-- Window 5's block index is (0, 0) at every point. -/
theorem idxW5 : ∀ t : Fin cfg0.N, win0_5.index t (0 : Fin 2) = 0 ∧ win0_5.index t (1 : Fin 2) = 0 :=
  (by decide +kernel : ∀ t : Fin grid0.N, _)

/-- Window 5's block is its whole array, at every point. -/
theorem iblk5_eq (c : Dev nD) (t : Fin cfg0.N) : (iblk m c 5 t : S128x64.Idx → Elt F .f32) = V m c main_v1 := by
  obtain ⟨e0, e1⟩ := idxW5 t
  funext y
  unfold iblk
  rw [View.read_apply]
  show V m c main_v1 _ = V m c main_v1 y
  congr 1
  funext a; apply Fin.ext
  match a with
  | ⟨0, _⟩ => show win0_5.index t (0 : Fin 2) * 128 + 1 * (y 0).val = (y 0).val; rw [e0]; omega
  | ⟨1, _⟩ => show win0_5.index t (1 : Fin 2) * 64 + 1 * (y 1).val = (y 1).val; rw [e1]; omega

/-- So it is the same block at any two points. -/
theorem iblk5_const (c : Dev nD) (t t' : Fin cfg0.N) :
    (iblk m c 5 t : S128x64.Idx → Elt F .f32) = (iblk m c 5 t' : S128x64.Idx → Elt F .f32) :=
  (iblk5_eq m c t).trans (iblk5_eq m c t').symm

/-- Window 6's block index is (0, 0) at every point. -/
theorem idxW6 : ∀ t : Fin cfg0.N, win0_6.index t (0 : Fin 2) = 0 ∧ win0_6.index t (1 : Fin 2) = 0 :=
  (by decide +kernel : ∀ t : Fin grid0.N, _)

/-- Window 6's block is its whole array, at every point. -/
theorem iblk6_eq (c : Dev nD) (t : Fin cfg0.N) : (iblk m c 6 t : S1x64.Idx → Elt F .f32) = V m c main_v5 := by
  obtain ⟨e0, e1⟩ := idxW6 t
  funext y
  unfold iblk
  rw [View.read_apply]
  show V m c main_v5 _ = V m c main_v5 y
  congr 1
  funext a; apply Fin.ext
  match a with
  | ⟨0, _⟩ => show win0_6.index t (0 : Fin 2) * 1 + 1 * (y 0).val = (y 0).val; rw [e0]; omega
  | ⟨1, _⟩ => show win0_6.index t (1 : Fin 2) * 64 + 1 * (y 1).val = (y 1).val; rw [e1]; omega

/-- So it is the same block at any two points. -/
theorem iblk6_const (c : Dev nD) (t t' : Fin cfg0.N) :
    (iblk m c 6 t : S1x64.Idx → Elt F .f32) = (iblk m c 6 t' : S1x64.Idx → Elt F .f32) :=
  (iblk6_eq m c t).trans (iblk6_eq m c t').symm

/-- Window 7's block index is (0, 0) at every point. -/
theorem idxW7 : ∀ t : Fin cfg0.N, win0_7.index t (0 : Fin 2) = 0 ∧ win0_7.index t (1 : Fin 2) = 0 :=
  (by decide +kernel : ∀ t : Fin grid0.N, _)

/-- Window 7's block is its whole array, at every point. -/
theorem iblk7_eq (c : Dev nD) (t : Fin cfg0.N) : (iblk m c 7 t : S64x64.Idx → Elt F .f32) = V m c main_v2 := by
  obtain ⟨e0, e1⟩ := idxW7 t
  funext y
  unfold iblk
  rw [View.read_apply]
  show V m c main_v2 _ = V m c main_v2 y
  congr 1
  funext a; apply Fin.ext
  match a with
  | ⟨0, _⟩ => show win0_7.index t (0 : Fin 2) * 64 + 1 * (y 0).val = (y 0).val; rw [e0]; omega
  | ⟨1, _⟩ => show win0_7.index t (1 : Fin 2) * 64 + 1 * (y 1).val = (y 1).val; rw [e1]; omega

/-- So it is the same block at any two points. -/
theorem iblk7_const (c : Dev nD) (t t' : Fin cfg0.N) :
    (iblk m c 7 t : S64x64.Idx → Elt F .f32) = (iblk m c 7 t' : S64x64.Idx → Elt F .f32) :=
  (iblk7_eq m c t).trans (iblk7_eq m c t').symm

/-- Window 8's block index is (0, 0) at every point. -/
theorem idxW8 : ∀ t : Fin cfg0.N, win0_8.index t (0 : Fin 2) = 0 ∧ win0_8.index t (1 : Fin 2) = 0 :=
  (by decide +kernel : ∀ t : Fin grid0.N, _)

/-- Window 8's block is its whole array, at every point. -/
theorem iblk8_eq (c : Dev nD) (t : Fin cfg0.N) : (iblk m c 8 t : S1x64.Idx → Elt F .f32) = V m c main_v6 := by
  obtain ⟨e0, e1⟩ := idxW8 t
  funext y
  unfold iblk
  rw [View.read_apply]
  show V m c main_v6 _ = V m c main_v6 y
  congr 1
  funext a; apply Fin.ext
  match a with
  | ⟨0, _⟩ => show win0_8.index t (0 : Fin 2) * 1 + 1 * (y 0).val = (y 0).val; rw [e0]; omega
  | ⟨1, _⟩ => show win0_8.index t (1 : Fin 2) * 64 + 1 * (y 1).val = (y 1).val; rw [e1]; omega

/-- So it is the same block at any two points. -/
theorem iblk8_const (c : Dev nD) (t t' : Fin cfg0.N) :
    (iblk m c 8 t : S1x64.Idx → Elt F .f32) = (iblk m c 8 t' : S1x64.Idx → Elt F .f32) :=
  (iblk8_eq m c t).trans (iblk8_eq m c t').symm

/-- Window 9's block index is (0, 0) at every point. -/
theorem idxW9 : ∀ t : Fin cfg0.N, win0_9.index t (0 : Fin 2) = 0 ∧ win0_9.index t (1 : Fin 2) = 0 :=
  (by decide +kernel : ∀ t : Fin grid0.N, _)

/-- Window 9's block is its whole array, at every point. -/
theorem iblk9_eq (c : Dev nD) (t : Fin cfg0.N) : (iblk m c 9 t : S64x64.Idx → Elt F .f32) = V m c main_v3 := by
  obtain ⟨e0, e1⟩ := idxW9 t
  funext y
  unfold iblk
  rw [View.read_apply]
  show V m c main_v3 _ = V m c main_v3 y
  congr 1
  funext a; apply Fin.ext
  match a with
  | ⟨0, _⟩ => show win0_9.index t (0 : Fin 2) * 64 + 1 * (y 0).val = (y 0).val; rw [e0]; omega
  | ⟨1, _⟩ => show win0_9.index t (1 : Fin 2) * 64 + 1 * (y 1).val = (y 1).val; rw [e1]; omega

/-- So it is the same block at any two points. -/
theorem iblk9_const (c : Dev nD) (t t' : Fin cfg0.N) :
    (iblk m c 9 t : S64x64.Idx → Elt F .f32) = (iblk m c 9 t' : S64x64.Idx → Elt F .f32) :=
  (iblk9_eq m c t).trans (iblk9_eq m c t').symm

/-- Window 10's block index is (0, 0) at every point. -/
theorem idxW10 : ∀ t : Fin cfg0.N, win0_10.index t (0 : Fin 2) = 0 ∧ win0_10.index t (1 : Fin 2) = 0 :=
  (by decide +kernel : ∀ t : Fin grid0.N, _)

/-- Window 10's block is its whole array, at every point. -/
theorem iblk10_eq (c : Dev nD) (t : Fin cfg0.N) : (iblk m c 10 t : S1x64.Idx → Elt F .f32) = V m c main_v7 := by
  obtain ⟨e0, e1⟩ := idxW10 t
  funext y
  unfold iblk
  rw [View.read_apply]
  show V m c main_v7 _ = V m c main_v7 y
  congr 1
  funext a; apply Fin.ext
  match a with
  | ⟨0, _⟩ => show win0_10.index t (0 : Fin 2) * 1 + 1 * (y 0).val = (y 0).val; rw [e0]; omega
  | ⟨1, _⟩ => show win0_10.index t (1 : Fin 2) * 64 + 1 * (y 1).val = (y 1).val; rw [e1]; omega

/-- So it is the same block at any two points. -/
theorem iblk10_const (c : Dev nD) (t t' : Fin cfg0.N) :
    (iblk m c 10 t : S1x64.Idx → Elt F .f32) = (iblk m c 10 t' : S1x64.Idx → Elt F .f32) :=
  (iblk10_eq m c t).trans (iblk10_eq m c t').symm

end Cert.KernelIdeal.Hand

end
-- ==== Proof.Spec.lean ====
/-
  The mathematics both programs compute, stated once over plain coordinates and the extended reals.

  A two-layer graph convolution over a dense adjacency matrix `A` (n × n) with a projection head:
    p   = x · W1ᵀ + b1                      (n × 128)
    h2  = relu (A · p) · W2ᵀ + b2           (n × 64)
    emb = A · h2                            (n × 64)
    z   = relu (emb · Wp1ᵀ + bp1) · Wp2ᵀ + bp2   (n × 64)
  Every product is a finite sum of products of entries, a bias is added to every row, and relu is the
  maximum with zero.  Row `r` of `A · h` reads row `r` of `A` only, and row `r` of `a · w + b` reads row `r`
  of `a` only: that is why a kernel may compute the result one block of rows at a time.
-/
import Idealize.ShloMosaic.PureOps.Ideal
import Idealize.ShloMosaic.PureOps.Ideal.Laws

noncomputable section

namespace Cert.GcnSpec

open Idealize.ShloMosaic

/-- The matrix product `a · w`: entry `(r, c)` is the sum over `k` of `a r k * w k c`. -/
def mm {M K N : ℕ} (a : Fin M → Fin K → EReal) (w : Fin K → Fin N → EReal) : Fin M → Fin N → EReal :=
  fun r c => ∑ k : Fin K, a r k * w k c

/-- `a · w` with the row `b` added to every row. -/
def affine {M K N : ℕ} (a : Fin M → Fin K → EReal) (w : Fin K → Fin N → EReal) (b : Fin N → EReal) :
    Fin M → Fin N → EReal :=
  fun r c => mm a w r c + b c

/-- The maximum with zero, entry by entry. -/
def relu {M N : ℕ} (h : Fin M → Fin N → EReal) : Fin M → Fin N → EReal :=
  fun r c => max (h r c) 0

/-- The transpose. -/
def tr {M N : ℕ} (w : Fin M → Fin N → EReal) : Fin N → Fin M → EReal := fun k c => w c k

/-- The first layer's input projection `x · W1ᵀ + b1`. -/
def proj1 (x : Fin 10000 → Fin 128 → EReal) (W1 : Fin 128 → Fin 128 → EReal) (b1 : Fin 128 → EReal) :
    Fin 10000 → Fin 128 → EReal :=
  affine x (tr W1) b1

/-- The second layer's input `relu (A · p) · W2ᵀ + b2`, for any number of rows of `A`. -/
def hidden {M : ℕ} (A : Fin M → Fin 10000 → EReal) (p : Fin 10000 → Fin 128 → EReal)
    (W2 : Fin 64 → Fin 128 → EReal) (b2 : Fin 64 → EReal) : Fin M → Fin 64 → EReal :=
  affine (relu (mm A p)) (tr W2) b2

/-- The projection head `relu (e · Wp1ᵀ + bp1) · Wp2ᵀ + bp2`, for any number of rows of `e`. -/
def head {M : ℕ} (e : Fin M → Fin 64 → EReal) (Wp1 : Fin 64 → Fin 64 → EReal) (bp1 : Fin 64 → EReal)
    (Wp2 : Fin 64 → Fin 64 → EReal) (bp2 : Fin 64 → EReal) : Fin M → Fin 64 → EReal :=
  affine (relu (affine e (tr Wp1) bp1)) (tr Wp2) bp2

/-- The embedding `A · h2`. -/
def emb (x : Fin 10000 → Fin 128 → EReal) (A : Fin 10000 → Fin 10000 → EReal)
    (W1 : Fin 128 → Fin 128 → EReal) (b1 : Fin 128 → EReal) (W2 : Fin 64 → Fin 128 → EReal) (b2 : Fin 64 → EReal) :
    Fin 10000 → Fin 64 → EReal :=
  mm A (hidden A (proj1 x W1 b1) W2 b2)

/-- The projected embedding. -/
def z (x : Fin 10000 → Fin 128 → EReal) (A : Fin 10000 → Fin 10000 → EReal)
    (W1 : Fin 128 → Fin 128 → EReal) (b1 : Fin 128 → EReal) (W2 : Fin 64 → Fin 128 → EReal) (b2 : Fin 64 → EReal)
    (Wp1 : Fin 64 → Fin 64 → EReal) (bp1 : Fin 64 → EReal) (Wp2 : Fin 64 → Fin 64 → EReal) (bp2 : Fin 64 → EReal) :
    Fin 10000 → Fin 64 → EReal :=
  head (emb x A W1 b1 W2 b2) Wp1 bp1 Wp2 bp2

/-- A product's row `r` reads row `r` of its left factor only: rows may be taken a block at a time. -/
theorem mm_rows {M M' K N : ℕ} (a : Fin M → Fin K → EReal) (w : Fin K → Fin N → EReal) (f : Fin M' → Fin M)
    (r : Fin M') (c : Fin N) : mm (fun r' k => a (f r') k) w r c = mm a w (f r) c := rfl

theorem affine_rows {M M' K N : ℕ} (a : Fin M → Fin K → EReal) (w : Fin K → Fin N → EReal) (b : Fin N → EReal)
    (f : Fin M' → Fin M) (r : Fin M') (c : Fin N) :
    affine (fun r' k => a (f r') k) w b r c = affine a w b (f r) c := rfl

theorem hidden_rows {M M' : ℕ} (A : Fin M → Fin 10000 → EReal) (p : Fin 10000 → Fin 128 → EReal)
    (W2 : Fin 64 → Fin 128 → EReal) (b2 : Fin 64 → EReal) (f : Fin M' → Fin M) (r : Fin M') (c : Fin 64) :
    hidden (fun r' k => A (f r') k) p W2 b2 r c = hidden A p W2 b2 (f r) c := rfl

theorem head_rows {M M' : ℕ} (e : Fin M → Fin 64 → EReal) (Wp1 : Fin 64 → Fin 64 → EReal) (bp1 : Fin 64 → EReal)
    (Wp2 : Fin 64 → Fin 64 → EReal) (bp2 : Fin 64 → EReal) (f : Fin M' → Fin M) (r : Fin M') (c : Fin 64) :
    head (fun r' k => e (f r') k) Wp1 bp1 Wp2 bp2 r c = head e Wp1 bp1 Wp2 bp2 (f r) c := rfl

end Cert.GcnSpec

end
-- ==== Proof.Payloads.lean ====
/-
  The kernel body's pure values, read one entry at a time.

  Each payload of the kernel body is a composition of matrix products into a zero accumulator, a bias row
  broadcast over the rows, a maximum with zero, and shape casts to the same shape.  At the ideal values every
  one of these reads through at an entry `(r, c)`: a product is the finite sum over the contraction coordinate
  of the products of entries, the broadcast row reads its entry `c`, the maximum with the zero splat is the
  maximum with `0`, and a cast to the same shape is the identity.  So each payload at `(r, c)` is the
  specification's `mm` / `affine` / `relu` composition of its operands' entries.
-/
import proofs.«133318_g652835029058_cont_9to1_m_690_17_alg».proof.Proof.Gen.KernelIdeal.Skeleton
import proofs.«133318_g652835029058_cont_9to1_m_690_17_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelPayloads

open Idealize.ShloMosaic Idealize.ShloMosaic.ValueIdx Cert.KernelIdeal Cert.KernelIdeal.Gen

/-! ## A plain matrix product into the zero splat, read at an entry -/

/-- Dimension numbers are determined by their six axis lists (the well-formedness field is a proposition), so
    any dimension numbers that contract the left operand's columns with the right operand's rows and have no
    batch axis are the library's plain ones. -/
theorem eq_plain {M K N : ℕ} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) : d = DotDims.plain M K N := by
  obtain ⟨lc, rc, ln, rn, lb, rb, wf⟩ := d
  dsimp only at hlc hrc hln hrn hlb hrb
  subst hlc hrc hln hrn hlb hrb
  rfl

/-- The plain product of an `M × K` by a `K × N` operand accumulated into the zero splat reads, at `(r, c)`,
    the sum over `k` of `lhs (r, k) * rhs (k, c)`: the contraction index set has one axis of extent `K`, and
    the operand indices at contraction coordinate `k` are `(r, k)` and `(k, c)`. -/
theorem matmul_zero_plain_apply {M K N : ℕ} (prec : Option ContractPrecision)
    (lhs : FVec Ideal ⟨2, ![M, K]⟩ .f32) (rhs : FVec Ideal ⟨2, ![K, N]⟩ .f32) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => rfl
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- The same for any dimension numbers with the plain axis lists. -/
theorem matmul_zero_apply {M K N : ℕ} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ .f32) (rhs : FVec Ideal ⟨2, ![K, N]⟩ .f32) (r : Fin M) (c : Fin N) :
    matmul d prec lhs rhs (constant (F := Ideal) ⟨2, ![M, N]⟩ .f32 0x00000000#32) (ix2 r c)
      = ∑ k : Fin K, lhs (ix2 r k) * rhs (ix2 k c) := by
  rw [eq_plain d hlc hrc hln hrn hlb hrb]
  exact matmul_zero_plain_apply prec lhs rhs r c

/-! ## Vectors as functions of their coordinates -/

/-- A rank-2 vector of extended reals as a function of its row and column. -/
abbrev cur2 {M N : ℕ} (v : (⟨2, ![M, N]⟩ : Shape).Idx → EReal) : Fin M → Fin N → EReal := fun r k => v (ix2 r k)

/-- A one-row vector as a function of its column. -/
abbrev row {N : ℕ} (v : (⟨2, ![1, N]⟩ : Shape).Idx → EReal) : Fin N → EReal := fun k => v (ix2 (0 : Fin 1) k)

/-- A vector whose entries are known is that function of the coordinates. -/
theorem cur2_eq {M N : ℕ} (X : (⟨2, ![M, N]⟩ : Shape).Idx → EReal) (f : Fin M → Fin N → EReal)
    (h : ∀ r k, X (ix2 r k) = f r k) : cur2 X = f := funext fun r => funext fun k => h r k

/-! ## The three building blocks at an entry -/

/-- A plain product into the zero splat is the specification's product of the operands' entries. -/
theorem mm_apply {M K N : ℕ} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![M, K]⟩ .f32) (rhs : FVec Ideal ⟨2, ![K, N]⟩ .f32) (r : Fin M) (c : Fin N) :
    matmul d none lhs rhs (constant (F := Ideal) ⟨2, ![M, N]⟩ .f32 0x00000000#32) (ix2 r c)
      = GcnSpec.mm (cur2 lhs) (cur2 rhs) r c :=
  matmul_zero_apply d hlc hrc hln hrn hlb hrb none lhs rhs r c

/-- Such a product plus a one-row vector broadcast over the rows is the specification's affine map. -/
theorem affine_apply {M K N : ℕ} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![M, K]⟩ .f32) (rhs : FVec Ideal ⟨2, ![K, N]⟩ .f32) (b : FVec Ideal ⟨2, ![1, N]⟩ .f32)
    (h : (⟨2, ![1, N]⟩ : Shape).Broadcasts ⟨2, ![M, N]⟩) (r : Fin M) (c : Fin N) :
    addf (matmul d none lhs rhs (constant (F := Ideal) ⟨2, ![M, N]⟩ .f32 0x00000000#32))
        (broadcastTo ⟨2, ![M, N]⟩ b h) (ix2 r c)
      = GcnSpec.affine (cur2 lhs) (cur2 rhs) (row b) r c := by
  rw [addf_apply, broadcastTo_1b_ab_apply]
  exact congrArg (· + b (ix2 (0 : Fin 1) c)) (mm_apply d hlc hrc hln hrn hlb hrb lhs rhs r c)

/-- The maximum with the splat of the zero word is the maximum with zero. -/
theorem relu_apply {s : Shape} (x : FVec Ideal s .f32) (i : s.Idx) :
    maximumf x (broadcast s (Scalar.ofBits (F := Ideal) .f32 0x00000000#32)) i = max (x i) 0 := by
  show max (x i) (Ideal.ofBits .f32 0x00000000#32) = _
  rw [Ideal.ofBits_zero_f32]

/-- A vector plus a one-row vector broadcast over the rows, at an entry. -/
theorem add_row_apply {M N : ℕ} (x : FVec Ideal ⟨2, ![M, N]⟩ .f32) (b : FVec Ideal ⟨2, ![1, N]⟩ .f32)
    (h : (⟨2, ![1, N]⟩ : Shape).Broadcasts ⟨2, ![M, N]⟩) (r : Fin M) (c : Fin N) :
    addf x (broadcastTo ⟨2, ![M, N]⟩ b h) (ix2 r c) = x (ix2 r c) + b (ix2 (0 : Fin 1) c) := by
  rw [addf_apply, broadcastTo_1b_ab_apply]

/-! ## The payloads at an entry -/

variable [Cert.KernelIdeal.Facts]

/-- The first layer's input projection `x · W + b` (`v12` is the transposed weight, `v15` the bias row). -/
theorem pay1 (v11 : Vec Ideal S10000x128 .f32) (v12 : Vec Ideal S128x128 .f32) (v15 : Vec Ideal S1x128 .f32)
    (r : Fin 10000) (c : Fin 128) :
    k0_pay1 (F := Ideal) v11 v12 v15 (ix2 r c) = GcnSpec.affine (cur2 v11) (cur2 v12) (row v15) r c := by
  unfold k0_pay1
  simp only [shapeCast_self]
  exact affine_apply dot_S10000x128_S128x128_S10000x128_1_0_0_1_n_n rfl rfl rfl rfl rfl rfl v11 v12 v15 _ r c

/-- A cast to the same shape changes nothing. -/
theorem pay2 (v40 : FVec Ideal S200x64 .f32) : k0_pay2 (F := Ideal) v40 = v40 := by
  unfold k0_pay2
  exact shapeCast_self _ _

/-- A block of the second layer's input: `relu (A · p) · W + b` for a block `v12` of 200 rows of `A`. -/
theorem pay4 (v11 : Vec Ideal S10000x128 .f32) (v12 : Vec Ideal S200x10000 .f32) (v16 : Vec Ideal S128x64 .f32)
    (v19 : Vec Ideal S1x64 .f32) (r : Fin 200) (c : Fin 64) :
    k0_pay4 (F := Ideal) v11 v12 v16 v19 (ix2 r c)
      = GcnSpec.affine (GcnSpec.relu (GcnSpec.mm (cur2 v12) (cur2 v11))) (cur2 v16) (row v19) r c := by
  unfold k0_pay4
  simp only [shapeCast_self]
  refine (affine_apply dot_S200x128_S128x64_S200x64_1_0_0_1_n_n rfl rfl rfl rfl rfl rfl _ v16 v19 _ r c).trans ?_
  refine congrArg (fun a => GcnSpec.affine a (cur2 v16) (row v19) r c) (cur2_eq _ _ fun r k => ?_)
  refine (relu_apply _ _).trans ?_
  exact congrArg (max · 0) (mm_apply dot_S200x10000_S10000x128_S200x128_1_0_0_1_n_n rfl rfl rfl rfl rfl rfl v12 v11 r k)

/-- The same for the second block of rows. -/
theorem pay5 (v11 : Vec Ideal S10000x128 .f32) (v30 : Vec Ideal S200x10000 .f32) (v34 : Vec Ideal S128x64 .f32)
    (v37 : Vec Ideal S1x64 .f32) (r : Fin 200) (c : Fin 64) :
    k0_pay5 (F := Ideal) v11 v30 v34 v37 (ix2 r c)
      = GcnSpec.affine (GcnSpec.relu (GcnSpec.mm (cur2 v30) (cur2 v11))) (cur2 v34) (row v37) r c := by
  unfold k0_pay5
  simp only [shapeCast_self]
  refine (affine_apply dot_S200x128_S128x64_S200x64_1_0_0_1_n_n rfl rfl rfl rfl rfl rfl _ v34 v37 _ r c).trans ?_
  refine congrArg (fun a => GcnSpec.affine a (cur2 v34) (row v37) r c) (cur2_eq _ _ fun r k => ?_)
  refine (relu_apply _ _).trans ?_
  exact congrArg (max · 0) (mm_apply dot_S200x10000_S10000x128_S200x128_1_0_0_1_n_n rfl rfl rfl rfl rfl rfl v30 v11 r k)

/-- … and as it is stored, after its cast to the same shape. -/
theorem pay2of5 (v11 : Vec Ideal S10000x128 .f32) (v30 : Vec Ideal S200x10000 .f32) (v34 : Vec Ideal S128x64 .f32)
    (v37 : Vec Ideal S1x64 .f32) (r : Fin 200) (c : Fin 64) :
    k0_pay2 (F := Ideal) (k0_pay5 (F := Ideal) v11 v30 v34 v37) (ix2 r c)
      = GcnSpec.affine (GcnSpec.relu (GcnSpec.mm (cur2 v30) (cur2 v11))) (cur2 v34) (row v37) r c := by
  rw [pay2]
  exact pay5 v11 v30 v34 v37 r c

/-- A block of the embedding: `A · h2` for a block `v12` of 200 rows of `A`. -/
theorem pay6 (v11 : Vec Ideal S10000x64 .f32) (v12 : Vec Ideal S200x10000 .f32) (r : Fin 200) (c : Fin 64) :
    k0_pay6 (F := Ideal) v11 v12 (ix2 r c) = GcnSpec.mm (cur2 v12) (cur2 v11) r c := by
  unfold k0_pay6
  exact mm_apply dot_S200x10000_S10000x64_S200x64_1_0_0_1_n_n rfl rfl rfl rfl rfl rfl v12 v11 r c

/-- The same for the second block of rows. -/
theorem pay8 (v11 : Vec Ideal S10000x64 .f32) (v32 : Vec Ideal S200x10000 .f32) (r : Fin 200) (c : Fin 64) :
    k0_pay8 (F := Ideal) v11 v32 (ix2 r c) = GcnSpec.mm (cur2 v32) (cur2 v11) r c := by
  unfold k0_pay8
  exact mm_apply dot_S200x10000_S10000x64_S200x64_1_0_0_1_n_n rfl rfl rfl rfl rfl rfl v32 v11 r c

/-- A block of the projected embedding: `relu (e · Wa + ba) · Wb + bb` with `e` the block `A · h2`. -/
theorem pay7 (v11 : Vec Ideal S10000x64 .f32) (v12 : Vec Ideal S200x10000 .f32) (v15 : Vec Ideal S64x64 .f32)
    (v18 : Vec Ideal S1x64 .f32) (v24 : Vec Ideal S64x64 .f32) (v27 : Vec Ideal S1x64 .f32) (r : Fin 200) (c : Fin 64) :
    k0_pay7 (F := Ideal) v11 v12 v15 v18 v24 v27 (ix2 r c)
      = GcnSpec.affine (GcnSpec.relu (GcnSpec.affine (GcnSpec.mm (cur2 v12) (cur2 v11)) (cur2 v15) (row v18)))
          (cur2 v24) (row v27) r c := by
  unfold k0_pay7
  simp only [shapeCast_self]
  refine (affine_apply dot_S200x64_S64x64_S200x64_1_0_0_1_n_n rfl rfl rfl rfl rfl rfl _ v24 v27 _ r c).trans ?_
  refine congrArg (fun a => GcnSpec.affine a (cur2 v24) (row v27) r c) (cur2_eq _ _ fun r k => ?_)
  refine (relu_apply _ _).trans ?_
  refine congrArg (max · 0) ?_
  refine (affine_apply dot_S200x64_S64x64_S200x64_1_0_0_1_n_n rfl rfl rfl rfl rfl rfl _ v15 v18 _ r k).trans ?_
  exact congrArg (fun a => GcnSpec.affine a (cur2 v15) (row v18) r k) (cur2_eq _ _ fun r k => pay6 v11 v12 r k)

/-- The second block's product `(A · h2) · Wa`, carried out of the loop before its bias is added. -/
theorem pay9 (v11 : Vec Ideal S10000x64 .f32) (v32 : Vec Ideal S200x10000 .f32) (v35 : Vec Ideal S64x64 .f32)
    (r : Fin 200) (c : Fin 64) :
    k0_pay9 (F := Ideal) v11 v32 v35 (ix2 r c)
      = GcnSpec.mm (GcnSpec.mm (cur2 v32) (cur2 v11)) (cur2 v35) r c := by
  unfold k0_pay9
  simp only [shapeCast_self]
  refine (mm_apply dot_S200x64_S64x64_S200x64_1_0_0_1_n_n rfl rfl rfl rfl rfl rfl _ v35 r c).trans ?_
  exact congrArg (fun a => GcnSpec.mm a (cur2 v35) r c) (cur2_eq _ _ fun r k => pay8 v11 v32 r k)

/-- The rest of the head applied to a carried product `v37`: `relu (v37 + ba) · Wb + bb`. -/
theorem pay3 (v37 : FVec Ideal S200x64 .f32) (v38 : Vec Ideal S1x64 .f32) (v44 : Vec Ideal S64x64 .f32)
    (v47 : Vec Ideal S1x64 .f32) (r : Fin 200) (c : Fin 64) :
    k0_pay3 (F := Ideal) v37 v38 v44 v47 (ix2 r c)
      = GcnSpec.affine (GcnSpec.relu (fun r k => v37 (ix2 r k) + v38 (ix2 (0 : Fin 1) k))) (cur2 v44) (row v47) r c := by
  unfold k0_pay3
  simp only [shapeCast_self]
  refine (affine_apply dot_S200x64_S64x64_S200x64_1_0_0_1_n_n rfl rfl rfl rfl rfl rfl _ v44 v47 _ r c).trans ?_
  refine congrArg (fun a => GcnSpec.affine a (cur2 v44) (row v47) r c) (cur2_eq _ _ fun r k => ?_)
  refine (relu_apply _ _).trans ?_
  exact congrArg (max · 0) (add_row_apply v37 v38 _ r k)

/-- The second block of the projected embedding, assembled from the carried product. -/
theorem pay3of9 (v11 : Vec Ideal S10000x64 .f32) (v32 : Vec Ideal S200x10000 .f32) (v35 : Vec Ideal S64x64 .f32)
    (v38 : Vec Ideal S1x64 .f32) (v44 : Vec Ideal S64x64 .f32) (v47 : Vec Ideal S1x64 .f32) (r : Fin 200) (c : Fin 64) :
    k0_pay3 (F := Ideal) (k0_pay9 (F := Ideal) v11 v32 v35) v38 v44 v47 (ix2 r c)
      = GcnSpec.affine (GcnSpec.relu (GcnSpec.affine (GcnSpec.mm (cur2 v32) (cur2 v11)) (cur2 v35) (row v38)))
          (cur2 v44) (row v47) r c := by
  refine (pay3 _ v38 v44 v47 r c).trans ?_
  refine congrArg (fun a => GcnSpec.affine (GcnSpec.relu a) (cur2 v44) (row v47) r c) ?_
  funext r k
  exact congrArg (· + v38 (ix2 (0 : Fin 1) k)) (pay9 v11 v32 v35 r k)

end Cert.KernelPayloads

end
-- ==== Proof.KValue.lean ====
/-
  The two results are the specification of the ten arguments.

  The kernel's blocks are rows of its arrays: the features, the transposed weights and the bias rows are whole
  arrays, and the two windows on the adjacency matrix hold rows `400 s …` and `400 s + 200 …` at step `s`.
  Reading each payload at an entry and each block through its array gives, stage by stage, the input projection,
  the second layer's input (a row at a time: a block of rows of the adjacency matrix gives the same block of rows
  of the product), the embedding and the projected embedding of the rows a point of the second phase owns; the
  25 blocks of 400 rows tile each result.
-/
import proofs.«133318_g652835029058_cont_9to1_m_690_17_alg».proof.Proof.KData
import proofs.«133318_g652835029058_cont_9to1_m_690_17_alg».proof.Proof.KCover
import proofs.«133318_g652835029058_cont_9to1_m_690_17_alg».proof.Proof.KEntry
import proofs.«133318_g652835029058_cont_9to1_m_690_17_alg».proof.Proof.Payloads
import proofs.«133318_g652835029058_cont_9to1_m_690_17_alg».proof.Proof.Spec
import proofs.«133318_g652835029058_cont_9to1_m_690_17_alg».proof.Proof.KBase

set_option maxRecDepth 16384

noncomputable section

namespace Cert.KernelIdeal.Value

open Idealize.ShloMosaic Idealize.ShloMosaic.TcCoe Idealize.SL.Sem
open Idealize.ShloMosaic.ValueIdx
open Cert.KernelIdeal Cert.KernelIdeal.Gen Cert.KernelIdeal.Hand Cert.KernelPayloads
open Cert (GcnSpec.mm GcnSpec.affine GcnSpec.relu GcnSpec.tr GcnSpec.proj1 GcnSpec.hidden GcnSpec.head GcnSpec.emb GcnSpec.z)

variable (m : (ℓ : Loc nD τ sig) → Buf (Elt Ideal) ℓ) (c : Dev nD)

/-! ## The ten arguments as functions of their coordinates -/

/-- The features. -/
abbrev Xc : Fin 10000 → Fin 128 → EReal := fun r k => (m ((c : Thread nD τ).loc main_arg0) : S10000x128.Idx → EReal) (ix2 r k)
/-- The adjacency matrix. -/
abbrev Ac : Fin 10000 → Fin 10000 → EReal := fun r k => (m ((c : Thread nD τ).loc main_arg1) : S10000x10000.Idx → EReal) (ix2 r k)
/-- The first layer's weight and bias. -/
abbrev W1c : Fin 128 → Fin 128 → EReal := fun r k => (m ((c : Thread nD τ).loc main_arg2) : S128x128.Idx → EReal) (ix2 r k)
abbrev b1c : Fin 128 → EReal := fun k => (m ((c : Thread nD τ).loc main_arg3) : S128.Idx → EReal) (ix1 k)
/-- The second layer's weight and bias. -/
abbrev W2c : Fin 64 → Fin 128 → EReal := fun r k => (m ((c : Thread nD τ).loc main_arg4) : S64x128.Idx → EReal) (ix2 r k)
abbrev b2c : Fin 64 → EReal := fun k => (m ((c : Thread nD τ).loc main_arg5) : S64.Idx → EReal) (ix1 k)
/-- The head's two weights and biases. -/
abbrev Wp1c : Fin 64 → Fin 64 → EReal := fun r k => (m ((c : Thread nD τ).loc main_arg6) : S64x64.Idx → EReal) (ix2 r k)
abbrev bp1c : Fin 64 → EReal := fun k => (m ((c : Thread nD τ).loc main_arg7) : S64.Idx → EReal) (ix1 k)
abbrev Wp2c : Fin 64 → Fin 64 → EReal := fun r k => (m ((c : Thread nD τ).loc main_arg8) : S64x64.Idx → EReal) (ix2 r k)
abbrev bp2c : Fin 64 → EReal := fun k => (m ((c : Thread nD τ).loc main_arg9) : S64.Idx → EReal) (ix1 k)

/-- The input projection, the second layer's input and the embedding of the arguments. -/
abbrev Pc : Fin 10000 → Fin 128 → EReal := GcnSpec.proj1 (Xc m c) (W1c m c) (b1c m c)
abbrev Hc : Fin 10000 → Fin 64 → EReal := GcnSpec.hidden (Ac m c) (Pc m c) (W2c m c) (b2c m c)

/-! ## Rows of the adjacency matrix -/

theorem arow (t : Fin cfg0.N) (r : Fin 200) : 400 * (t.val % 25) + r.val < 10000 := arow_lt t r

theorem arow' (t : Fin cfg0.N) (r : Fin 200) : 400 * (t.val % 25) + 200 + r.val < 10000 := arow_lt' t r

/-! ## The blocks through their arrays -/

/-- What each window's block reads, in terms of the arguments: the features; the transposed weights; the bias
    rows; and the two 200-row blocks of the adjacency matrix at a point's step. -/
structure Reads : Prop where
  x : cur2 (X2 m c) = Xc m c
  w1 : cur2 (X3 m c) = GcnSpec.tr (W1c m c)
  b1 : row (X4 m c) = b1c m c
  w2 : ∀ t : Fin cfg0.N, cur2 (iblk m c 5 t : Vec Ideal S128x64 .f32) = GcnSpec.tr (W2c m c)
  b2 : ∀ t : Fin cfg0.N, row (iblk m c 6 t : Vec Ideal S1x64 .f32) = b2c m c
  wp1 : ∀ t : Fin cfg0.N, cur2 (iblk m c 7 t : Vec Ideal S64x64 .f32) = GcnSpec.tr (Wp1c m c)
  bp1 : ∀ t : Fin cfg0.N, row (iblk m c 8 t : Vec Ideal S1x64 .f32) = bp1c m c
  wp2 : ∀ t : Fin cfg0.N, cur2 (iblk m c 9 t : Vec Ideal S64x64 .f32) = GcnSpec.tr (Wp2c m c)
  bp2 : ∀ t : Fin cfg0.N, row (iblk m c 10 t : Vec Ideal S1x64 .f32) = bp2c m c
  a0 : ∀ t : Fin cfg0.N, cur2 (iblk m c 0 t : Vec Ideal S200x10000 .f32)
        = fun r k => Ac m c ⟨400 * (t.val % 25) + r.val, arow t r⟩ k
  a1 : ∀ t : Fin cfg0.N, cur2 (iblk m c 1 t : Vec Ideal S200x10000 .f32)
        = fun r k => Ac m c ⟨400 * (t.val % 25) + 200 + r.val, arow' t r⟩ k

variable {m c}

/-! ## The input projection -/

theorem P1_apply (h : Reads m c) (r : Fin 10000) (k : Fin 128) : P1 m c (ix2 r k) = Pc m c r k := by
  unfold P1
  refine (pay1 _ _ _ r k).trans ?_
  rw [h.x, h.w1, h.b1]
  rfl

theorem P1_cur (h : Reads m c) : cur2 (P1 m c) = Pc m c := cur2_eq _ _ (P1_apply h)

/-! ## The second layer's input -/

theorem H2lo_apply (h : Reads m c) (n : Fin cfg0.N) (r : Fin 200) (q : Fin 64) :
    H2lo m c n (ix2 r q) = Hc m c ⟨400 * (n.val % 25) + r.val, arow n r⟩ q := by
  unfold H2lo
  refine (pay4 _ _ _ _ r q).trans ?_
  rw [P1_cur h, h.a0 n, h.w2 n, h.b2 n]
  rfl

theorem H2hi_apply (h : Reads m c) (n : Fin cfg0.N) (r : Fin 200) (q : Fin 64) :
    H2hi m c n (ix2 r q) = Hc m c ⟨400 * (n.val % 25) + 200 + r.val, arow' n r⟩ q := by
  unfold H2hi
  refine (pay2of5 _ _ _ _ r q).trans ?_
  rw [P1_cur h, h.a1 n, h.w2 n, h.b2 n]
  rfl

/-- Row `y` of the assembled second layer's input is row `y` of the specification's: it belongs to point
    `y / 400`, whose step is `y / 400` itself, and `400 (y / 400) + y % 400 = y`. -/
theorem H2_apply (h : Reads m c) (y : Fin 10000) (q : Fin 64) : H2 m c (ix2 y q) = Hc m c y q := by
  have hy := y.isLt
  unfold H2
  split
  · next hlt =>
    have hlt' : y.val % 400 < 200 := hlt
    refine (H2lo_apply h _ _ _).trans ?_
    refine congrArg (fun a => Hc m c a q) (Fin.ext ?_)
    show 400 * ((y.val / 400) % 25) + y.val % 400 = y.val
    omega
  · next hge =>
    have hge' : ¬ y.val % 400 < 200 := hge
    refine (H2hi_apply h _ _ _).trans ?_
    refine congrArg (fun a => Hc m c a q) (Fin.ext ?_)
    show 400 * ((y.val / 400) % 25) + 200 + (y.val % 400 - 200) = y.val
    omega

theorem H2_cur (h : Reads m c) : cur2 (H2 m c) = Hc m c := cur2_eq _ _ (H2_apply h)

/-! ## What a point of the second phase leaves in the two result windows -/

/-- The specification's embedding is the adjacency matrix times the second layer's input. -/
theorem emb_eq : GcnSpec.emb (Xc m c) (Ac m c) (W1c m c) (b1c m c) (W2c m c) (b2c m c) = GcnSpec.mm (Ac m c) (Hc m c) := rfl

/-- The specification's projected embedding is the head of that product. -/
theorem z_eq : GcnSpec.z (Xc m c) (Ac m c) (W1c m c) (b1c m c) (W2c m c) (b2c m c) (Wp1c m c) (bp1c m c) (Wp2c m c) (bp2c m c)
    = GcnSpec.head (GcnSpec.mm (Ac m c) (Hc m c)) (Wp1c m c) (bp1c m c) (Wp2c m c) (bp2c m c) := rfl

/-- The embedding block of a point `t` of the second phase: rows `400 (t - 25) …` of the embedding. -/
theorem Eout_apply (h : Reads m c) (t : Fin cfg0.N) (ht : 25 ≤ t.val) (r : Fin 400) (q : Fin 64) :
    Eout m c t (ix2 r q)
      = GcnSpec.emb (Xc m c) (Ac m c) (W1c m c) (b1c m c) (W2c m c) (b2c m c) ⟨400 * (t.val - 25) + r.val, row_lt t r⟩ q := by
  have ht50 : t.val < 50 := N50 ▸ t.isLt
  have hr := r.isLt
  rw [emb_eq]
  unfold Eout stack2
  split
  · next hlt =>
    have hlt' : r.val < 200 := hlt
    refine (pay6 _ _ _ _).trans ?_
    rw [H2_cur h, h.a0 t]
    show GcnSpec.mm (Ac m c) (Hc m c) ⟨400 * (t.val % 25) + r.val, _⟩ q = _
    refine congrArg (fun a => GcnSpec.mm (Ac m c) (Hc m c) a q) (Fin.ext ?_)
    show 400 * (t.val % 25) + r.val = 400 * (t.val - 25) + r.val
    omega
  · next hge =>
    have hge' : ¬ r.val < 200 := hge
    refine (pay8 _ _ _ _).trans ?_
    rw [H2_cur h, h.a1 t]
    show GcnSpec.mm (Ac m c) (Hc m c) ⟨400 * (t.val % 25) + 200 + (r.val - 200), _⟩ q = _
    refine congrArg (fun a => GcnSpec.mm (Ac m c) (Hc m c) a q) (Fin.ext ?_)
    show 400 * (t.val % 25) + 200 + (r.val - 200) = 400 * (t.val - 25) + r.val
    omega

/-- The projected block of a point `t` of the second phase: rows `400 (t - 25) …` of the projected embedding. -/
theorem Zout_apply (h : Reads m c) (t : Fin cfg0.N) (ht : 25 ≤ t.val) (r : Fin 400) (q : Fin 64) :
    Zout m c t (ix2 r q)
      = GcnSpec.z (Xc m c) (Ac m c) (W1c m c) (b1c m c) (W2c m c) (b2c m c) (Wp1c m c) (bp1c m c) (Wp2c m c) (bp2c m c)
          ⟨400 * (t.val - 25) + r.val, row_lt t r⟩ q := by
  have ht50 : t.val < 50 := N50 ▸ t.isLt
  have hr := r.isLt
  rw [z_eq]
  unfold Zout stack2
  split
  · next hlt =>
    have hlt' : r.val < 200 := hlt
    refine (pay7 _ _ _ _ _ _ _ _).trans ?_
    rw [H2_cur h, h.a0 t, h.wp1 t, h.bp1 t, h.wp2 t, h.bp2 t]
    show GcnSpec.head (GcnSpec.mm (Ac m c) (Hc m c)) (Wp1c m c) (bp1c m c) (Wp2c m c) (bp2c m c)
      ⟨400 * (t.val % 25) + r.val, _⟩ q = _
    refine congrArg (fun a => GcnSpec.head (GcnSpec.mm (Ac m c) (Hc m c)) (Wp1c m c) (bp1c m c) (Wp2c m c) (bp2c m c) a q)
      (Fin.ext ?_)
    show 400 * (t.val % 25) + r.val = 400 * (t.val - 25) + r.val
    omega
  · next hge =>
    have hge' : ¬ r.val < 200 := hge
    refine (pay3of9 _ _ _ _ _ _ _ _).trans ?_
    rw [H2_cur h, h.a1 t, h.wp1 t, h.bp1 t, h.wp2 t, h.bp2 t]
    show GcnSpec.head (GcnSpec.mm (Ac m c) (Hc m c)) (Wp1c m c) (bp1c m c) (Wp2c m c) (bp2c m c)
      ⟨400 * (t.val % 25) + 200 + (r.val - 200), _⟩ q = _
    refine congrArg (fun a => GcnSpec.head (GcnSpec.mm (Ac m c) (Hc m c)) (Wp1c m c) (bp1c m c) (Wp2c m c) (bp2c m c) a q)
      (Fin.ext ?_)
    show 400 * (t.val % 25) + 200 + (r.val - 200) = 400 * (t.val - 25) + r.val
    omega

/-! ## The blocks do read the arguments -/

variable (m c)

/-- Each single-block window's block is its whole array, which is an argument, a transposed weight or a bias
    row; the adjacency matrix's two windows read its rows at the point's step. -/
theorem reads : Reads m c where
  x := by
    funext r k
    show X2 m c (ix2 r k) = _
    unfold X2
    rw [iblk2_eq, V_arg0]
  w1 := by
    funext k j
    show X3 m c (ix2 k j) = _
    unfold X3
    rw [iblk3_eq]
    exact V_v0 m c k j
  b1 := by
    funext j
    show X4 m c (ix2 (0 : Fin 1) j) = _
    unfold X4
    rw [iblk4_eq]
    exact V_v4 m c j
  w2 t := by
    funext k j
    show (iblk m c 5 t : Vec Ideal S128x64 .f32) (ix2 k j) = _
    rw [iblk5_eq]
    exact V_v1 m c k j
  b2 t := by
    funext j
    show (iblk m c 6 t : Vec Ideal S1x64 .f32) (ix2 (0 : Fin 1) j) = _
    rw [iblk6_eq]
    exact V_v5 m c j
  wp1 t := by
    funext k j
    show (iblk m c 7 t : Vec Ideal S64x64 .f32) (ix2 k j) = _
    rw [iblk7_eq]
    exact V_v2 m c k j
  bp1 t := by
    funext j
    show (iblk m c 8 t : Vec Ideal S1x64 .f32) (ix2 (0 : Fin 1) j) = _
    rw [iblk8_eq]
    exact V_v6 m c j
  wp2 t := by
    funext k j
    show (iblk m c 9 t : Vec Ideal S64x64 .f32) (ix2 k j) = _
    rw [iblk9_eq]
    exact V_v3 m c k j
  bp2 t := by
    funext j
    show (iblk m c 10 t : Vec Ideal S1x64 .f32) (ix2 (0 : Fin 1) j) = _
    rw [iblk10_eq]
    exact V_v7 m c j
  a0 t := by
    funext r k
    show (iblk m c 0 t : Vec Ideal S200x10000 .f32) (ix2 r k) = _
    rw [iblk0_apply, V_arg1]
  a1 t := by
    funext r k
    show (iblk m c 1 t : Vec Ideal S200x10000 .f32) (ix2 r k) = _
    rw [iblk1_apply, V_arg1]

/-! ## The two results -/

/-- The first result array ends holding the specification's projected embedding of the ten arguments. -/
theorem final_z :
    ((dats (F := Ideal) m 0 c).arrAt 11 cfg0.N : S10000x64.Idx → EReal)
      = fun i => GcnSpec.z (Xc m c) (Ac m c) (W1c m c) (b1c m c) (W2c m c) (b2c m c) (Wp1c m c) (bp1c m c) (Wp2c m c) (bp2c m c)
          (i 0) (i 1) :=
  final11 c (dats (F := Ideal) m 0 c) _ fun t ht r q => by
    rw [after_11]
    exact Zout_apply (reads m c) t ht r q

/-- The second result array ends holding the specification's embedding of the first six arguments. -/
theorem final_emb :
    ((dats (F := Ideal) m 0 c).arrAt 12 cfg0.N : S10000x64.Idx → EReal)
      = fun i => GcnSpec.emb (Xc m c) (Ac m c) (W1c m c) (b1c m c) (W2c m c) (b2c m c) (i 0) (i 1) :=
  final12 c (dats (F := Ideal) m 0 c) _ fun t ht r q => by
    rw [after_12]
    exact Eout_apply (reads m c) t ht r q

end Cert.KernelIdeal.Value

end
-- ==== Proof.RefSpec.lean ====
/-
  The reference program computes the specification.

  Read at a coordinate `(r, c)`, each stage of the reference is the matching stage of the two-layer graph
  convolution: a `dot_general` with one contracting axis is the finite sum of products of entries, a transpose
  swaps the two coordinates, a bias broadcast reads the bias at the column, and the maximum with the broadcast
  zero word is the maximum with `0`.  The stages are chained from the input projection up to the projected
  embedding, each lemma using the one before it under the sum.
-/
import proofs.«133318_g652835029058_cont_9to1_m_690_17_alg».proof.Proof.Gen.ReferenceIdeal.Read
import proofs.«133318_g652835029058_cont_9to1_m_690_17_alg».proof.Proof.Spec

noncomputable section

namespace Cert.RefSpec

open Cert.ReferenceIdeal Cert.ReferenceIdeal.Gen Cert.ReferenceIdeal.Read Idealize.ShloMosaic Idealize.ShloMosaic.ValueIdx

/-! ## The index functions of the generated reads, at coordinates -/

-- x · W1ᵀ: the left factor's row r, column k; the transposed right factor at (k, c) is W1 at (c, k).
theorem lidx1 (r : Fin 10000) (c : Fin 128) (k : Fin 128) : lidx_main_v1 (ix2 r c) k = ix2 r k :=
  funext fun a => Fin.ext (by match a with | ⟨0, _⟩ => rfl | ⟨1, _⟩ => rfl)
theorem ridx1 (r : Fin 10000) (c : Fin 128) (k : Fin 128) : idx_main_v0 (ridx_main_v1 (ix2 r c) k) = ix2 c k :=
  funext fun a => Fin.ext (by match a with | ⟨0, _⟩ => rfl | ⟨1, _⟩ => rfl)
theorem bidx1 (r : Fin 10000) (c : Fin 128) : idx_main_v2 (idx_main_v3 (ix2 r c)) = ix1 c :=
  funext fun a => Fin.ext (by match a with | ⟨0, _⟩ => rfl)
-- A · p
theorem lidx5 (r : Fin 10000) (c : Fin 128) (k : Fin 10000) : lidx_main_v5 (ix2 r c) k = ix2 r k :=
  funext fun a => Fin.ext (by match a with | ⟨0, _⟩ => rfl | ⟨1, _⟩ => rfl)
theorem ridx5 (r : Fin 10000) (c : Fin 128) (k : Fin 10000) : ridx_main_v5 (ix2 r c) k = ix2 k c :=
  funext fun a => Fin.ext (by match a with | ⟨0, _⟩ => rfl | ⟨1, _⟩ => rfl)
-- relu (A · p) · W2ᵀ
theorem lidx8 (r : Fin 10000) (c : Fin 64) (k : Fin 128) : lidx_main_v8 (ix2 r c) k = ix2 r k :=
  funext fun a => Fin.ext (by match a with | ⟨0, _⟩ => rfl | ⟨1, _⟩ => rfl)
theorem ridx8 (r : Fin 10000) (c : Fin 64) (k : Fin 128) : idx_main_v7 (ridx_main_v8 (ix2 r c) k) = ix2 c k :=
  funext fun a => Fin.ext (by match a with | ⟨0, _⟩ => rfl | ⟨1, _⟩ => rfl)
theorem bidx8 (r : Fin 10000) (c : Fin 64) : idx_main_v9 (idx_main_v10 (ix2 r c)) = ix1 c :=
  funext fun a => Fin.ext (by match a with | ⟨0, _⟩ => rfl)
-- A · h2
theorem lidx12 (r : Fin 10000) (c : Fin 64) (k : Fin 10000) : lidx_main_v12 (ix2 r c) k = ix2 r k :=
  funext fun a => Fin.ext (by match a with | ⟨0, _⟩ => rfl | ⟨1, _⟩ => rfl)
theorem ridx12 (r : Fin 10000) (c : Fin 64) (k : Fin 10000) : ridx_main_v12 (ix2 r c) k = ix2 k c :=
  funext fun a => Fin.ext (by match a with | ⟨0, _⟩ => rfl | ⟨1, _⟩ => rfl)
-- emb · Wp1ᵀ
theorem lidx14 (r : Fin 10000) (c : Fin 64) (k : Fin 64) : lidx_main_v14 (ix2 r c) k = ix2 r k :=
  funext fun a => Fin.ext (by match a with | ⟨0, _⟩ => rfl | ⟨1, _⟩ => rfl)
theorem ridx14 (r : Fin 10000) (c : Fin 64) (k : Fin 64) : idx_main_v13 (ridx_main_v14 (ix2 r c) k) = ix2 c k :=
  funext fun a => Fin.ext (by match a with | ⟨0, _⟩ => rfl | ⟨1, _⟩ => rfl)
theorem bidx14 (r : Fin 10000) (c : Fin 64) : idx_main_v15 (idx_main_v16 (ix2 r c)) = ix1 c :=
  funext fun a => Fin.ext (by match a with | ⟨0, _⟩ => rfl)
-- relu (…) · Wp2ᵀ
theorem lidx20 (r : Fin 10000) (c : Fin 64) (k : Fin 64) : lidx_main_v20 (ix2 r c) k = ix2 r k :=
  funext fun a => Fin.ext (by match a with | ⟨0, _⟩ => rfl | ⟨1, _⟩ => rfl)
theorem ridx20 (r : Fin 10000) (c : Fin 64) (k : Fin 64) : idx_main_v19 (ridx_main_v20 (ix2 r c) k) = ix2 c k :=
  funext fun a => Fin.ext (by match a with | ⟨0, _⟩ => rfl | ⟨1, _⟩ => rfl)
theorem bidx20 (r : Fin 10000) (c : Fin 64) : idx_main_v21 (idx_main_v22 (ix2 r c)) = ix1 c :=
  funext fun a => Fin.ext (by match a with | ⟨0, _⟩ => rfl)

/-! ## The stages at a coordinate -/

variable (a0 : (⟨S10000x128, .f32⟩ : BufTy).Contents (Elt Ideal)) (a1 : (⟨S10000x10000, .f32⟩ : BufTy).Contents (Elt Ideal)) (a2 : (⟨S128x128, .f32⟩ : BufTy).Contents (Elt Ideal)) (a3 : (⟨S128, .f32⟩ : BufTy).Contents (Elt Ideal))
  (a4 : (⟨S64x128, .f32⟩ : BufTy).Contents (Elt Ideal)) (a5 : (⟨S64, .f32⟩ : BufTy).Contents (Elt Ideal)) (a6 : (⟨S64x64, .f32⟩ : BufTy).Contents (Elt Ideal)) (a7 : (⟨S64, .f32⟩ : BufTy).Contents (Elt Ideal))
  (a8 : (⟨S64x64, .f32⟩ : BufTy).Contents (Elt Ideal)) (a9 : (⟨S64, .f32⟩ : BufTy).Contents (Elt Ideal))

/-- The input projection: entry `(r, c)` is `∑ k, x r k * W1 c k + b1 c`. -/
theorem p_apply (r : Fin 10000) (c : Fin 128) :
    val_main_v4 (F := Ideal) a0 a2 a3 (ix2 r c) = Cert.GcnSpec.proj1 (fun r k => a0 (ix2 r k)) (fun r k => a2 (ix2 r k)) (fun k => a3 (ix1 k)) r c := by
  rw [val_main_v4_apply, val_main_v1_apply, val_main_v3_apply, val_main_v2_apply, Ideal.addf_def, bidx1]
  refine congrArg₂ (· + ·) (Finset.sum_congr rfl fun k _ => ?_) rfl
  rw [val_main_v0_apply, lidx1, ridx1]
  rfl

/-- The first aggregation and its relu: entry `(r, c)` is `max (∑ k, A r k * p k c) 0`. -/
theorem ap_apply (r : Fin 10000) (c : Fin 128) :
    val_main_v6 (F := Ideal) a0 a1 a2 a3 (ix2 r c) = Cert.GcnSpec.relu (Cert.GcnSpec.mm (fun r k => a1 (ix2 r k)) (Cert.GcnSpec.proj1 (fun r k => a0 (ix2 r k)) (fun r k => a2 (ix2 r k)) (fun k => a3 (ix1 k)))) r c := by
  rw [val_main_v6_apply, val_main_v5_apply, val_main_call0_v0_apply, val_main_call0_cst_apply, Ideal.maximumf_def,
    Ideal.ofBits_def, Ideal.ofBits_zero_f32]
  refine congrArg (max · 0) (Finset.sum_congr rfl fun k _ => ?_)
  rw [lidx5, ridx5, p_apply]

/-- The second layer's input: entry `(r, c)` is `∑ k, relu (A · p) r k * W2 c k + b2 c`. -/
theorem h2_apply (r : Fin 10000) (c : Fin 64) :
    val_main_v11 (F := Ideal) a0 a1 a2 a3 a4 a5 (ix2 r c) = Cert.GcnSpec.hidden (fun r k => a1 (ix2 r k)) (Cert.GcnSpec.proj1 (fun r k => a0 (ix2 r k)) (fun r k => a2 (ix2 r k)) (fun k => a3 (ix1 k))) (fun r k => a4 (ix2 r k)) (fun k => a5 (ix1 k)) r c := by
  rw [val_main_v11_apply, val_main_v8_apply, val_main_v10_apply, val_main_v9_apply, Ideal.addf_def, bidx8]
  refine congrArg₂ (· + ·) (Finset.sum_congr rfl fun k _ => ?_) rfl
  rw [val_main_v7_apply, lidx8, ridx8, ap_apply]
  rfl

/-- The embedding: entry `(r, c)` is `∑ k, A r k * h2 k c`. -/
theorem emb_apply (r : Fin 10000) (c : Fin 64) :
    val_main_v12 (F := Ideal) a0 a1 a2 a3 a4 a5 (ix2 r c) = Cert.GcnSpec.emb (fun r k => a0 (ix2 r k)) (fun r k => a1 (ix2 r k)) (fun r k => a2 (ix2 r k)) (fun k => a3 (ix1 k)) (fun r k => a4 (ix2 r k)) (fun k => a5 (ix1 k)) r c := by
  rw [val_main_v12_apply]
  unfold Cert.GcnSpec.emb Cert.GcnSpec.mm
  refine Finset.sum_congr rfl fun k _ => ?_
  rw [lidx12, ridx12, h2_apply]

/-- The head's hidden layer: entry `(r, c)` is `max (∑ k, emb r k * Wp1 c k + bp1 c) 0`. -/
theorem q_apply (r : Fin 10000) (c : Fin 64) :
    val_main_v18 (F := Ideal) a0 a1 a2 a3 a4 a5 a6 a7 (ix2 r c)
      = Cert.GcnSpec.relu (Cert.GcnSpec.affine (Cert.GcnSpec.emb (fun r k => a0 (ix2 r k)) (fun r k => a1 (ix2 r k)) (fun r k => a2 (ix2 r k)) (fun k => a3 (ix1 k)) (fun r k => a4 (ix2 r k)) (fun k => a5 (ix1 k))) (Cert.GcnSpec.tr (fun r k => a6 (ix2 r k))) (fun k => a7 (ix1 k))) r c := by
  rw [val_main_v18_apply, val_main_v17_apply, val_main_v14_apply, val_main_v16_apply, val_main_v15_apply,
    val_main_call1_v0_apply, val_main_call1_cst_apply, Ideal.maximumf_def, Ideal.addf_def, Ideal.ofBits_def,
    Ideal.ofBits_zero_f32, bidx14]
  refine congrArg (max · 0) ?_
  refine congrArg₂ (· + ·) (Finset.sum_congr rfl fun k _ => ?_) rfl
  rw [val_main_v13_apply, lidx14, ridx14, emb_apply]
  rfl

/-- The projected embedding: entry `(r, c)` is `∑ k, q r k * Wp2 c k + bp2 c`. -/
theorem z_apply (r : Fin 10000) (c : Fin 64) :
    val_main_v23 (F := Ideal) a0 a1 a2 a3 a4 a5 a6 a7 a8 a9 (ix2 r c)
      = Cert.GcnSpec.z (fun r k => a0 (ix2 r k)) (fun r k => a1 (ix2 r k)) (fun r k => a2 (ix2 r k)) (fun k => a3 (ix1 k)) (fun r k => a4 (ix2 r k)) (fun k => a5 (ix1 k)) (fun r k => a6 (ix2 r k)) (fun k => a7 (ix1 k)) (fun r k => a8 (ix2 r k)) (fun k => a9 (ix1 k)) r c := by
  rw [val_main_v23_apply, val_main_v20_apply, val_main_v22_apply, val_main_v21_apply, Ideal.addf_def, bidx20]
  refine congrArg₂ (· + ·) (Finset.sum_congr rfl fun k _ => ?_) rfl
  rw [val_main_v19_apply, lidx20, ridx20, q_apply]
  rfl

/-! ## The two results as functions of the index -/

/-- The reference's embedding result is the specification's `emb` of the curried argument arrays. -/
theorem ref_emb :
    val_main_v12 (F := Ideal) a0 a1 a2 a3 a4 a5 = fun i => Cert.GcnSpec.emb (fun r k => a0 (ix2 r k)) (fun r k => a1 (ix2 r k)) (fun r k => a2 (ix2 r k)) (fun k => a3 (ix1 k)) (fun r k => a4 (ix2 r k)) (fun k => a5 (ix1 k)) (i 0) (i 1) := by
  funext i
  obtain ⟨r, c, rfl⟩ : ∃ (r : Fin 10000) (c : Fin 64), i = ix2 r c := ⟨i 0, i 1, eq_ix2 i⟩
  exact emb_apply a0 a1 a2 a3 a4 a5 r c

/-- The reference's projected result is the specification's `z` of the curried argument arrays. -/
theorem ref_z :
    val_main_v23 (F := Ideal) a0 a1 a2 a3 a4 a5 a6 a7 a8 a9
      = fun i => Cert.GcnSpec.z (fun r k => a0 (ix2 r k)) (fun r k => a1 (ix2 r k)) (fun r k => a2 (ix2 r k)) (fun k => a3 (ix1 k)) (fun r k => a4 (ix2 r k)) (fun k => a5 (ix1 k)) (fun r k => a6 (ix2 r k)) (fun k => a7 (ix1 k)) (fun r k => a8 (ix2 r k)) (fun k => a9 (ix1 k)) (i 0) (i 1) := by
  funext i
  obtain ⟨r, c, rfl⟩ : ∃ (r : Fin 10000) (c : Fin 64), i = ix2 r c := ⟨i 0, i 1, eq_ix2 i⟩
  exact z_apply a0 a1 a2 a3 a4 a5 a6 a7 a8 a9 r c

end Cert.RefSpec

end
-- ==== Proof.lean ====
/-
  A two-layer graph convolution over a dense adjacency matrix A (10000 × 10000) with a projection head:
      p   = x · W1ᵀ + b1,    h2 = relu (A · p) · W2ᵀ + b2,    emb = A · h2,    z = relu (emb · Wp1ᵀ + bp1) · Wp2ᵀ + bp2.
  The reference computes the five products over whole arrays.  The kernel streams A twice, 400 rows at a time (two
  windows of 200 rows each on the one array): at the first grid point it computes p into a scratch buffer; the 25 points
  of the first pass fill a second scratch buffer with h2, 400 rows per point; the 25 points of the second pass compute
  their 400 rows of emb and z, which are then written back.  Row r of a product reads row r of its left factor only, so
  the rows computed block by block are the rows of the whole products: over the extended reals both programs compute the
  same sums of the same products, and no law beyond that is used (the precondition is never opened).

  The kernel's run — it terminates, faults nowhere, leaves its arguments unchanged and ends with each result array at
  what the write-backs leave — is proved once for any float instance and read at the words for the first frame and at the
  extended reals for the second frame and the equivalence; the reference's run is its generated one.
-/
import proofs.«133318_g652835029058_cont_9to1_m_690_17_alg».proof.Defs
import proofs.«133318_g652835029058_cont_9to1_m_690_17_alg».proof.Proof.Gen.Kernel
import proofs.«133318_g652835029058_cont_9to1_m_690_17_alg».proof.Proof.Gen.KernelIdeal
import proofs.«133318_g652835029058_cont_9to1_m_690_17_alg».proof.Proof.Gen.ReferenceIdeal
import proofs.«133318_g652835029058_cont_9to1_m_690_17_alg».proof.Proof.Gen.ReferenceIdeal.Run
import proofs.«133318_g652835029058_cont_9to1_m_690_17_alg».proof.Proof.Gen.ReferenceIdeal.Read
import proofs.«133318_g652835029058_cont_9to1_m_690_17_alg».proof.Proof.Gen.Pre_finite_inputs
import proofs.«133318_g652835029058_cont_9to1_m_690_17_alg».proof.Proof.WRun
import proofs.«133318_g652835029058_cont_9to1_m_690_17_alg».proof.Proof.KRun
import proofs.«133318_g652835029058_cont_9to1_m_690_17_alg».proof.Proof.KValue
import proofs.«133318_g652835029058_cont_9to1_m_690_17_alg».proof.Proof.RefSpec
import Idealize.ShloMosaic.Adequacy
import Idealize.ShloMosaic.Init

noncomputable section

namespace Cert.Proof

open Idealize.ShloMosaic Idealize.SL.Sem

/-- The program as printed runs and leaves its arguments unchanged. -/
theorem frame_words : Cert.frame_Kernel := fun m ρ _ =>
  Cert.Kernel.Hand.frame_of_run m ρ (Cert.Kernel.Hand.run_main (F := Bits) m ρ)

/-- So does its reading over the extended reals. -/
theorem frame_ideal : Cert.frame_KernelIdeal := fun m ρ _ =>
  Cert.KernelIdeal.Hand.frame_of_run m ρ (Cert.KernelIdeal.Hand.run_main (F := Ideal) m ρ)

/-- The reference is a straight line of host operations: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Over the extended reals the two programs, run from memories that agree on the arguments, end with the same two
    arrays: the kernel's blocks of rows are the rows of the whole products, which are what the reference computes. -/
theorem algebraic : Cert.algebraic_KernelIdeal_ReferenceIdeal := by
  intro m ρ m' ρ' _ hagree
  refine ⟨fun c => fun i => Cert.GcnSpec.z (Cert.KernelIdeal.Value.Xc m c) (Cert.KernelIdeal.Value.Ac m c)
      (Cert.KernelIdeal.Value.W1c m c) (Cert.KernelIdeal.Value.b1c m c) (Cert.KernelIdeal.Value.W2c m c)
      (Cert.KernelIdeal.Value.b2c m c) (Cert.KernelIdeal.Value.Wp1c m c) (Cert.KernelIdeal.Value.bp1c m c)
      (Cert.KernelIdeal.Value.Wp2c m c) (Cert.KernelIdeal.Value.bp2c m c) (i 0) (i 1),
    fun c => fun i => Cert.GcnSpec.emb (Cert.KernelIdeal.Value.Xc m c) (Cert.KernelIdeal.Value.Ac m c)
      (Cert.KernelIdeal.Value.W1c m c) (Cert.KernelIdeal.Value.b1c m c) (Cert.KernelIdeal.Value.W2c m c)
      (Cert.KernelIdeal.Value.b2c m c) (i 0) (i 1), ?_, ?_⟩
  · refine (θ_run Cert.KernelIdeal.defs _ _).mono (fun r h c => ?_)
      (Cert.KernelIdeal.Hand.posts_of_run m ρ (Cert.KernelIdeal.Hand.run_main (F := Ideal) m ρ))
    obtain ⟨hz, he, hargs⟩ := h c
    exact ⟨hz.trans (Cert.KernelIdeal.Value.final_z m c), he.trans (Cert.KernelIdeal.Value.final_emb m c), hargs⟩
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v23_eq, Cert.RefSpec.ref_z]
      obtain ⟨e0, e1, e2, e3, e4, e5, e6, e7, e8, e9⟩ := hagree c
      rw [e0, e1, e2, e3, e4, e5, e6, e7, e8, e9]
      rfl
    · rw [(h c).2.1, Cert.ReferenceIdeal.Read.val_main_v12_eq, Cert.RefSpec.ref_emb]
      obtain ⟨e0, e1, e2, e3, e4, e5, e6, e7, e8, e9⟩ := hagree c
      rw [e0, e1, e2, e3, e4, e5]
      rfl

/-- The certificate's claim. -/
theorem claim : Cert.Claim :=
  ⟨Cert.Kernel.Gen.facts, Cert.KernelIdeal.Gen.facts, Cert.ReferenceIdeal.Gen.facts, Cert.Pre_finite_inputs.Gen.facts,
    frame_words, frame_ideal, frame_reference, preserves, algebraic⟩

end Cert.Proof

end
